-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v42) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x64 : Shape := ⟨2, ![2000000, 64]⟩
abbrev S8x64 : Shape := ⟨2, ![8, 64]⟩
abbrev S_ : Shape := ⟨0, ![]⟩

class Facts : Prop where
  bcast_S_S2000000x64 : S_.BroadcastsInDim S2000000x64 (![] : Fin 0 → Fin S2000000x64.rank)
  reducesTo_S2000000x64_S_d0_1 : S2000000x64.ReducesTo [0, 1] S_
  h_S_ : 0 < S_.numel

variable [Facts]

def fn {F : FTy → Type} [FloatOps F] (main_arg0 : FVec F S2000000x64 .f32) (main_arg1 : IVec S8x64 1) : IVec S_ 1 :=
  let main_v0 : FVec F S2000000x64 .f32 := Host.absf main_arg0
  let main_cst : FVec F S_ .f32 := constant S_ .f32 0x7F800000#32
  let main_v1 : FVec F S2000000x64 .f32 := broadcastInDim S2000000x64 ![] bcast_S_S2000000x64 main_cst
  let main_v2 : IVec S2000000x64 1 := cmpf .olt main_v0 main_v1
  let main_c : IVec S_ 1 := constantI S_ 1 1#1
  let main_v3 : IVec S_ 1 := (fun x v => Host.reduce IntOp.andi x v reducesTo_S2000000x64_S_d0_1 h_S_) main_v2 main_c
  main_v3
-- ==== Kernel.lean ====
abbrev S2000000x64 : Shape := ⟨2, ![2000000, 64]⟩
abbrev S8x64 : Shape := ⟨2, ![8, 64]⟩
abbrev S2x8x1 : Shape := ⟨3, ![2, 8, 1]⟩
abbrev S20000x64 : Shape := ⟨2, ![20000, 64]⟩
abbrev S1x8x1 : Shape := ⟨3, ![1, 8, 1]⟩
abbrev S8x20000 : Shape := ⟨2, ![8, 20000]⟩
abbrev S8 : Shape := ⟨1, ![8]⟩
abbrev S8x1 : Shape := ⟨2, ![8, 1]⟩
abbrev S2x8 : Shape := ⟨2, ![2, 8]⟩
abbrev S_ : Shape := ⟨0, ![]⟩
abbrev S2x8x10x10 : Shape := ⟨4, ![2, 8, 10, 10]⟩
abbrev S2000x64 : Shape := ⟨2, ![2000, 64]⟩
abbrev S1x8x10x10 : Shape := ⟨4, ![1, 8, 10, 10]⟩
abbrev S8x2000 : Shape := ⟨2, ![8, 2000]⟩
abbrev S1x1x10 : Shape := ⟨3, ![1, 1, 10]⟩
abbrev S8x2000x1 : Shape := ⟨3, ![8, 2000, 1]⟩
abbrev S8x2000x10 : Shape := ⟨3, ![8, 2000, 10]⟩
abbrev S8x10x10 : Shape := ⟨3, ![8, 10, 10]⟩
abbrev S8x1x1 : Shape := ⟨3, ![8, 1, 1]⟩
abbrev S8x10 : Shape := ⟨2, ![8, 10]⟩
abbrev S8x10x1 : Shape := ⟨3, ![8, 10, 1]⟩
abbrev S8x1x10 : Shape := ⟨3, ![8, 1, 10]⟩

abbrev nBuf : Space → Nat
  | .hbm => 65
  | .vmem => 22
  | .smem => 0
  | _ => 0

abbrev bufTy : (tb : Table) → Fin (tcTables nBuf tb) → BufTy
  | .hbm, ⟨0, _⟩ => ⟨S2000000x64, .f32⟩
  | .hbm, ⟨1, _⟩ => ⟨S8x64, .i1⟩
  | .hbm, ⟨2, _⟩ => ⟨S8x64, .f32⟩
  | .hbm, ⟨3, _⟩ => ⟨S2x8x1, .f32⟩
  | .hbm, ⟨4, _⟩ => ⟨S2x8x1, .f32⟩
  | .hbm, ⟨5, _⟩ => ⟨S2x8x1, .f32⟩
  | .hbm, ⟨6, _⟩ => ⟨S2x8x1, .f32⟩
  | .hbm, ⟨7, _⟩ => ⟨S2x8, .f32⟩
  | .hbm, ⟨8, _⟩ => ⟨S_, .f32⟩
  | .hbm, ⟨9, _⟩ => ⟨S8, .f32⟩
  | .hbm, ⟨10, _⟩ => ⟨S8x1, .f32⟩
  | .hbm, ⟨11, _⟩ => ⟨S2x8, .f32⟩
  | .hbm, ⟨12, _⟩ => ⟨S_, .f32⟩
  | .hbm, ⟨13, _⟩ => ⟨S8, .f32⟩
  | .hbm, ⟨14, _⟩ => ⟨S8x1, .f32⟩
  | .hbm, ⟨15, _⟩ => ⟨S2x8, .f32⟩
  | .hbm, ⟨16, _⟩ => ⟨S_, .f32⟩
  | .hbm, ⟨17, _⟩ => ⟨S8, .f32⟩
  | .hbm, ⟨18, _⟩ => ⟨S8x1, .f32⟩
  | .hbm, ⟨19, _⟩ => ⟨S2x8, .f32⟩
  | .hbm, ⟨20, _⟩ => ⟨S_, .f32⟩
  | .hbm, ⟨21, _⟩ => ⟨S8, .f32⟩
  | .hbm, ⟨22, _⟩ => ⟨S8x1, .f32⟩
  | .hbm, ⟨23, _⟩ => ⟨S_, .f32⟩
  | .hbm, ⟨24, _⟩ => ⟨S8, .f32⟩
  | .hbm, ⟨25, _⟩ => ⟨S8x1, .f32⟩
  | .hbm, ⟨26, _⟩ => ⟨S_, .f32⟩
  | .hbm, ⟨27, _⟩ => ⟨S8x1, .f32⟩
  | .hbm, ⟨28, _⟩ => ⟨S8x1, .f32⟩
  | .hbm, ⟨29, _⟩ => ⟨S2x8x10x10, .f32⟩
  | .hbm, ⟨30, _⟩ => ⟨S_, .f32⟩
  | .hbm, ⟨31, _⟩ => ⟨S8x10x10, .f32⟩
  | .hbm, ⟨32, _⟩ => ⟨S_, .f32⟩
  | .hbm, ⟨33, _⟩ => ⟨S8, .f32⟩
  | .hbm, ⟨34, _⟩ => ⟨S8x1x1, .f32⟩
  | .hbm, ⟨35, _⟩ => ⟨S_, .f32⟩
  | .hbm, ⟨36, _⟩ => ⟨S8x1x1, .f32⟩
  | .hbm, ⟨37, _⟩ => ⟨S8x1x1, .f32⟩
  | .hbm, ⟨38, _⟩ => ⟨S8x10x10, .f32⟩
  | .hbm, ⟨39, _⟩ => ⟨S8x10x10, .f32⟩
  | .hbm, ⟨40, _⟩ => ⟨S_, .f32⟩
  | .hbm, ⟨41, _⟩ => ⟨S8x10, .f32⟩
  | .hbm, ⟨42, _⟩ => ⟨S_, .f32⟩
  | .hbm, ⟨43, _⟩ => ⟨S8x10, .f32⟩
  | .hbm, ⟨44, _⟩ => ⟨S8x10x1, .f32⟩
  | .hbm, ⟨45, _⟩ => ⟨S8x1x10, .f32⟩
  | .hbm, ⟨46, _⟩ => ⟨S8x10x10, .f32⟩
  | .hbm, ⟨47, _⟩ => ⟨S8x10x10, .f32⟩
  | .hbm, ⟨48, _⟩ => ⟨S8x10x10, .f32⟩
  | .hbm, ⟨49, _⟩ => ⟨S_, .f32⟩
  | .hbm, ⟨50, _⟩ => ⟨S8x10x10, .f32⟩
  | .hbm, ⟨51, _⟩ => ⟨S8x10x10, .f32⟩
  | .hbm, ⟨52, _⟩ => ⟨S_, .f32⟩
  | .hbm, ⟨53, _⟩ => ⟨S8x10x10, .f32⟩
  | .hbm, ⟨54, _⟩ => ⟨S8x10x10, .f32⟩
  | .hbm, ⟨55, _⟩ => ⟨S8x10x10, .f32⟩
  | .hbm, ⟨56, _⟩ => ⟨S8x10x10, .f32⟩
  | .hbm, ⟨57, _⟩ => ⟨S8x10x10, .f32⟩
  | .hbm, ⟨58, _⟩ => ⟨S_, .f32⟩
  | .hbm, ⟨59, _⟩ => ⟨S8, .f32⟩
  | .hbm, ⟨60, _⟩ => ⟨S_, .f32⟩
  | .hbm, ⟨61, _⟩ => ⟨S8, .f32⟩
  | .hbm, ⟨62, _⟩ => ⟨S8, .f32⟩
  | .hbm, ⟨63, _⟩ => ⟨S_, .f32⟩
  | .hbm, ⟨64, _⟩ => ⟨S_, .f32⟩
  | .local _ .vmem, ⟨0, _⟩ => ⟨S20000x64, .f32⟩
  | .local _ .vmem, ⟨1, _⟩ => ⟨S20000x64, .f32⟩
  | .local _ .vmem, ⟨2, _⟩ => ⟨S8x64, .f32⟩
  | .local _ .vmem, ⟨3, _⟩ => ⟨S1x8x1, .f32⟩
  | .local _ .vmem, ⟨4, _⟩ => ⟨S1x8x1, .f32⟩
  | .local _ .vmem, ⟨5, _⟩ => ⟨S1x8x1, .f32⟩
  | .local _ .vmem, ⟨6, _⟩ => ⟨S1x8x1, .f32⟩
  | .local _ .vmem, ⟨7, _⟩ => ⟨S1x8x1, .f32⟩
  | .local _ .vmem, ⟨8, _⟩ => ⟨S1x8x1, .f32⟩
  | .local _ .vmem, ⟨9, _⟩ => ⟨S1x8x1, .f32⟩
  | .local _ .vmem, ⟨10, _⟩ => ⟨S1x8x1, .f32⟩
  | .local _ .vmem, ⟨11, _⟩ => ⟨S2000x64, .f32⟩
  | .local _ .vmem, ⟨12, _⟩ => ⟨S2000x64, .f32⟩
  | .local _ .vmem, ⟨13, _⟩ => ⟨S8x64, .f32⟩
  | .local _ .vmem, ⟨14, _⟩ => ⟨S8x1, .f32⟩
  | .local _ .vmem, ⟨15, _⟩ => ⟨S8x1, .f32⟩
  | .local _ .vmem, ⟨16, _⟩ => ⟨S8x1, .f32⟩
  | .local _ .vmem, ⟨17, _⟩ => ⟨S8x1, .f32⟩
  | .local _ .vmem, ⟨18, _⟩ => ⟨S8x1, .f32⟩
  | .local _ .vmem, ⟨19, _⟩ => ⟨S8x1, .f32⟩
  | .local _ .vmem, ⟨20, _⟩ => ⟨S1x8x10x10, .f32⟩
  | .local _ .vmem, ⟨21, _⟩ => ⟨S1x8x10x10, .f32⟩
  | _, _ => ⟨S2000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_10 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_cst_14 : Ref sig .tc := ⟨.hbm, 63, rfl⟩
abbrev main_v43 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨2, ![2, 50], ![false, false]⟩

def cc0_transform_0 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S20000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![2, 500], ![false, false]⟩

def cc1_transform_0 (i : grid1.Coords) : Fin 2 → Nat :=
  let arg0 : BitVec 32 := BitVec.ofNat 32 (i 0).val
  let arg1 : BitVec 32 := BitVec.ofNat 32 (i 1).val
  let c500_i32 : BitVec 32 := 500#32
  let v0 : BitVec 32 := Scalar.muli arg0 c500_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S8x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S8x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S8x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S8x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S8x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S8x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1x8x10x10 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

class Facts₀ : Prop where
  inb_S20000x64_S20000x64_0_0 : ∀ a, (![0, 0] : Fin 2 → Nat) a + S20000x64.size a ≤ S20000x64.size a
  h_S20000x64 : 0 < S20000x64.numel
  inb_S8x64_S8x64_0_0 : ∀ a, (![0, 0] : Fin 2 → Nat) a + S8x64.size a ≤ S8x64.size a
  h_S8x64 : 0 < S8x64.numel
  shapeCasts_S8x64_S8x64 : S8x64.ShapeCasts S8x64
  reduces_S8x20000_S8 : S8x20000.Reduces [1] S8
  shapeCasts_S8_S8x1 : S8.ShapeCasts S8x1
  inb_S1x8x1_S1x8x1_0_0_0 : ∀ a, (![0, 0, 0] : Fin 3 → Nat) a + S1x8x1.size a ≤ S1x8x1.size a
  h_S1x8x1 : 0 < S1x8x1.numel
  shapeCasts_S1x8x1_S8x1 : S1x8x1.ShapeCasts S8x1
  shapeCasts_S8x1_S1x8x1 : S8x1.ShapeCasts S1x8x1
  shapeCasts_S2x8x1_S2x8 : S2x8x1.ShapeCasts S2x8
  reducesTo_S2x8_S8_d0 : S2x8.ReducesTo [0] S8
  h_S_ : 0 < S_.numel
  bcast_S8_S8x1_0 : S8.BroadcastsInDim S8x1 (![0] : Fin 1 → Fin S8x1.rank)
  reducesTo_S8x64_S8_d1 : S8x64.ReducesTo [1] S8
  bcast_S_S8x1 : S_.BroadcastsInDim S8x1 (![] : Fin 0 → Fin S8x1.rank)
  inb_S2000x64_S2000x64_0_0 : ∀ a, (![0, 0] : Fin 2 → Nat) a + S2000x64.size a ≤ S2000x64.size a
  h_S2000x64 : 0 < S2000x64.numel
  inb_S8x1_S8x1_0_0 : ∀ a, (![0, 0] : Fin 2 → Nat) a + S8x1.size a ≤ S8x1.size a
  h_S8x1 : 0 < S8x1.numel
  shapeCasts_S8x1_S8x1 : S8x1.ShapeCasts S8x1
  broadcasts_S8x1_S8x2000 : S8x1.Broadcasts S8x2000
  iota_S1x1x10_d2_w32 : S1x1x10.Iotas .tc 32 [2]
  shapeCasts_S8x2000_S8x2000x1 : S8x2000.ShapeCasts S8x2000x1
  broadcasts_S8x2000x1_S8x2000x10 : S8x2000x1.Broadcasts S8x2000x10
  broadcasts_S1x1x10_S8x2000x10 : S1x1x10.Broadcasts S8x2000x10
  natLt_1_32 : 1 < 32
  bitsLt_bf16_f32 : FTy.bits .bf16 < FTy.bits .f32
  inb_S1x8x10x10_S1x8x10x10_0_0_0_0 : ∀ a, (![0, 0, 0, 0] : Fin 4 → Nat) a + S1x8x10x10.size a ≤ S1x8x10x10.size a
  h_S1x8x10x10 : 0 < S1x8x10x10.numel
  shapeCasts_S1x8x10x10_S8x10x10 : S1x8x10x10.ShapeCasts S8x10x10
  shapeCasts_S8x10x10_S1x8x10x10 : S8x10x10.ShapeCasts S1x8x10x10
  reducesTo_S2x8x10x10_S8x10x10_d0 : S2x8x10x10.ReducesTo [0] S8x10x10
  reducesTo_S8x10x10_S8_d1_2 : S8x10x10.ReducesTo [1, 2] S8
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S8x1x1_S8x10x10_0_1_2 : S8x1x1.BroadcastsInDim S8x10x10 (![0, 1, 2] : Fin 3 → Fin S8x10x10.rank)
  reducesTo_S8x10x10_S8x10_d2 : S8x10x10.ReducesTo [2] S8x10
  reducesTo_S8x10x10_S8x10_d1 : S8x10x10.ReducesTo [1] S8x10
  bcast_S8x10_S8x10x1_0_1 : S8x10.BroadcastsInDim S8x10x1 (![0, 1] : Fin 2 → Fin S8x10x1.rank)
  bcast_S8x10_S8x1x10_0_2 : S8x10.BroadcastsInDim S8x1x10 (![0, 2] : Fin 2 → Fin S8x1x10.rank)
  bcast_S8x10x1_S8x10x10_0_1_2 : S8x10x1.BroadcastsInDim S8x10x10 (![0, 1, 2] : Fin 3 → Fin S8x10x10.rank)
  bcast_S8x1x10_S8x10x10_0_1_2 : S8x1x10.BroadcastsInDim S8x10x10 (![0, 1, 2] : Fin 3 → Fin S8x10x10.rank)
  bcast_S_S8x10x10 : S_.BroadcastsInDim S8x10x10 (![] : Fin 0 → Fin S8x10x10.rank)
  bcast_S_S8 : S_.BroadcastsInDim S8 (![] : Fin 0 → Fin S8.rank)
  reducesTo_S8_S_d0 : S8.ReducesTo [0] S_
  dot_S8x64_S20000x64_S8x20000_1_1_0_0_n_n_wf : DotDims.WF S8x64 S20000x64 S8x20000 [1] [1] [0] [0] [] []
  dot_S8x64_S2000x64_S8x2000_1_1_0_0_n_n_wf : DotDims.WF S8x64 S2000x64 S8x2000 [1] [1] [0] [0] [] []
  dot_S8x2000x10_S8x2000x10_S8x10x10_1_1_2_2_0_0_wf : DotDims.WF S8x2000x10 S8x2000x10 S8x10x10 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x64.size a ≤ S2000000x64.size a
  hwx0_0 : ∀ i : grid0.Coords, EltTy.bits .f32 = 32 ∨ (Rect.block (s := S2000000x64) S20000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x64.size a ≤ S8x64.size a
  hwx0_1 : ∀ i : grid0.Coords, EltTy.bits .f32 = 32 ∨ (Rect.block (s := S8x64) S8x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x1.size a ≤ S2x8x1.size a
  hwx0_2 : ∀ i : grid0.Coords, EltTy.bits .f32 = 32 ∨ (Rect.block (s := S2x8x1) S1x8x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x1.size a ≤ S2x8x1.size a
  hwx0_3 : ∀ i : grid0.Coords, EltTy.bits .f32 = 32 ∨ (Rect.block (s := S2x8x1) S1x8x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x1.size a ≤ S2x8x1.size a
  hwx0_4 : ∀ i : grid0.Coords, EltTy.bits .f32 = 32 ∨ (Rect.block (s := S2x8x1) S1x8x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x1.size a ≤ S2x8x1.size a
  hwx0_5 : ∀ i : grid0.Coords, EltTy.bits .f32 = 32 ∨ (Rect.block (s := S2x8x1) S1x8x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S2000000x64.size a
  hwx1_0 : ∀ i : grid1.Coords, EltTy.bits .f32 = 32 ∨ (Rect.block (s := S2000000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x64.size a ≤ S8x64.size a
  hwx1_1 : ∀ i : grid1.Coords, EltTy.bits .f32 = 32 ∨ (Rect.block (s := S8x64) S8x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x1.size a ≤ S8x1.size a
  hwx1_2 : ∀ i : grid1.Coords, EltTy.bits .f32 = 32 ∨ (Rect.block (s := S8x1) S8x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x1.size a ≤ S8x1.size a
  hwx1_3 : ∀ i : grid1.Coords, EltTy.bits .f32 = 32 ∨ (Rect.block (s := S8x1) S8x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x1.size a ≤ S8x1.size a
  hwx1_4 : ∀ i : grid1.Coords, EltTy.bits .f32 = 32 ∨ (Rect.block (s := S8x1) S8x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x1.size a ≤ S8x1.size a
  hwx1_5 : ∀ i : grid1.Coords, EltTy.bits .f32 = 32 ∨ (Rect.block (s := S8x1) S8x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S8x1.size a ≤ S8x1.size a
  hwx1_6 : ∀ i : grid1.Coords, EltTy.bits .f32 = 32 ∨ (Rect.block (s := S8x1) S8x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S8x1.size a ≤ S8x1.size a
  hwx1_7 : ∀ i : grid1.Coords, EltTy.bits .f32 = 32 ∨ (Rect.block (s := S8x1) S8x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x8x10x10.size a ≤ S2x8x10x10.size a
  hwx1_8 : ∀ i : grid1.Coords, EltTy.bits .f32 = 32 ∨ (Rect.block (s := S2x8x10x10) S1x8x10x10.size (cc1_transform_8 i) (hinb1_8 i)).WholeWords (EltTy.packing .f32)

variable [Facts₀]

def dot_S8x64_S20000x64_S8x20000_1_1_0_0_n_n : DotDims S8x64 S20000x64 S8x20000 where
  lhsContracting := [1]
  rhsContracting := [1]
  lhsNonContracting := [0]
  rhsNonContracting := [0]
  lhsBatch := []
  rhsBatch := []
  wf := dot_S8x64_S20000x64_S8x20000_1_1_0_0_n_n_wf
def dot_S8x64_S2000x64_S8x2000_1_1_0_0_n_n : DotDims S8x64 S2000x64 S8x2000 where
  lhsContracting := [1]
  rhsContracting := [1]
  lhsNonContracting := [0]
  rhsNonContracting := [0]
  lhsBatch := []
  rhsBatch := []
  wf := dot_S8x64_S2000x64_S8x2000_1_1_0_0_n_n_wf
def dot_S8x2000x10_S8x2000x10_S8x10x10_1_1_2_2_0_0 : DotDims S8x2000x10 S8x2000x10 S8x10x10 where
  lhsContracting := [1]
  rhsContracting := [1]
  lhsNonContracting := [2]
  rhsNonContracting := [2]
  lhsBatch := [0]
  rhsBatch := [0]
  wf := dot_S8x2000x10_S8x2000x10_S8x10x10_1_1_2_2_0_0_wf

abbrev win0_0 : Pipeline.Window sig grid0 :=
  Pipeline.Window.ofSpec (Memref.whole main_arg0) S20000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x8x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x8x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x8x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_3) S1x8x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S8x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S8x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S8x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S8x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S8x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v13) S8x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v18) S1x8x10x10.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S2000000x64 : Shape := ⟨2, ![2000000, 64]⟩
abbrev S8x64 : Shape := ⟨2, ![8, 64]⟩
abbrev S_ : Shape := ⟨0, ![]⟩
abbrev S8 : Shape := ⟨1, ![8]⟩
abbrev S8x1 : Shape := ⟨2, ![8, 1]⟩
abbrev S8x2000000 : Shape := ⟨2, ![8, 2000000]⟩
abbrev S8x10x10 : Shape := ⟨3, ![8, 10, 10]⟩
abbrev S8x2000000x1 : Shape := ⟨3, ![8, 2000000, 1]⟩
abbrev S8x2000000x3 : Shape := ⟨3, ![8, 2000000, 3]⟩
abbrev S8x1x1 : Shape := ⟨3, ![8, 1, 1]⟩
abbrev S8x10 : Shape := ⟨2, ![8, 10]⟩
abbrev S8x10x1 : Shape := ⟨3, ![8, 10, 1]⟩
abbrev S8x1x10 : Shape := ⟨3, ![8, 1, 10]⟩

abbrev nBuf : Space → Nat
  | .hbm => 136
  | .vmem => 0
  | .smem => 0
  | _ => 0

abbrev hbmTy0_0 (i : Nat) : BufTy := match i % 128 with
  | 0 => ⟨S2000000x64, .f32⟩
  | 1 => ⟨S8x64, .i1⟩
  | 2 => ⟨S8x64, .f32⟩
  | 3 => ⟨S_, .f32⟩
  | 4 => ⟨S8x64, .f32⟩
  | 5 => ⟨S8x64, .f32⟩
  | 6 => ⟨S_, .f32⟩
  | 7 => ⟨S8, .f32⟩
  | 8 => ⟨S8x1, .f32⟩
  | 9 => ⟨S_, .f32⟩
  | 10 => ⟨S8, .f32⟩
  | 11 => ⟨S8x1, .f32⟩
  | 12 => ⟨S8x2000000, .f32⟩
  | 13 => ⟨S8x2000000, .f32⟩
  | 14 => ⟨S8x2000000, .f32⟩
  | 15 => ⟨S8x2000000, .f32⟩
  | 16 => ⟨S_, .f32⟩
  | 17 => ⟨S8, .f32⟩
  | 18 => ⟨S8x1, .f32⟩
  | 19 => ⟨S_, .f32⟩
  | 20 => ⟨S8, .f32⟩
  | 21 => ⟨S8x1, .f32⟩
  | 22 => ⟨S8x2000000, .f32⟩
  | 23 => ⟨S8x2000000, .f32⟩
  | 24 => ⟨S8x1, .f32⟩
  | 25 => ⟨S_, .f32⟩
  | 26 => ⟨S8x1, .f32⟩
  | 27 => ⟨S8x1, .f32⟩
  | 28 => ⟨S8x2000000, .f32⟩
  | 29 => ⟨S8x2000000, .f32⟩
  | 30 => ⟨S8x2000000, .f32⟩
  | 31 => ⟨S8x2000000, .f32⟩
  | 32 => ⟨S_, .f32⟩
  | 33 => ⟨S8, .f32⟩
  | 34 => ⟨S8x1, .f32⟩
  | 35 => ⟨S_, .f32⟩
  | 36 => ⟨S8, .f32⟩
  | 37 => ⟨S8x1, .f32⟩
  | 38 => ⟨S8x2000000, .f32⟩
  | 39 => ⟨S8x2000000, .f32⟩
  | 40 => ⟨S8x1, .f32⟩
  | 41 => ⟨S_, .f32⟩
  | 42 => ⟨S8x1, .f32⟩
  | 43 => ⟨S8x1, .f32⟩
  | 44 => ⟨S8x2000000, .f32⟩
  | 45 => ⟨S8x2000000, .f32⟩
  | 46 => ⟨S_, .f32⟩
  | 47 => ⟨S8x2000000, .f32⟩
  | 48 => ⟨S8x2000000, .f32⟩
  | 49 => ⟨S8x2000000, .i32⟩
  | 50 => ⟨S_, .i32⟩
  | 51 => ⟨S_, .i32⟩
  | 52 => ⟨S_, .i32⟩
  | 53 => ⟨S8x2000000, .i32⟩
  | 54 => ⟨S8x2000000, .i32⟩
  | 55 => ⟨S_, .i32⟩
  | 56 => ⟨S8x2000000, .i32⟩
  | 57 => ⟨S8x2000000, .i32⟩
  | 58 => ⟨S_, .f32⟩
  | 59 => ⟨S8x2000000, .f32⟩
  | 60 => ⟨S8x2000000, .f32⟩
  | 61 => ⟨S8x2000000, .i32⟩
  | 62 => ⟨S_, .i32⟩
  | 63 => ⟨S_, .i32⟩
  | 64 => ⟨S_, .i32⟩
  | 65 => ⟨S8x2000000, .i32⟩
  | 66 => ⟨S8x2000000, .i32⟩
  | 67 => ⟨S_, .i32⟩
  | 68 => ⟨S8x2000000, .i32⟩
  | 69 => ⟨S8x2000000, .i32⟩
  | 70 => ⟨S8, .i32⟩
  | 71 => ⟨S8x1, .i32⟩
  | 72 => ⟨S8x2000000, .i32⟩
  | 73 => ⟨S_, .f32⟩
  | 74 => ⟨S8x10x10, .f32⟩
  | 75 => ⟨S_, .i32⟩
  | 76 => ⟨S8x2000000, .i32⟩
  | 77 => ⟨S8x2000000, .i1⟩
  | 78 => ⟨S_, .i32⟩
  | 79 => ⟨S8x2000000, .i32⟩
  | 80 => ⟨S8x2000000, .i32⟩
  | 81 => ⟨S8x2000000, .i32⟩
  | 82 => ⟨S_, .i32⟩
  | 83 => ⟨S8x2000000, .i32⟩
  | 84 => ⟨S8x2000000, .i1⟩
  | 85 => ⟨S_, .i32⟩
  | 86 => ⟨S8x2000000, .i32⟩
  | 87 => ⟨S8x2000000, .i32⟩
  | 88 => ⟨S8x2000000, .i32⟩
  | 89 => ⟨S_, .i32⟩
  | 90 => ⟨S8x2000000, .i32⟩
  | 91 => ⟨S8x2000000, .i1⟩
  | 92 => ⟨S_, .i32⟩
  | 93 => ⟨S8x2000000, .i32⟩
  | 94 => ⟨S8x2000000, .i32⟩
  | 95 => ⟨S8x2000000, .i32⟩
  | 96 => ⟨S8x2000000x1, .i32⟩
  | 97 => ⟨S8x2000000x1, .i32⟩
  | 98 => ⟨S8x2000000x1, .i32⟩
  | 99 => ⟨S8x2000000x3, .i32⟩
  | 100 => ⟨S_, .f32⟩
  | 101 => ⟨S8x2000000, .f32⟩
  | 102 => ⟨S8x10x10, .f32⟩
  | 103 => ⟨S_, .f32⟩
  | 104 => ⟨S8, .f32⟩
  | 105 => ⟨S8x1x1, .f32⟩
  | 106 => ⟨S_, .f32⟩
  | 107 => ⟨S8x1x1, .f32⟩
  | 108 => ⟨S8x1x1, .f32⟩
  | 109 => ⟨S8x10x10, .f32⟩
  | 110 => ⟨S8x10x10, .f32⟩
  | 111 => ⟨S_, .f32⟩
  | 112 => ⟨S8x10, .f32⟩
  | 113 => ⟨S_, .f32⟩
  | 114 => ⟨S8x10, .f32⟩
  | 115 => ⟨S8x10x1, .f32⟩
  | 116 => ⟨S8x1x10, .f32⟩
  | 117 => ⟨S8x10x10, .f32⟩
  | 118 => ⟨S8x10x10, .f32⟩
  | 119 => ⟨S8x10x10, .f32⟩
  | 120 => ⟨S_, .f32⟩
  | 121 => ⟨S8x10x10, .f32⟩
  | 122 => ⟨S8x10x10, .f32⟩
  | 123 => ⟨S_, .f32⟩
  | 124 => ⟨S8x10x10, .f32⟩
  | 125 => ⟨S8x10x10, .f32⟩
  | 126 => ⟨S8x10x10, .f32⟩
  | 127 => ⟨S8x10x10, .f32⟩
  | _ => ⟨S2000000x64, .f32⟩

abbrev hbmTy0_1 (i : Nat) : BufTy := match i % 128 with
  | 0 => ⟨S8x10x10, .f32⟩
  | 1 => ⟨S_, .f32⟩
  | 2 => ⟨S8, .f32⟩
  | 3 => ⟨S_, .f32⟩
  | 4 => ⟨S8, .f32⟩
  | 5 => ⟨S8, .f32⟩
  | 6 => ⟨S_, .f32⟩
  | 7 => ⟨S_, .f32⟩
  | _ => ⟨S2000000x64, .f32⟩

abbrev hbmTy (i : Nat) : BufTy := match i / 128 with
  | 0 => hbmTy0_0 i
  | 1 => hbmTy0_1 i
  | _ => ⟨S2000000x64, .f32⟩

abbrev bufTy : (tb : Table) → Fin (tcTables nBuf tb) → BufTy
  | .hbm, ⟨i, _⟩ => hbmTy i
  | _, _ => ⟨S2000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_7 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_8 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c : Ref sig .tc := ⟨.hbm, 50, rfl⟩
abbrev main_c_9 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_v38 : Ref sig .tc := ⟨.hbm, 57, rfl⟩
abbrev main_cst_10 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_11 : Ref sig .tc := ⟨.hbm, 62, rfl⟩
abbrev main_c_12 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_13 : Ref sig .tc := ⟨.hbm, 73, rfl⟩
abbrev main_v46 : Ref sig .tc := ⟨.hbm, 74, rfl⟩
abbrev main_c_14 : Ref sig .tc := ⟨.hbm, 75, rfl⟩
abbrev main_v47 : Ref sig .tc := ⟨.hbm, 76, rfl⟩
abbrev main_v48 : Ref sig .tc := ⟨.hbm, 77, rfl⟩
abbrev main_c_15 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_c_16 : Ref sig .tc := ⟨.hbm, 82, rfl⟩
abbrev main_v52 : Ref sig .tc := ⟨.hbm, 83, rfl⟩
abbrev main_v53 : Ref sig .tc := ⟨.hbm, 84, rfl⟩
abbrev main_c_17 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_c_18 : Ref sig .tc := ⟨.hbm, 89, rfl⟩
abbrev main_v57 : Ref sig .tc := ⟨.hbm, 90, rfl⟩
abbrev main_v58 : Ref sig .tc := ⟨.hbm, 91, rfl⟩
abbrev main_c_19 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_20 : Ref sig .tc := ⟨.hbm, 100, rfl⟩
abbrev main_v66 : Ref sig .tc := ⟨.hbm, 101, rfl⟩
abbrev main_v67 : Ref sig .tc := ⟨.hbm, 102, rfl⟩
abbrev main_cst_21 : Ref sig .tc := ⟨.hbm, 103, rfl⟩
abbrev main_v68 : Ref sig .tc := ⟨.hbm, 104, rfl⟩
abbrev main_v69 : Ref sig .tc := ⟨.hbm, 105, rfl⟩
abbrev main_cst_22 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_23 : Ref sig .tc := ⟨.hbm, 111, rfl⟩
abbrev main_v74 : Ref sig .tc := ⟨.hbm, 112, rfl⟩
abbrev main_cst_24 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_25 : Ref sig .tc := ⟨.hbm, 120, rfl⟩
abbrev main_v81 : Ref sig .tc := ⟨.hbm, 121, rfl⟩
abbrev main_v82 : Ref sig .tc := ⟨.hbm, 122, rfl⟩
abbrev main_cst_26 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_27 : Ref sig .tc := ⟨.hbm, 129, rfl⟩
abbrev main_v88 : Ref sig .tc := ⟨.hbm, 130, rfl⟩
abbrev main_cst_28 : Ref sig .tc := ⟨.hbm, 131, rfl⟩
abbrev main_v89 : Ref sig .tc := ⟨.hbm, 132, rfl⟩
abbrev main_v90 : Ref sig .tc := ⟨.hbm, 133, rfl⟩
abbrev main_cst_29 : Ref sig .tc := ⟨.hbm, 134, rfl⟩
abbrev main_v91 : Ref sig .tc := ⟨.hbm, 135, rfl⟩

abbrev nD : Nat := 1
abbrev τ : Topo := Topo.v7x

variable {F : FTy → Type} [FloatOps F]

class Facts₀ : Prop where
  bcast_S_S8x64 : S_.BroadcastsInDim S8x64 (![] : Fin 0 → Fin S8x64.rank)
  reducesTo_S8x64_S8_d1 : S8x64.ReducesTo [1] S8
  h_S_ : 0 < S_.numel
  bcast_S8_S8x1_0 : S8.BroadcastsInDim S8x1 (![0] : Fin 1 → Fin S8x1.rank)
  bcast_S8x1_S8x2000000_0_1 : S8x1.BroadcastsInDim S8x2000000 (![0, 1] : Fin 2 → Fin S8x2000000.rank)
  reducesTo_S8x2000000_S8_d1 : S8x2000000.ReducesTo [1] S8
  bcast_S_S8x1 : S_.BroadcastsInDim S8x1 (![] : Fin 0 → Fin S8x1.rank)
  bcast_S_S8x2000000 : S_.BroadcastsInDim S8x2000000 (![] : Fin 0 → Fin S8x2000000.rank)
  bcast_S_S8x10x10 : S_.BroadcastsInDim S8x10x10 (![] : Fin 0 → Fin S8x10x10.rank)
  bcast_S8x2000000_S8x2000000x1_0_1 : S8x2000000.BroadcastsInDim S8x2000000x1 (![0, 1] : Fin 2 → Fin S8x2000000x1.rank)
  concatenates_S8x2000000x1_S8x2000000x1_S8x2000000x1_S8x2000000x3_d2 : Shape.Concatenates [S8x2000000x1, S8x2000000x1, S8x2000000x1] S8x2000000x3 2
  reducesTo_S8x10x10_S8_d1_2 : S8x10x10.ReducesTo [1, 2] S8
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S8x1x1_S8x10x10_0_1_2 : S8x1x1.BroadcastsInDim S8x10x10 (![0, 1, 2] : Fin 3 → Fin S8x10x10.rank)
  reducesTo_S8x10x10_S8x10_d2 : S8x10x10.ReducesTo [2] S8x10
  reducesTo_S8x10x10_S8x10_d1 : S8x10x10.ReducesTo [1] S8x10
  bcast_S8x10_S8x10x1_0_1 : S8x10.BroadcastsInDim S8x10x1 (![0, 1] : Fin 2 → Fin S8x10x1.rank)
  bcast_S8x10_S8x1x10_0_2 : S8x10.BroadcastsInDim S8x1x10 (![0, 2] : Fin 2 → Fin S8x1x10.rank)
  bcast_S8x10x1_S8x10x10_0_1_2 : S8x10x1.BroadcastsInDim S8x10x10 (![0, 1, 2] : Fin 3 → Fin S8x10x10.rank)
  bcast_S8x1x10_S8x10x10_0_1_2 : S8x1x10.BroadcastsInDim S8x10x10 (![0, 1, 2] : Fin 3 → Fin S8x10x10.rank)
  bcast_S_S8 : S_.BroadcastsInDim S8 (![] : Fin 0 → Fin S8.rank)
  reducesTo_S8_S_d0 : S8.ReducesTo [0] S_
  dot_S8x64_S2000000x64_S8x2000000_1_1_0_0_n_n_wf : DotDims.WF S8x64 S2000000x64 S8x2000000 [1] [1] [0] [0] [] []
  scatter_S8x10x10_S8x2000000x3_S8x2000000_n_012_012_2_wf : ScatterDims.WF S8x10x10 S8x2000000x3 S8x2000000 [] [0, 1, 2] [0, 1, 2] 2

variable [Facts₀]

def dot_S8x64_S2000000x64_S8x2000000_1_1_0_0_n_n : DotDims S8x64 S2000000x64 S8x2000000 where
  lhsContracting := [1]
  rhsContracting := [1]
  lhsNonContracting := [0]
  rhsNonContracting := [0]
  lhsBatch := []
  rhsBatch := []
  wf := dot_S8x64_S2000000x64_S8x2000000_1_1_0_0_n_n_wf
def scatter_S8x10x10_S8x2000000x3_S8x2000000_n_012_012_2 : ScatterDims S8x10x10 S8x2000000x3 S8x2000000 where
  updateWindowDims := []
  insertedWindowDims := [0, 1, 2]
  scatterDimsToOperandDims := [0, 1, 2]
  indexVectorDim := 2
  wf := scatter_S8x10x10_S8x2000000x3_S8x2000000_n_012_012_2_wf

class Facts : Prop extends Facts₀ where

variable [Facts]
-- ==== Proof.KernelRun.lean ====
/-
  The kernel program's run with its two results named.

  The program is five segments: host operations, the statistics region, host operations, the histogram region,
  host operations.  The buffer contents at the five boundaries are a fold from the launch memory; after the last
  segment every unscoped buffer holds that fold's last stage.  Reading the final state at the two result buffers
  and at the two argument buffers gives the run below: the results are the last stage's values there, the
  arguments are as launched.
-/
import proofs.«150017_j5007931867607_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, nothing faulting, with the two results at the last
    boundary's contents and the two arguments as launched. -/
theorem run_values : θ_run defs (onTc (τ := τ) (main (F := F))) ⟨m, fun _ => 0, ρ⟩ (fun r => ∀ c : Dev nD,
      r.2.mem ((c.tc : Thread nD τ).loc main_v43) = W5 m ρ c (Proc.devRef .tc main_v43)
      ∧ r.2.mem ((c.tc : Thread nD τ).loc main_v42) = W5 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v43 (by decide)),
       h c _ (mem_uc main_v42 (by decide)),
       (h c _ (mem_uc main_arg0 (by decide))).trans (W5_main_arg0 m ρ c),
       (h c _ (mem_uc main_arg1 (by decide))).trans (W5_main_arg1 m ρ c)⟩)

end Cert.KernelIdeal.RunValue

end
-- ==== Proof.Spec.lean ====
/-
  The mathematics both programs compute, stated once over the extended reals with no program in sight.

  For a mask row `p` (eight of them) and a time step `t` (two million), `rowA` is the sum of the state's
  entries on the columns the mask selects and `rowB` the sum on the other columns.  Each of the two is
  normalised along the time axis by its smallest and largest value (`infRow`, `supRow`), multiplied by ten,
  cut to an integer and clamped to a bin 0 … 9 (`binOf`); the joint histogram `joint` counts, per mask row, the
  time steps whose two bins are `(x, y)`.  One program normalises the sums themselves, with the guard `eps`
  scaled by the number of selected columns (`normK`); the other normalises the means (`normR`).
-/
import Idealize.ShloMosaic.Lib.ValueIdx
import Idealize.ShloMosaic.PureOps.Ideal

noncomputable section

namespace Cert.MI

open Idealize.ShloMosaic Idealize.ShloMosaic.ValueIdx

/-- The state matrix's shape, the mask's, and a column of eight. -/
abbrev SX : Shape := ⟨2, ![2000000, 64]⟩
abbrev SP : Shape := ⟨2, ![8, 64]⟩
abbrev SC : Shape := ⟨2, ![8, 1]⟩

/-- The three float literals both programs spell: 1.0, the guard 9.99999997e-7, and 10.0. -/
abbrev one : EReal := Ideal.ofBits .f32 0x3F800000#32
abbrev eps : EReal := Ideal.ofBits .f32 0x358637BD#32
abbrev ten : EReal := Ideal.ofBits .f32 0x41200000#32
abbrev sixtyfour : EReal := Ideal.ofBits .f32 0x42800000#32

/-- Row `p` of the mask against row `t` of the state: the sum over the selected columns. -/
def rowA (Mf : SP.Idx → EReal) (X : SX.Idx → EReal) (p : Fin 8) (t : Fin 2000000) : EReal :=
  ∑ d : Fin 64, Mf (ix2 p d) * X (ix2 t d)

/-- The same against the complementary mask `1 - Mf`. -/
def rowB (Mf : SP.Idx → EReal) (X : SX.Idx → EReal) (p : Fin 8) (t : Fin 2000000) : EReal :=
  ∑ d : Fin 64, (one - Mf (ix2 p d)) * X (ix2 t d)

/-- How many columns row `p` of the mask selects, and how many it leaves. -/
def cntA (Mf : SP.Idx → EReal) (p : Fin 8) : EReal := ∑ d : Fin 64, Mf (ix2 p d)
def cntB (Mf : SP.Idx → EReal) (p : Fin 8) : EReal := ∑ d : Fin 64, (one - Mf (ix2 p d))

/-- The smallest and the largest value of a family over the time axis. -/
def infRow (f : Fin 2000000 → EReal) : EReal := Finset.univ.inf f
def supRow (f : Fin 2000000 → EReal) : EReal := Finset.univ.sup f

/-- A 32-bit word clamped (signed) into 0 … 9. -/
def clipW (w : BitVec 32) : BitVec 32 := IntOp.minsi 9#32 (IntOp.maxsi 0#32 w)

/-- The bin of a normalised value: ten times it, cut toward zero, clamped into 0 … 9. -/
def binOf (v : EReal) : BitVec 32 := clipW (Ideal.fptosi 32 (v * ten))

/-- A value against given bounds and a given count: `(s - mn) / (mx - mn + eps · cnt)`. -/
def normWith (s mn mx cnt : EReal) : EReal := Ideal.div (s - mn) (mx - mn + eps * cnt)

/-- Normalising the sums, the guard scaled by the count. -/
def normK (f : Fin 2000000 → EReal) (cnt : EReal) (t : Fin 2000000) : EReal :=
  normWith (f t) (infRow f) (supRow f) cnt

/-- Normalising the means, the guard unscaled. -/
def normR (f : Fin 2000000 → EReal) (t : Fin 2000000) : EReal :=
  Ideal.div (f t - infRow f) (supRow f - infRow f + eps)

/-- Whether a bin word is the bin `x`, as the number 1 or 0. -/
def oh (w : BitVec 32) (x : Fin 10) : EReal := if w = BitVec.ofNat 32 x.val then 1 else 0

/-- One time step's contribution to cell `(x, y)` of row `p`'s histogram, from given bounds and counts
    (each a family over the eight mask rows). -/
def hitK (Mf : SP.Idx → EReal) (X : SX.Idx → EReal) (cA cB mnA mxA mnB mxB : Fin 8 → EReal)
    (p : Fin 8) (t : Fin 2000000) (x y : Fin 10) : EReal :=
  oh (binOf (normWith (rowA Mf X p t) (mnA p) (mxA p) (cA p))) x
    * oh (binOf (normWith (rowB Mf X p t) (mnB p) (mxB p) (cB p))) y

/-- The joint histogram of two families of bin words. -/
def joint (bx bz : Fin 8 → Fin 2000000 → BitVec 32) (p : Fin 8) (x y : Fin 10) : EReal :=
  ∑ t : Fin 2000000, oh (bx p t) x * oh (bz p t) y

/-- The bins as the kernel forms them: the sums normalised, the guard scaled by the counts. -/
def binKA (Mf : SP.Idx → EReal) (X : SX.Idx → EReal) (p : Fin 8) (t : Fin 2000000) : BitVec 32 :=
  binOf (normK (rowA Mf X p) (cntA Mf p) t)
def binKB (Mf : SP.Idx → EReal) (X : SX.Idx → EReal) (p : Fin 8) (t : Fin 2000000) : BitVec 32 :=
  binOf (normK (rowB Mf X p) (sixtyfour - cntA Mf p) t)

/-- The bins as the reference forms them: the means normalised. -/
def binRA (Mf : SP.Idx → EReal) (X : SX.Idx → EReal) (p : Fin 8) (t : Fin 2000000) : BitVec 32 :=
  binOf (normR (fun t => Ideal.div (rowA Mf X p t) (cntA Mf p)) t)
def binRB (Mf : SP.Idx → EReal) (X : SX.Idx → EReal) (p : Fin 8) (t : Fin 2000000) : BitVec 32 :=
  binOf (normR (fun t => Ideal.div (rowB Mf X p t) (cntB Mf p)) t)

/-- The time step `r` of half `cc` of the time axis. -/
def stepOf (cc : Fin 2) (r : Fin 1000000) : Fin 2000000 := ⟨1000000 * cc.val + r.val, by omega⟩

end Cert.MI

end
-- ==== Proof.KernelGlue.lean ====
/-
  The host operations between the two regions, read at an index.

  The statistics region leaves four arrays of shape 2 × 8 × 1: per core and mask row the smallest and the largest
  masked row sum over that core's half of the time axis.  The host re-lays each as 2 × 8, folds the two cores with
  min (from +inf) or max (from −inf), and spreads the eight results into an 8 × 1 column.  It also sums each mask row
  (the count of selected columns) and subtracts the count from 64.
-/
import proofs.«150017_j5007931867607_2_alg».proof.Proof.Gen.KernelIdeal.Frame
import proofs.«150017_j5007931867607_2_alg».proof.Proof.Spec
import Idealize.ShloMosaic.Lib.StableHlo.Run
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.KValue

open Idealize.ShloMosaic Idealize.ShloMosaic.TcCoe Idealize.SL.Sem Idealize.ShloMosaic.StableHlo Idealize.ShloMosaic.ValueIdx
open Cert.KernelIdeal Cert.KernelIdeal.Gen

/-- Row `q` of a 2 × 8 matrix's reduction along the core axis sits over the two entries `(0, q)` and `(1, q)`. -/
theorem lift_core (h : S2x8.Reduces [0] S8) (q : Fin 8) (k : Fin (S2x8.size 0)) :
    h.lift (ix1 q) k = ix2 (⟨k.val, k.isLt⟩ : Fin 2) q := by
  funext a; apply Fin.ext
  fin_cases a <;> rfl

/-- The 2 × 8 × 1 array re-laid as 2 × 8, read at `(k, q)`. -/
theorem relay_apply (A : FVec Ideal S2x8x1 .f32) (k : Fin 2) (q : Fin 8) :
    shapeCast S2x8 A Gen.shapeCasts_S2x8x1_S2x8 (ix2 k q) = A (ix3 k q (0 : Fin 1)) := by
  refine shapeCast_apply A _ (ix2 k q) (ix3 k q (0 : Fin 1)) ?_
  rw [Shape.rowMajor_val_three, Shape.rowMajor_val_two]
  show (k.val * 8 + q.val) * 1 + 0 = k.val * 8 + q.val
  omega

/-- A fold of min from the top over two values. -/
theorem fold_min_two (f : Fin 2 → EReal) : Finset.fold (min : EReal → EReal → EReal) ⊤ f Finset.univ = min (f 0) (f 1) := by
  rw [show (Finset.univ : Finset (Fin 2)) = {0, 1} from by decide, Finset.fold_insert (by decide), Finset.fold_singleton]
  simp

/-- A fold of max from the bottom over two values. -/
theorem fold_max_two (f : Fin 2 → EReal) : Finset.fold (max : EReal → EReal → EReal) ⊥ f Finset.univ = max (f 0) (f 1) := by
  rw [show (Finset.univ : Finset (Fin 2)) = {0, 1} from by decide, Finset.fold_insert (by decide), Finset.fold_singleton]
  simp

/-- The fold of min from +inf over the two cores, spread into a column, read at row `q`: the smaller of the two
    cores' entries. -/
theorem minCores_apply (A : FVec Ideal S2x8x1 .f32) (q : Fin 8) :
    broadcastInDim S8x1 ![0] Gen.bcast_S8_S8x1_0
        (Host.reduce FloatOps.minimumf (shapeCast S2x8 A Gen.shapeCasts_S2x8x1_S2x8) (constant S_ .f32 0x7F800000#32)
          Gen.reducesTo_S2x8_S8_d0 Gen.h_S_) (ix2 q (0 : Fin 1))
      = min (A (ix3 (0 : Fin 2) q (0 : Fin 1))) (A (ix3 (1 : Fin 2) q (0 : Fin 1))) := by
  rw [broadcastInDim_apply _ Gen.bcast_S8_S8x1_0 _ (ix2 q (0 : Fin 1)) (ix1 q) (fun a => match a with
    | ⟨0, _⟩ => by show q.val = if (8 : Nat) = 1 then 0 else q.val; rw [if_neg (by decide)])]
  have hR : S2x8.Reduces [0] S8 := by decide
  rw [Host.reduce_eq_fold_single FloatOps.minimumf _ _ Gen.reducesTo_S2x8_S8_d0 hR Gen.h_S_]
  have hf : (shapeCast S2x8 A Gen.shapeCasts_S2x8x1_S2x8 ∘ hR.lift (ix1 q))
      = fun k : Fin 2 => A (ix3 k q (0 : Fin 1)) :=
    funext fun k => (congrArg _ (lift_core hR q k)).trans (relay_apply A ⟨k.val, k.isLt⟩ q)
  have htop : constant (F := Ideal) S_ .f32 0x7F800000#32 (Shape.Idx.first Gen.h_S_) = (⊤ : EReal) := by
    show Ideal.ofBits .f32 0x7F800000#32 = ⊤
    simp [Ideal.ofBits, Ideal.ieee]
  rw [htop, hf]
  exact fold_min_two fun k : Fin 2 => A (ix3 k q (0 : Fin 1))

/-- The fold of max from −inf over the two cores, spread into a column, read at row `q`: the larger of the two
    cores' entries. -/
theorem maxCores_apply (A : FVec Ideal S2x8x1 .f32) (q : Fin 8) :
    broadcastInDim S8x1 ![0] Gen.bcast_S8_S8x1_0
        (Host.reduce FloatOps.maximumf (shapeCast S2x8 A Gen.shapeCasts_S2x8x1_S2x8) (constant S_ .f32 0xFF800000#32)
          Gen.reducesTo_S2x8_S8_d0 Gen.h_S_) (ix2 q (0 : Fin 1))
      = max (A (ix3 (0 : Fin 2) q (0 : Fin 1))) (A (ix3 (1 : Fin 2) q (0 : Fin 1))) := by
  rw [broadcastInDim_apply _ Gen.bcast_S8_S8x1_0 _ (ix2 q (0 : Fin 1)) (ix1 q) (fun a => match a with
    | ⟨0, _⟩ => by show q.val = if (8 : Nat) = 1 then 0 else q.val; rw [if_neg (by decide)])]
  have hR : S2x8.Reduces [0] S8 := by decide
  rw [Host.reduce_eq_fold_single FloatOps.maximumf _ _ Gen.reducesTo_S2x8_S8_d0 hR Gen.h_S_]
  have hf : (shapeCast S2x8 A Gen.shapeCasts_S2x8x1_S2x8 ∘ hR.lift (ix1 q))
      = fun k : Fin 2 => A (ix3 k q (0 : Fin 1)) :=
    funext fun k => (congrArg _ (lift_core hR q k)).trans (relay_apply A ⟨k.val, k.isLt⟩ q)
  have hbot : constant (F := Ideal) S_ .f32 0xFF800000#32 (Shape.Idx.first Gen.h_S_) = (⊥ : EReal) := by
    show Ideal.ofBits .f32 0xFF800000#32 = ⊥
    simp [Ideal.ofBits, Ideal.ieee]
  rw [hbot, hf]
  exact fold_max_two fun k : Fin 2 => A (ix3 k q (0 : Fin 1))

/-- The zero word denotes zero. -/
theorem ofBits_zero : Ideal.ofBits .f32 0x00000000#32 = 0 := by
  simp [Ideal.ofBits, Ideal.ieee]

/-- The host's sum of a mask row from zero, spread into a column, read at row `q`: the count of row `q`. -/
theorem count_apply (Mf : FVec Ideal S8x64 .f32) (q : Fin 8) :
    broadcastInDim S8x1 ![0] Gen.bcast_S8_S8x1_0
        (Host.reduceAdd Mf (constant S_ .f32 0x00000000#32) Gen.reducesTo_S8x64_S8_d1 Gen.h_S_) (ix2 q (0 : Fin 1))
      = Cert.MI.cntA Mf q := by
  rw [broadcastInDim_apply _ Gen.bcast_S8_S8x1_0 _ (ix2 q (0 : Fin 1)) (ix1 q) (fun a => match a with
    | ⟨0, _⟩ => by show q.val = if (8 : Nat) = 1 then 0 else q.val; rw [if_neg (by decide)])]
  simp only [Host.reduceAdd, Ideal.hostReduceAdd_def]
  rw [Ideal.hostReduceAdd_single Gen.reducesTo_S8x64_S8_d1 (by decide)]
  have h0 : constant (F := Ideal) S_ .f32 0x00000000#32 (Shape.Idx.first Gen.h_S_) = (0 : EReal) := ofBits_zero
  rw [h0, zero_add]
  unfold Cert.MI.cntA
  refine Finset.sum_congr rfl fun k _ => ?_
  exact congrArg Mf (funext fun a => Fin.ext (by match a with | ⟨0, _⟩ => rfl | ⟨1, _⟩ => rfl))

/-- Sixty-four minus the count column, read at row `q`. -/
theorem countB_apply (C : FVec Ideal S8x1 .f32) (q : Fin 8) :
    subf (broadcastInDim S8x1 ![] Gen.bcast_S_S8x1 (constant S_ .f32 0x42800000#32)) C (ix2 q (0 : Fin 1))
      = Cert.MI.sixtyfour - C (ix2 q (0 : Fin 1)) := by
  rw [subf_apply]
  refine congrArg (· - _) ?_
  rw [broadcastInDim_apply _ Gen.bcast_S_S8x1 _ (ix2 q (0 : Fin 1)) ix0 (fun a => a.elim0)]
  rfl

end Cert.KernelIdeal.KValue

end
-- ==== Proof.KernelTail.lean ====
/-
  The last stretch of host operations of the kernel program: the two cores' histograms are added, and the sum goes
  through the normalisation, the marginals, the logarithm and the final sums, maximum and minimum.  Everything after
  the addition is one function `tailK` of the 8 × 10 × 10 histogram; the two results are its two components.
-/
import proofs.«150017_j5007931867607_2_alg».proof.Proof.Gen.KernelIdeal.Frame
import Idealize.ShloMosaic.Lib.StableHlo.Run
import Idealize.ShloMosaic.PureOps.Ideal

set_option maxRecDepth 16384

noncomputable section

namespace Cert.KernelIdeal.KValue

open Idealize.ShloMosaic Idealize.ShloMosaic.TcCoe Idealize.SL.Sem Idealize.ShloMosaic.StableHlo
open Cert.KernelIdeal Cert.KernelIdeal.Gen

/-- From the joint histogram to the two results: each row's histogram divided by its total (plus a guard), its two
    marginals, the sum of `p · log ((p + guard) / (px · py + guard))`, the maximum with zero, and the minimum over the
    rows.  The first component is the minimum, the second the eight values. -/
def tailK (J : FVec Ideal S8x10x10 .f32) : FVec Ideal S_ .f32 × FVec Ideal S8 .f32 :=
  let v20 : FVec Ideal S8 .f32 := Host.reduceAdd J (constant S_ .f32 0x00000000#32) reducesTo_S8x10x10_S8_d1_2 h_S_
  let v21 : FVec Ideal S8x1x1 .f32 := broadcastInDim S8x1x1 ![0] bcast_S8_S8x1x1_0 v20
  let v22 : FVec Ideal S8x1x1 .f32 := broadcastInDim S8x1x1 ![] bcast_S_S8x1x1 (constant S_ .f32 0x2EDBE6FF#32)
  let v23 : FVec Ideal S8x1x1 .f32 := addf v21 v22
  let v24 : FVec Ideal S8x10x10 .f32 := broadcastInDim S8x10x10 ![0, 1, 2] bcast_S8x1x1_S8x10x10_0_1_2 v23
  let v25 : FVec Ideal S8x10x10 .f32 := Host.divf J v24
  let v26 : FVec Ideal S8x10 .f32 := Host.reduceAdd v25 (constant S_ .f32 0x00000000#32) reducesTo_S8x10x10_S8x10_d2 h_S_
  let v27 : FVec Ideal S8x10 .f32 := Host.reduceAdd v25 (constant S_ .f32 0x00000000#32) reducesTo_S8x10x10_S8x10_d1 h_S_
  let v28 : FVec Ideal S8x10x1 .f32 := broadcastInDim S8x10x1 ![0, 1] bcast_S8x10_S8x10x1_0_1 v26
  let v29 : FVec Ideal S8x1x10 .f32 := broadcastInDim S8x1x10 ![0, 2] bcast_S8x10_S8x1x10_0_2 v27
  let v30 : FVec Ideal S8x10x10 .f32 := broadcastInDim S8x10x10 ![0, 1, 2] bcast_S8x10x1_S8x10x10_0_1_2 v28
  let v31 : FVec Ideal S8x10x10 .f32 := broadcastInDim S8x10x10 ![0, 1, 2] bcast_S8x1x10_S8x10x10_0_1_2 v29
  let v32 : FVec Ideal S8x10x10 .f32 := mulf v30 v31
  let v33 : FVec Ideal S8x10x10 .f32 := broadcastInDim S8x10x10 ![] bcast_S_S8x10x10 (constant S_ .f32 0x2EDBE6FF#32)
  let v34 : FVec Ideal S8x10x10 .f32 := addf v25 v33
  let v36 : FVec Ideal S8x10x10 .f32 := addf v32 v33
  let v37 : FVec Ideal S8x10x10 .f32 := Host.divf v34 v36
  let v38 : FVec Ideal S8x10x10 .f32 := Host.log v37
  let v39 : FVec Ideal S8x10x10 .f32 := mulf v25 v38
  let v40 : FVec Ideal S8 .f32 := Host.reduceAdd v39 (constant S_ .f32 0x00000000#32) reducesTo_S8x10x10_S8_d1_2 h_S_
  let v41 : FVec Ideal S8 .f32 := broadcastInDim S8 ![] bcast_S_S8 (constant S_ .f32 0x00000000#32)
  let v42 : FVec Ideal S8 .f32 := maximumf v40 v41
  let v43 : FVec Ideal S_ .f32 := Host.reduce FloatOps.minimumf v42 (constant S_ .f32 0x7F800000#32) reducesTo_S8_S_d0 h_S_
  (v43, v42)

variable (m : (ℓ : Loc nD τ sig) → Buf (Elt Ideal) ℓ) (ρ : Dev nD → PrngReg)

/-- The two cores' histograms added entry by entry, from zero: the host's sum along the core axis of the histogram
    region's output array as that region leaves it. -/
def jointK (c : Dev nD) : FVec Ideal S8x10x10 .f32 :=
  Host.reduceAdd (W4 m ρ c (Proc.devRef .tc main_v18)) (constant S_ .f32 0x00000000#32) reducesTo_S2x8x10x10_S8x10x10_d0 h_S_

/-- The first result is the tail's first component of the added histogram. -/
theorem W5_v43 (c : Dev nD) : W5 m ρ c (Proc.devRef .tc main_v43) = (tailK (jointK m ρ c)).1 := by
  dsimp only [W5, hostOps2]
  after_results_simp
  rfl

/-- The second result is the tail's second component. -/
theorem W5_v42 (c : Dev nD) : W5 m ρ c (Proc.devRef .tc main_v42) = (tailK (jointK m ρ c)).2 := by
  dsimp only [W5, hostOps2]
  after_results_simp
  rfl

end Cert.KernelIdeal.KValue

end
-- ==== Proof.KernelArrays.lean ====
/-
  What the arrays hold when the histogram region is entered, in terms of the launch memory and of what the statistics
  region left: the state and the mask are as launched (the mask converted to floats); the four bound columns are the
  folds over the two cores of the statistics region's outputs; the two count columns are the mask rows' sums and 64
  minus them.  And the histogram the tail receives is the sum over the two cores of the histogram region's output.
-/
import proofs.«150017_j5007931867607_2_alg».proof.Proof.KernelGlue
import proofs.«150017_j5007931867607_2_alg».proof.Proof.KernelTail

set_option maxRecDepth 16384

noncomputable section

namespace Cert.KernelIdeal.KValue

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ) (ρ : Dev nD → PrngReg)

/-- The launched state and the launched mask converted to floats. -/
abbrev Xs (c : Dev nD) : FVec Ideal S2000000x64 .f32 := m ((c.tc : Thread nD τ).loc main_arg0)
abbrev Mfl (c : Dev nD) : FVec Ideal S8x64 .f32 := uitofp .f32 (m ((c.tc : Thread nD τ).loc main_arg1) : IVec S8x64 1)

/-- The statistics region's four output arrays as it leaves them, and the histogram region's output array. -/
abbrev statArr2 (c : Dev nD) : FVec Ideal S2x8x1 .f32 := (dat0 (V1 m ρ) c).arrAt 2 cfg0.N
abbrev statArr3 (c : Dev nD) : FVec Ideal S2x8x1 .f32 := (dat0 (V1 m ρ) c).arrAt 3 cfg0.N
abbrev statArr4 (c : Dev nD) : FVec Ideal S2x8x1 .f32 := (dat0 (V1 m ρ) c).arrAt 4 cfg0.N
abbrev statArr5 (c : Dev nD) : FVec Ideal S2x8x1 .f32 := (dat0 (V1 m ρ) c).arrAt 5 cfg0.N
abbrev histArr (c : Dev nD) : FVec Ideal S2x8x10x10 .f32 := (dat1 (V3 m ρ) c).arrAt 8 cfg1.N

/-- The state when the statistics region is entered: as launched. -/
theorem V1_arg0 (c : Dev nD) : (V1 m ρ c main_arg0 : FVec Ideal S2000000x64 .f32) = Xs m c := by
  show StableHlo.after hostOps0 (W0 m ρ c) (Proc.devRef .tc main_arg0) = _
  after_results
  first | rfl | skip

/-- The mask when the statistics region is entered: the launched mask converted to floats. -/
theorem V1_v0 (c : Dev nD) : (V1 m ρ c main_v0 : FVec Ideal S8x64 .f32) = Mfl m c := by
  show StableHlo.after hostOps0 (W0 m ρ c) (Proc.devRef .tc main_v0) = _
  after_results
  first | rfl | skip

/-- The statistics region reads the state and does not write it. -/
theorem W2_arg0 (c : Dev nD) : (W2 m ρ c (Proc.devRef .tc main_arg0) : FVec Ideal S2000000x64 .f32) = Xs m c :=
  ((W2_arr m ρ c 0).trans (((dat0 (V1 m ρ) c).arrAt_in 0 rfl _).trans (A_eq0 (V1 m ρ) c 0))).trans (V1_arg0 m ρ c)

/-- The statistics region reads the mask and does not write it. -/
theorem W2_v0 (c : Dev nD) : (W2 m ρ c (Proc.devRef .tc main_v0) : FVec Ideal S8x64 .f32) = Mfl m c :=
  ((W2_arr m ρ c 1).trans (((dat0 (V1 m ρ) c).arrAt_in 1 rfl _).trans (A_eq0 (V1 m ρ) c 1))).trans (V1_v0 m ρ c)

/-- The state when the histogram region is entered: as launched. -/
theorem V3_arg0 (c : Dev nD) : (V3 m ρ c main_arg0 : FVec Ideal S2000000x64 .f32) = Xs m c := by
  show StableHlo.after hostOps1 (W2 m ρ c) (Proc.devRef .tc main_arg0) = _
  after_results
  exact W2_arg0 m ρ c

/-- The mask when the histogram region is entered. -/
theorem V3_v0 (c : Dev nD) : (V3 m ρ c main_v0 : FVec Ideal S8x64 .f32) = Mfl m c := by
  show StableHlo.after hostOps1 (W2 m ρ c) (Proc.devRef .tc main_v0) = _
  after_results
  exact W2_v0 m ρ c

theorem W2_v1_0 (c : Dev nD) : (W2 m ρ c (Proc.devRef .tc main_v1_0) : FVec Ideal S2x8x1 .f32) = statArr2 m ρ c := W2_arr m ρ c 2
theorem W2_v1_1 (c : Dev nD) : (W2 m ρ c (Proc.devRef .tc main_v1_1) : FVec Ideal S2x8x1 .f32) = statArr3 m ρ c := W2_arr m ρ c 3
theorem W2_v1_2 (c : Dev nD) : (W2 m ρ c (Proc.devRef .tc main_v1_2) : FVec Ideal S2x8x1 .f32) = statArr4 m ρ c := W2_arr m ρ c 4
theorem W2_v1_3 (c : Dev nD) : (W2 m ρ c (Proc.devRef .tc main_v1_3) : FVec Ideal S2x8x1 .f32) = statArr5 m ρ c := W2_arr m ρ c 5

/-- The column of smallest selected sums, at row `q`: the smaller of the two cores' entries. -/
theorem V3_v4_apply (c : Dev nD) (q : Fin 8) :
    (V3 m ρ c main_v4 : FVec Ideal S8x1 .f32) (ix2 q (0 : Fin 1))
      = min (statArr2 m ρ c (ix3 (0 : Fin 2) q (0 : Fin 1))) (statArr2 m ρ c (ix3 (1 : Fin 2) q (0 : Fin 1))) := by
  have e : (V3 m ρ c main_v4 : FVec Ideal S8x1 .f32) = broadcastInDim S8x1 ![0] Gen.bcast_S8_S8x1_0
        (Host.reduce FloatOps.minimumf (shapeCast S2x8 (statArr2 m ρ c) Gen.shapeCasts_S2x8x1_S2x8) (constant S_ .f32 0x7F800000#32)
          Gen.reducesTo_S2x8_S8_d0 Gen.h_S_) := by
    show StableHlo.after hostOps1 (W2 m ρ c) (Proc.devRef .tc main_v4) = _
    after_results
    rw [W2_v1_0]
    rfl
  rw [e]
  exact minCores_apply _ q

/-- The column of largest selected sums, at row `q`. -/
theorem V3_v7_apply (c : Dev nD) (q : Fin 8) :
    (V3 m ρ c main_v7 : FVec Ideal S8x1 .f32) (ix2 q (0 : Fin 1))
      = max (statArr3 m ρ c (ix3 (0 : Fin 2) q (0 : Fin 1))) (statArr3 m ρ c (ix3 (1 : Fin 2) q (0 : Fin 1))) := by
  have e : (V3 m ρ c main_v7 : FVec Ideal S8x1 .f32) = broadcastInDim S8x1 ![0] Gen.bcast_S8_S8x1_0
        (Host.reduce FloatOps.maximumf (shapeCast S2x8 (statArr3 m ρ c) Gen.shapeCasts_S2x8x1_S2x8) (constant S_ .f32 0xFF800000#32)
          Gen.reducesTo_S2x8_S8_d0 Gen.h_S_) := by
    show StableHlo.after hostOps1 (W2 m ρ c) (Proc.devRef .tc main_v7) = _
    after_results
    rw [W2_v1_1]
    rfl
  rw [e]
  exact maxCores_apply _ q

/-- The column of smallest unselected sums, at row `q`. -/
theorem V3_v10_apply (c : Dev nD) (q : Fin 8) :
    (V3 m ρ c main_v10 : FVec Ideal S8x1 .f32) (ix2 q (0 : Fin 1))
      = min (statArr4 m ρ c (ix3 (0 : Fin 2) q (0 : Fin 1))) (statArr4 m ρ c (ix3 (1 : Fin 2) q (0 : Fin 1))) := by
  have e : (V3 m ρ c main_v10 : FVec Ideal S8x1 .f32) = broadcastInDim S8x1 ![0] Gen.bcast_S8_S8x1_0
        (Host.reduce FloatOps.minimumf (shapeCast S2x8 (statArr4 m ρ c) Gen.shapeCasts_S2x8x1_S2x8) (constant S_ .f32 0x7F800000#32)
          Gen.reducesTo_S2x8_S8_d0 Gen.h_S_) := by
    show StableHlo.after hostOps1 (W2 m ρ c) (Proc.devRef .tc main_v10) = _
    after_results
    rw [W2_v1_2]
    rfl
  rw [e]
  exact minCores_apply _ q

/-- The column of largest unselected sums, at row `q`. -/
theorem V3_v13_apply (c : Dev nD) (q : Fin 8) :
    (V3 m ρ c main_v13 : FVec Ideal S8x1 .f32) (ix2 q (0 : Fin 1))
      = max (statArr5 m ρ c (ix3 (0 : Fin 2) q (0 : Fin 1))) (statArr5 m ρ c (ix3 (1 : Fin 2) q (0 : Fin 1))) := by
  have e : (V3 m ρ c main_v13 : FVec Ideal S8x1 .f32) = broadcastInDim S8x1 ![0] Gen.bcast_S8_S8x1_0
        (Host.reduce FloatOps.maximumf (shapeCast S2x8 (statArr5 m ρ c) Gen.shapeCasts_S2x8x1_S2x8) (constant S_ .f32 0xFF800000#32)
          Gen.reducesTo_S2x8_S8_d0 Gen.h_S_) := by
    show StableHlo.after hostOps1 (W2 m ρ c) (Proc.devRef .tc main_v13) = _
    after_results
    rw [W2_v1_3]
    rfl
  rw [e]
  exact maxCores_apply _ q

/-- The column of counts of selected columns, at row `q`. -/
theorem V3_v15_apply (c : Dev nD) (q : Fin 8) :
    (V3 m ρ c main_v15 : FVec Ideal S8x1 .f32) (ix2 q (0 : Fin 1)) = Cert.MI.cntA (Mfl m c) q := by
  have e : (V3 m ρ c main_v15 : FVec Ideal S8x1 .f32) = broadcastInDim S8x1 ![0] Gen.bcast_S8_S8x1_0
        (Host.reduceAdd (Mfl m c) (constant S_ .f32 0x00000000#32) Gen.reducesTo_S8x64_S8_d1 Gen.h_S_) := by
    show StableHlo.after hostOps1 (W2 m ρ c) (Proc.devRef .tc main_v15) = _
    after_results
    rw [W2_v0]
  rw [e]
  exact count_apply _ q

/-- The column of counts of unselected columns, at row `q`: sixty-four minus the count. -/
theorem V3_v17_apply (c : Dev nD) (q : Fin 8) :
    (V3 m ρ c main_v17 : FVec Ideal S8x1 .f32) (ix2 q (0 : Fin 1)) = Cert.MI.sixtyfour - Cert.MI.cntA (Mfl m c) q := by
  have e : (V3 m ρ c main_v17 : FVec Ideal S8x1 .f32) = subf (broadcastInDim S8x1 ![] Gen.bcast_S_S8x1 (constant S_ .f32 0x42800000#32))
        (broadcastInDim S8x1 ![0] Gen.bcast_S8_S8x1_0
          (Host.reduceAdd (Mfl m c) (constant S_ .f32 0x00000000#32) Gen.reducesTo_S8x64_S8_d1 Gen.h_S_)) := by
    show StableHlo.after hostOps1 (W2 m ρ c) (Proc.devRef .tc main_v17) = _
    after_results
    rw [W2_v0]
  rw [e, countB_apply]
  exact congrArg (Cert.MI.sixtyfour - ·) (count_apply _ q)

/-- The histogram region's output array is what it leaves in the buffer the tail reads. -/
theorem W4_v18 (c : Dev nD) : (W4 m ρ c (Proc.devRef .tc main_v18) : FVec Ideal S2x8x10x10 .f32) = histArr m ρ c := W4_arr m ρ c 8

/-- Cell `(p, x, y)` of the sum along the core axis sits over the two entries `(0, p, x, y)` and `(1, p, x, y)`. -/
theorem lift_core4 (h : S2x8x10x10.Reduces [0] S8x10x10) (p : Fin 8) (x y : Fin 10) (k : Fin (S2x8x10x10.size 0)) :
    h.lift (ix3 p x y) k = ix4 (⟨k.val, k.isLt⟩ : Fin 2) p x y := by
  funext a; apply Fin.ext
  fin_cases a <;> rfl

/-- The histogram the tail receives, at cell `(p, x, y)`: the two cores' cells added. -/
theorem jointK_apply (c : Dev nD) (p : Fin 8) (x y : Fin 10) :
    jointK m ρ c (ix3 p x y) = histArr m ρ c (ix4 (0 : Fin 2) p x y) + histArr m ρ c (ix4 (1 : Fin 2) p x y) := by
  unfold jointK
  rw [W4_v18]
  simp only [Host.reduceAdd, Ideal.hostReduceAdd_def]
  have hR : S2x8x10x10.Reduces [0] S8x10x10 := by decide
  rw [Ideal.hostReduceAdd_single Gen.reducesTo_S2x8x10x10_S8x10x10_d0 hR]
  have h0 : constant (F := Ideal) S_ .f32 0x00000000#32 (Shape.Idx.first Gen.h_S_) = (0 : EReal) := ofBits_zero
  rw [h0, zero_add]
  refine (Finset.sum_congr rfl fun k _ => congrArg (histArr m ρ c) (lift_core4 hR p x y k)).trans ?_
  exact Fin.sum_univ_two (fun k : Fin 2 => histArr m ρ c (ix4 k p x y))

end Cert.KernelIdeal.KValue

end
-- ==== Proof.TileExtrema.lean ====
/-
  Smallest and largest values of a family of extended reals over an initial segment of the naturals.

  A segment of length `a + b` is its first `a` entries followed by the next `b`, so its infimum is the smaller of
  the two parts' infima (and its supremum the larger of their suprema); a family indexed by `Fin n` has the same
  infimum and supremum as any extension of it to the naturals taken over the segment of length `n`; and folding
  `min` from `⊤` (or `max` from `⊥`) over a finite set is that set's infimum (supremum).
-/
import Mathlib.Data.EReal.Basic
import Mathlib.Data.Finset.Fold
import Mathlib.Data.Finset.Lattice.Fold
import Mathlib.Data.Fintype.Basic
import Mathlib.Data.Fintype.Fin

namespace Cert.KernelIdeal.Stats

theorem inf_range_add (h : ℕ → EReal) (a b : ℕ) :
    (Finset.range (a + b)).inf h = min ((Finset.range a).inf h) ((Finset.range b).inf fun i => h (a + i)) := by
  refine eq_of_forall_le_iff fun c => ?_
  rw [le_min_iff, Finset.le_inf_iff, Finset.le_inf_iff, Finset.le_inf_iff]
  constructor
  · intro H
    exact ⟨fun i hi => H i (Finset.mem_range.mpr (by have := Finset.mem_range.mp hi; omega)),
      fun i hi => H (a + i) (Finset.mem_range.mpr (by have := Finset.mem_range.mp hi; omega))⟩
  · rintro ⟨H1, H2⟩ i hi
    have hi' := Finset.mem_range.mp hi
    by_cases hia : i < a
    · exact H1 i (Finset.mem_range.mpr hia)
    · have e : i = a + (i - a) := by omega
      rw [e]; exact H2 (i - a) (Finset.mem_range.mpr (by omega))

theorem sup_range_add (h : ℕ → EReal) (a b : ℕ) :
    (Finset.range (a + b)).sup h = max ((Finset.range a).sup h) ((Finset.range b).sup fun i => h (a + i)) := by
  refine eq_of_forall_ge_iff fun c => ?_
  rw [max_le_iff, Finset.sup_le_iff, Finset.sup_le_iff, Finset.sup_le_iff]
  constructor
  · intro H
    exact ⟨fun i hi => H i (Finset.mem_range.mpr (by have := Finset.mem_range.mp hi; omega)),
      fun i hi => H (a + i) (Finset.mem_range.mpr (by have := Finset.mem_range.mp hi; omega))⟩
  · rintro ⟨H1, H2⟩ i hi
    have hi' := Finset.mem_range.mp hi
    by_cases hia : i < a
    · exact H1 i (Finset.mem_range.mpr hia)
    · have e : i = a + (i - a) := by omega
      rw [e]; exact H2 (i - a) (Finset.mem_range.mpr (by omega))

theorem inf_fin_eq_range (n : ℕ) (f : Fin n → EReal) (g : ℕ → EReal) (hg : ∀ i : Fin n, g i.val = f i) :
    Finset.univ.inf f = (Finset.range n).inf g := by
  refine eq_of_forall_le_iff fun c => ?_
  rw [Finset.le_inf_iff, Finset.le_inf_iff]
  constructor
  · intro H i hi
    have := H ⟨i, Finset.mem_range.mp hi⟩ (Finset.mem_univ _)
    rwa [← hg] at this
  · intro H i _
    rw [← hg]; exact H i.val (Finset.mem_range.mpr i.isLt)

theorem sup_fin_eq_range (n : ℕ) (f : Fin n → EReal) (g : ℕ → EReal) (hg : ∀ i : Fin n, g i.val = f i) :
    Finset.univ.sup f = (Finset.range n).sup g := by
  refine eq_of_forall_ge_iff fun c => ?_
  rw [Finset.sup_le_iff, Finset.sup_le_iff]
  constructor
  · intro H i hi
    have := H ⟨i, Finset.mem_range.mp hi⟩ (Finset.mem_univ _)
    rwa [← hg] at this
  · intro H i _
    rw [← hg]; exact H i.val (Finset.mem_range.mpr i.isLt)

theorem fold_min_top_eq_inf {ι : Type*} (s : Finset ι) (f : ι → EReal) : s.fold min ⊤ f = s.inf f := by
  refine eq_of_forall_le_iff fun c => ?_
  rw [Finset.le_fold_min, Finset.le_inf_iff]
  exact ⟨fun H => H.2, fun H => ⟨le_top, H⟩⟩

theorem fold_max_bot_eq_sup {ι : Type*} (s : Finset ι) (f : ι → EReal) : s.fold max ⊥ f = s.sup f := by
  refine eq_of_forall_ge_iff fun c => ?_
  rw [Finset.fold_max_le, Finset.sup_le_iff]
  exact ⟨fun H => H.2, fun H => ⟨bot_le, H⟩⟩

end Cert.KernelIdeal.Stats
-- ==== Proof.StatsPieces.lean ====
/-
  What one grid point of the statistics pass leaves in its four running blocks, as pure functions of what it read.

  At the first tile of a core's half the four blocks are first set to `+∞` / `-∞` and then folded with the tile's
  extrema; at every later tile they are folded with what the tile before left.  Each lemma below reads the stores the
  run found for one block in one of the two cases back as the one payload that covers the block.
-/
import proofs.«150017_j5007931867607_2_alg».proof.Proof.Gen.KernelIdeal.Frame
import Idealize.ShloMosaic.Lib.Pipeline.Value
import Idealize.ShloMosaic.Lib.Tactic

noncomputable section

namespace Cert.KernelIdeal.Stats

open Idealize.ShloMosaic Idealize.ShloMosaic.TcCoe Idealize.SL.Sem
open Idealize.ShloMosaic.Pipeline (Dat)
open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

theorem out_B_2 (c : Dev nD) (i : grid0.Coords) (arg2 : Memref sig .tc .vmem S20000x64 .f32) (harg2 : arg2.IsWhole) (arg3 : Memref sig .tc .vmem S8x64 .f32) (harg3 : arg3.IsWhole) (arg4 : Memref sig .tc .vmem S1x8x1 .f32) (harg4 : arg4.IsWhole) (arg5 : Memref sig .tc .vmem S1x8x1 .f32) (harg5 : arg5.IsWhole) (arg6 : Memref sig .tc .vmem S1x8x1 .f32) (harg6 : arg6.IsWhole) (arg7 : Memref sig .tc .vmem S1x8x1 .f32) (harg7 : arg7.IsWhole) (hc0 : ¬cond0_0 i)
    (x0 : Vec F S20000x64 .f32) (x1 : Vec F S8x64 .f32) (xo2 xo3 xo4 xo5 : Vec F S1x8x1 .f32) :
    out0_B_2 c i arg2 harg2 arg3 harg3 arg4 harg4 arg5 harg5 arg6 harg6 arg7 harg7 hc0 x0 x1 xo2 xo3 xo4 xo5 = k0_pay12 x0 x1 xo2 := by
  unfold out0_B_2
  rw [View.read_writes_eq_canon _ _ _ (cover0_B_2 c i arg2 harg2 arg3 harg3 arg4 harg4 arg5 harg5 arg6 harg6 arg7 harg7 hc0 x0 x1 xo2 xo3 xo4 xo5)]
  unfold kernelRun0_B
  dsimp only
  (try sl_unfold_words)
  rw [View.canon_unit_zero hz3]
  simp only [View.readAt_eq_ld, harg2.read_unread, harg3.read_unread, harg4.read_unread, harg5.read_unread, harg6.read_unread, harg7.read_unread,
    View.ld_unit_zero (S := S20000x64) hz2, View.ld_unit_zero (S := S8x64) hz2, View.ld_unit_zero (S := S1x8x1) hz3]

theorem out_A_2 (c : Dev nD) (i : grid0.Coords) (arg2 : Memref sig .tc .vmem S20000x64 .f32) (harg2 : arg2.IsWhole) (arg3 : Memref sig .tc .vmem S8x64 .f32) (harg3 : arg3.IsWhole) (arg4 : Memref sig .tc .vmem S1x8x1 .f32) (harg4 : arg4.IsWhole) (arg5 : Memref sig .tc .vmem S1x8x1 .f32) (harg5 : arg5.IsWhole) (arg6 : Memref sig .tc .vmem S1x8x1 .f32) (harg6 : arg6.IsWhole) (arg7 : Memref sig .tc .vmem S1x8x1 .f32) (harg7 : arg7.IsWhole) (hc0 : cond0_0 i)
    (x0 : Vec F S20000x64 .f32) (x1 : Vec F S8x64 .f32) :
    out0_A_2 c i arg2 harg2 arg3 harg3 arg4 harg4 arg5 harg5 arg6 harg6 arg7 harg7 hc0 x0 x1 = k0_pay12 x0 x1 k0_pay8 := by
  unfold out0_A_2
  rw [View.read_writes_eq_canon _ _ _ (cover0_A_2 c i arg2 harg2 arg3 harg3 arg4 harg4 arg5 harg5 arg6 harg6 arg7 harg7 hc0 x0 x1)]
  unfold kernelRun0_A
  dsimp only
  sl_unfold_words
  rw [View.canon_cons_unit_zero (S := S1x8x1) hz3, View.readCov_unit_zero (S := S1x8x1) _ hz3]
  simp only [View.readAt_eq_ld, harg2.read_unread, harg3.read_unread, harg4.read_unread, harg5.read_unread, harg6.read_unread, harg7.read_unread,
    View.ld_unit_zero (S := S20000x64) hz2, View.ld_unit_zero (S := S8x64) hz2, View.ld_unit_zero (S := S1x8x1) hz3]

theorem out_B_3 (c : Dev nD) (i : grid0.Coords) (arg2 : Memref sig .tc .vmem S20000x64 .f32) (harg2 : arg2.IsWhole) (arg3 : Memref sig .tc .vmem S8x64 .f32) (harg3 : arg3.IsWhole) (arg4 : Memref sig .tc .vmem S1x8x1 .f32) (harg4 : arg4.IsWhole) (arg5 : Memref sig .tc .vmem S1x8x1 .f32) (harg5 : arg5.IsWhole) (arg6 : Memref sig .tc .vmem S1x8x1 .f32) (harg6 : arg6.IsWhole) (arg7 : Memref sig .tc .vmem S1x8x1 .f32) (harg7 : arg7.IsWhole) (hc0 : ¬cond0_0 i)
    (x0 : Vec F S20000x64 .f32) (x1 : Vec F S8x64 .f32) (xo2 xo3 xo4 xo5 : Vec F S1x8x1 .f32) :
    out0_B_3 c i arg2 harg2 arg3 harg3 arg4 harg4 arg5 harg5 arg6 harg6 arg7 harg7 hc0 x0 x1 xo2 xo3 xo4 xo5 = k0_pay13 x0 x1 xo3 := by
  unfold out0_B_3
  rw [View.read_writes_eq_canon _ _ _ (cover0_B_3 c i arg2 harg2 arg3 harg3 arg4 harg4 arg5 harg5 arg6 harg6 arg7 harg7 hc0 x0 x1 xo2 xo3 xo4 xo5)]
  unfold kernelRun0_B
  dsimp only
  (try sl_unfold_words)
  rw [View.canon_unit_zero hz3]
  simp only [View.readAt_eq_ld, harg2.read_unread, harg3.read_unread, harg4.read_unread, harg5.read_unread, harg6.read_unread, harg7.read_unread,
    View.ld_unit_zero (S := S20000x64) hz2, View.ld_unit_zero (S := S8x64) hz2, View.ld_unit_zero (S := S1x8x1) hz3]

theorem out_A_3 (c : Dev nD) (i : grid0.Coords) (arg2 : Memref sig .tc .vmem S20000x64 .f32) (harg2 : arg2.IsWhole) (arg3 : Memref sig .tc .vmem S8x64 .f32) (harg3 : arg3.IsWhole) (arg4 : Memref sig .tc .vmem S1x8x1 .f32) (harg4 : arg4.IsWhole) (arg5 : Memref sig .tc .vmem S1x8x1 .f32) (harg5 : arg5.IsWhole) (arg6 : Memref sig .tc .vmem S1x8x1 .f32) (harg6 : arg6.IsWhole) (arg7 : Memref sig .tc .vmem S1x8x1 .f32) (harg7 : arg7.IsWhole) (hc0 : cond0_0 i)
    (x0 : Vec F S20000x64 .f32) (x1 : Vec F S8x64 .f32) :
    out0_A_3 c i arg2 harg2 arg3 harg3 arg4 harg4 arg5 harg5 arg6 harg6 arg7 harg7 hc0 x0 x1 = k0_pay13 x0 x1 k0_pay9 := by
  unfold out0_A_3
  rw [View.read_writes_eq_canon _ _ _ (cover0_A_3 c i arg2 harg2 arg3 harg3 arg4 harg4 arg5 harg5 arg6 harg6 arg7 harg7 hc0 x0 x1)]
  unfold kernelRun0_A
  dsimp only
  sl_unfold_words
  rw [View.canon_cons_unit_zero (S := S1x8x1) hz3, View.readCov_unit_zero (S := S1x8x1) _ hz3]
  simp only [View.readAt_eq_ld, harg2.read_unread, harg3.read_unread, harg4.read_unread, harg5.read_unread, harg6.read_unread, harg7.read_unread,
    View.ld_unit_zero (S := S20000x64) hz2, View.ld_unit_zero (S := S8x64) hz2, View.ld_unit_zero (S := S1x8x1) hz3]

theorem out_B_4 (c : Dev nD) (i : grid0.Coords) (arg2 : Memref sig .tc .vmem S20000x64 .f32) (harg2 : arg2.IsWhole) (arg3 : Memref sig .tc .vmem S8x64 .f32) (harg3 : arg3.IsWhole) (arg4 : Memref sig .tc .vmem S1x8x1 .f32) (harg4 : arg4.IsWhole) (arg5 : Memref sig .tc .vmem S1x8x1 .f32) (harg5 : arg5.IsWhole) (arg6 : Memref sig .tc .vmem S1x8x1 .f32) (harg6 : arg6.IsWhole) (arg7 : Memref sig .tc .vmem S1x8x1 .f32) (harg7 : arg7.IsWhole) (hc0 : ¬cond0_0 i)
    (x0 : Vec F S20000x64 .f32) (x1 : Vec F S8x64 .f32) (xo2 xo3 xo4 xo5 : Vec F S1x8x1 .f32) :
    out0_B_4 c i arg2 harg2 arg3 harg3 arg4 harg4 arg5 harg5 arg6 harg6 arg7 harg7 hc0 x0 x1 xo2 xo3 xo4 xo5 = k0_pay1 (k0_pay6 x0 x1) xo4 := by
  unfold out0_B_4
  rw [View.read_writes_eq_canon _ _ _ (cover0_B_4 c i arg2 harg2 arg3 harg3 arg4 harg4 arg5 harg5 arg6 harg6 arg7 harg7 hc0 x0 x1 xo2 xo3 xo4 xo5)]
  unfold kernelRun0_B
  dsimp only
  (try sl_unfold_words)
  rw [View.canon_unit_zero hz3]
  simp only [View.readAt_eq_ld, harg2.read_unread, harg3.read_unread, harg4.read_unread, harg5.read_unread, harg6.read_unread, harg7.read_unread,
    View.ld_unit_zero (S := S20000x64) hz2, View.ld_unit_zero (S := S8x64) hz2, View.ld_unit_zero (S := S1x8x1) hz3]

theorem out_A_4 (c : Dev nD) (i : grid0.Coords) (arg2 : Memref sig .tc .vmem S20000x64 .f32) (harg2 : arg2.IsWhole) (arg3 : Memref sig .tc .vmem S8x64 .f32) (harg3 : arg3.IsWhole) (arg4 : Memref sig .tc .vmem S1x8x1 .f32) (harg4 : arg4.IsWhole) (arg5 : Memref sig .tc .vmem S1x8x1 .f32) (harg5 : arg5.IsWhole) (arg6 : Memref sig .tc .vmem S1x8x1 .f32) (harg6 : arg6.IsWhole) (arg7 : Memref sig .tc .vmem S1x8x1 .f32) (harg7 : arg7.IsWhole) (hc0 : cond0_0 i)
    (x0 : Vec F S20000x64 .f32) (x1 : Vec F S8x64 .f32) :
    out0_A_4 c i arg2 harg2 arg3 harg3 arg4 harg4 arg5 harg5 arg6 harg6 arg7 harg7 hc0 x0 x1 = k0_pay1 (k0_pay6 x0 x1) k0_pay10 := by
  unfold out0_A_4
  rw [View.read_writes_eq_canon _ _ _ (cover0_A_4 c i arg2 harg2 arg3 harg3 arg4 harg4 arg5 harg5 arg6 harg6 arg7 harg7 hc0 x0 x1)]
  unfold kernelRun0_A
  dsimp only
  sl_unfold_words
  rw [View.canon_cons_unit_zero (S := S1x8x1) hz3, View.readCov_unit_zero (S := S1x8x1) _ hz3]
  simp only [View.readAt_eq_ld, harg2.read_unread, harg3.read_unread, harg4.read_unread, harg5.read_unread, harg6.read_unread, harg7.read_unread,
    View.ld_unit_zero (S := S20000x64) hz2, View.ld_unit_zero (S := S8x64) hz2, View.ld_unit_zero (S := S1x8x1) hz3]

theorem out_B_5 (c : Dev nD) (i : grid0.Coords) (arg2 : Memref sig .tc .vmem S20000x64 .f32) (harg2 : arg2.IsWhole) (arg3 : Memref sig .tc .vmem S8x64 .f32) (harg3 : arg3.IsWhole) (arg4 : Memref sig .tc .vmem S1x8x1 .f32) (harg4 : arg4.IsWhole) (arg5 : Memref sig .tc .vmem S1x8x1 .f32) (harg5 : arg5.IsWhole) (arg6 : Memref sig .tc .vmem S1x8x1 .f32) (harg6 : arg6.IsWhole) (arg7 : Memref sig .tc .vmem S1x8x1 .f32) (harg7 : arg7.IsWhole) (hc0 : ¬cond0_0 i)
    (x0 : Vec F S20000x64 .f32) (x1 : Vec F S8x64 .f32) (xo2 xo3 xo4 xo5 : Vec F S1x8x1 .f32) :
    out0_B_5 c i arg2 harg2 arg3 harg3 arg4 harg4 arg5 harg5 arg6 harg6 arg7 harg7 hc0 x0 x1 xo2 xo3 xo4 xo5 = k0_pay2 (k0_pay7 x0 x1) xo5 := by
  unfold out0_B_5
  rw [View.read_writes_eq_canon _ _ _ (cover0_B_5 c i arg2 harg2 arg3 harg3 arg4 harg4 arg5 harg5 arg6 harg6 arg7 harg7 hc0 x0 x1 xo2 xo3 xo4 xo5)]
  unfold kernelRun0_B
  dsimp only
  (try sl_unfold_words)
  rw [View.canon_unit_zero hz3]
  simp only [View.readAt_eq_ld, harg2.read_unread, harg3.read_unread, harg4.read_unread, harg5.read_unread, harg6.read_unread, harg7.read_unread,
    View.ld_unit_zero (S := S20000x64) hz2, View.ld_unit_zero (S := S8x64) hz2, View.ld_unit_zero (S := S1x8x1) hz3]

theorem out_A_5 (c : Dev nD) (i : grid0.Coords) (arg2 : Memref sig .tc .vmem S20000x64 .f32) (harg2 : arg2.IsWhole) (arg3 : Memref sig .tc .vmem S8x64 .f32) (harg3 : arg3.IsWhole) (arg4 : Memref sig .tc .vmem S1x8x1 .f32) (harg4 : arg4.IsWhole) (arg5 : Memref sig .tc .vmem S1x8x1 .f32) (harg5 : arg5.IsWhole) (arg6 : Memref sig .tc .vmem S1x8x1 .f32) (harg6 : arg6.IsWhole) (arg7 : Memref sig .tc .vmem S1x8x1 .f32) (harg7 : arg7.IsWhole) (hc0 : cond0_0 i)
    (x0 : Vec F S20000x64 .f32) (x1 : Vec F S8x64 .f32) :
    out0_A_5 c i arg2 harg2 arg3 harg3 arg4 harg4 arg5 harg5 arg6 harg6 arg7 harg7 hc0 x0 x1 = k0_pay2 (k0_pay7 x0 x1) k0_pay11 := by
  unfold out0_A_5
  rw [View.read_writes_eq_canon _ _ _ (cover0_A_5 c i arg2 harg2 arg3 harg3 arg4 harg4 arg5 harg5 arg6 harg6 arg7 harg7 hc0 x0 x1)]
  unfold kernelRun0_A
  dsimp only
  sl_unfold_words
  rw [View.canon_cons_unit_zero (S := S1x8x1) hz3, View.readCov_unit_zero (S := S1x8x1) _ hz3]
  simp only [View.readAt_eq_ld, harg2.read_unread, harg3.read_unread, harg4.read_unread, harg5.read_unread, harg6.read_unread, harg7.read_unread,
    View.ld_unit_zero (S := S20000x64) hz2, View.ld_unit_zero (S := S8x64) hz2, View.ld_unit_zero (S := S1x8x1) hz3]

end Cert.KernelIdeal.Stats

end
-- ==== Proof.StatsPayloads.lean ====
/-
  The arithmetic of one tile of the statistics pass, read entry by entry over the extended reals.

  A tile is a 20000 × 64 block `x` of the state and the whole 8 × 64 mask `m`.  The pass forms the 8 × 20000 matrix of
  masked row sums `Σ_d m[p,d]·x[r,d]` (and the same with `1 - m`), takes each mask row's smallest and largest entry
  over the 20000 rows, and folds them with `min` / `max` into a running 1 × 8 × 1 block.  Here each of these steps is
  read at an index: the product at `(p, r)` is the dot product of row `p` of the mask with row `r` of the block;
  the minimum (maximum) over the lanes from `+∞` (`-∞`) is the infimum (supremum) over the rows; and the stored block
  at `(0, p, 0)` is the `min` (`max`) of the block before with that infimum (supremum).
-/
import proofs.«150017_j5007931867607_2_alg».proof.Proof.Gen.KernelIdeal.Skeleton
import proofs.«150017_j5007931867607_2_alg».proof.Proof.TileExtrema
import proofs.«150017_j5007931867607_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Stats

open Idealize.ShloMosaic Idealize.ShloMosaic.ValueIdx
open Cert.KernelIdeal Cert.KernelIdeal.Gen

/-- The word of `+∞` is the top element, the word of `-∞` the bottom one, the word of 1.0 the number one. -/
theorem ofBits_posInf : Ideal.ofBits .f32 0x7F800000#32 = ⊤ := by simp [Ideal.ofBits, Ideal.ieee]
theorem ofBits_negInf : Ideal.ofBits .f32 0xFF800000#32 = ⊥ := by simp [Ideal.ofBits, Ideal.ieee]

/-- The masked sum of row `r` of a block against row `p` of a mask matrix `y`. -/
def dotRow (y : S8x64.Idx → EReal) (x : S20000x64.Idx → EReal) (p : Fin 8) (r : Fin 20000) : EReal :=
  ∑ d : Fin 64, y (ix2 p d) * x (ix2 r d)

/-- Where the product at output index `j` and contraction index `q` reads its two operands: row `j 0` of the left
    one, row `j 1` of the right one, both at column `q`. -/
theorem lhs_coord0 (j : S8x20000.Idx) (q : dot_S8x64_S20000x64_S8x20000_1_1_0_0_n_n.contr.Idx) :
    (dot_S8x64_S20000x64_S8x20000_1_1_0_0_n_n.lhsIdx j q 0).val = (j 0).val := by
  unfold DotDims.lhsIdx
  rw [dif_neg (show ¬(0 : Fin S8x64.rank) ∈ dot_S8x64_S20000x64_S8x20000_1_1_0_0_n_n.lhsBatch by decide), dif_pos (show (0 : Fin S8x64.rank) ∈ dot_S8x64_S20000x64_S8x20000_1_1_0_0_n_n.lhsNonContracting by decide)]
  rfl
theorem lhs_coord1 (j : S8x20000.Idx) (q : dot_S8x64_S20000x64_S8x20000_1_1_0_0_n_n.contr.Idx) :
    (dot_S8x64_S20000x64_S8x20000_1_1_0_0_n_n.lhsIdx j q 1).val = (q ⟨0, by decide⟩).val :=
  dot_S8x64_S20000x64_S8x20000_1_1_0_0_n_n.lhsIdx_val_of_single rfl j q
theorem rhs_coord0 (j : S8x20000.Idx) (q : dot_S8x64_S20000x64_S8x20000_1_1_0_0_n_n.contr.Idx) :
    (dot_S8x64_S20000x64_S8x20000_1_1_0_0_n_n.rhsIdx j q 0).val = (j 1).val := by
  unfold DotDims.rhsIdx
  rw [dif_neg (show ¬(0 : Fin S20000x64.rank) ∈ dot_S8x64_S20000x64_S8x20000_1_1_0_0_n_n.rhsBatch by decide), dif_pos (show (0 : Fin S20000x64.rank) ∈ dot_S8x64_S20000x64_S8x20000_1_1_0_0_n_n.rhsNonContracting by decide)]
  rfl
theorem rhs_coord1 (j : S8x20000.Idx) (q : dot_S8x64_S20000x64_S8x20000_1_1_0_0_n_n.contr.Idx) :
    (dot_S8x64_S20000x64_S8x20000_1_1_0_0_n_n.rhsIdx j q 1).val = (q ⟨0, by decide⟩).val :=
  dot_S8x64_S20000x64_S8x20000_1_1_0_0_n_n.rhsIdx_val_of_single rfl j q

/-- The 8 × 64 by (20000 × 64)ᵀ product into a zero accumulator, at `(p, r)`: the dot product of the two rows. -/
theorem matmul_zero_apply (y : FVec Ideal S8x64 .f32) (x : FVec Ideal S20000x64 .f32) (p : Fin 8) (r : Fin 20000) :
    matmul dot_S8x64_S20000x64_S8x20000_1_1_0_0_n_n (some .fp32) y x (constant S8x20000 .f32 0x00000000#32) (ix2 p r)
      = dotRow y x p r := by
  refine (Ideal.matmul_constant_zero_apply _ _ _ _ _).trans ?_
  unfold dotRow
  rw [← Equiv.sum_comp (contrEquiv1 dot_S8x64_S20000x64_S8x20000_1_1_0_0_n_n 64 rfl rfl).symm]
  refine Finset.sum_congr rfl fun k _ => ?_
  have hk := contrEquiv1_symm_val dot_S8x64_S20000x64_S8x20000_1_1_0_0_n_n 64 rfl rfl k
  have el : dot_S8x64_S20000x64_S8x20000_1_1_0_0_n_n.lhsIdx (ix2 p r) ((contrEquiv1 dot_S8x64_S20000x64_S8x20000_1_1_0_0_n_n 64 rfl rfl).symm k) = ix2 p k :=
    funext fun a => Fin.ext (by
      match a with
      | ⟨0, _⟩ => exact lhs_coord0 _ _
      | ⟨1, _⟩ => exact (lhs_coord1 _ _).trans hk)
  have er : dot_S8x64_S20000x64_S8x20000_1_1_0_0_n_n.rhsIdx (ix2 p r) ((contrEquiv1 dot_S8x64_S20000x64_S8x20000_1_1_0_0_n_n 64 rfl rfl).symm k) = ix2 r k :=
    funext fun a => Fin.ext (by
      match a with
      | ⟨0, _⟩ => exact rhs_coord0 _ _
      | ⟨1, _⟩ => exact (rhs_coord1 _ _).trans hk)
  rw [el, er]

/-- The index of row `p`, lane `r`, as the reduction over the lanes names it. -/
theorem lift_lane (p : Fin 8) (r : Fin 20000) : reduces_S8x20000_S8.lift (ix1 p) r = ix2 p r :=
  funext fun a => Fin.ext (by
    match a with
    | ⟨0, _⟩ => rfl
    | ⟨1, _⟩ => rfl)

/-- The minimum over the 20000 lanes, started from `+∞`, is at row `p` the infimum of that row. -/
theorem laneMin_apply (src : FVec Ideal S8x20000 .f32) (p : Fin 8) :
    multiReduction .minimumf [1] S8 src 0x7F800000#32 reduces_S8x20000_S8 (.inl rfl) rfl (ix1 p)
      = Finset.univ.inf fun r : Fin 20000 => src (ix2 p r) := by
  refine (multiReduction_minimumf_eq_fold src _ reduces_S8x20000_S8 (.inl rfl) rfl (ix1 p)).trans ?_
  refine (reduces_S8x20000_S8.fold_filter_drop_single _ _ src (ix1 p)).trans ?_
  show (Finset.univ : Finset (Fin 20000)).fold min (Ideal.ofBits .f32 0x7F800000#32)
    (fun r => src (reduces_S8x20000_S8.lift (ix1 p) r)) = _
  rw [ofBits_posInf]
  exact (fold_min_top_eq_inf _ _).trans (Finset.inf_congr rfl fun r _ => congrArg src (lift_lane p r))

/-- The maximum over the lanes, started from `-∞`, is the supremum of the row. -/
theorem laneMax_apply (src : FVec Ideal S8x20000 .f32) (p : Fin 8) :
    multiReduction .maximumf [1] S8 src 0xFF800000#32 reduces_S8x20000_S8 (.inl rfl) rfl (ix1 p)
      = Finset.univ.sup fun r : Fin 20000 => src (ix2 p r) := by
  refine (multiReduction_maximumf_eq_fold src _ reduces_S8x20000_S8 (.inl rfl) rfl (ix1 p)).trans ?_
  refine (reduces_S8x20000_S8.fold_filter_drop_single _ _ src (ix1 p)).trans ?_
  show (Finset.univ : Finset (Fin 20000)).fold max (Ideal.ofBits .f32 0xFF800000#32)
    (fun r => src (reduces_S8x20000_S8.lift (ix1 p) r)) = _
  rw [ofBits_negInf]
  exact (fold_max_bot_eq_sup _ _).trans (Finset.sup_congr rfl fun r _ => congrArg src (lift_lane p r))

/-- A vector of eight viewed as a column reads, at `(p, 0)`, its entry `p`. -/
theorem column_apply (v : S8.Idx → EReal) (p : Fin 8) (u : Fin 1) :
    shapeCast S8x1 v shapeCasts_S8_S8x1 (ix2 p u) = v (ix1 p) :=
  shapeCast_apply v _ _ _ (by
    have hu : u.val = 0 := by omega
    rw [Shape.rowMajor_val_one, Shape.rowMajor_val_two]
    show p.val = p.val * 1 + u.val
    omega)

/-! ## The payloads at an index -/

/-- The mask as the body uses it is the loaded block itself (a cast between equal shapes). -/
theorem pay3_eq (x1 : Vec Ideal S8x64 .f32) : k0_pay3 (F := Ideal) x1 = x1 := by
  unfold k0_pay3; exact shapeCast_self _ _

/-- The complementary mask `1 - y`. -/
def maskCompl (y : S8x64.Idx → EReal) : S8x64.Idx → EReal := fun j => Cert.MI.one - y j

/-- The first product: the masked row sums of the tile. -/
theorem pay4_apply (x0 : Vec Ideal S20000x64 .f32) (x1 : Vec Ideal S8x64 .f32) (p : Fin 8) (r : Fin 20000) :
    k0_pay4 (F := Ideal) x0 x1 (ix2 p r) = dotRow x1 x0 p r := by
  unfold k0_pay4
  refine (matmul_zero_apply _ _ p r).trans ?_
  rw [pay3_eq]

/-- The second product: the row sums against the complementary mask. -/
theorem pay5_apply (x0 : Vec Ideal S20000x64 .f32) (x1 : Vec Ideal S8x64 .f32) (p : Fin 8) (r : Fin 20000) :
    k0_pay5 (F := Ideal) x0 x1 (ix2 p r) = dotRow (maskCompl x1) x0 p r := by
  unfold k0_pay5
  refine (matmul_zero_apply _ _ p r).trans ?_
  rw [pay3_eq]
  rfl

/-- The tile's smallest and largest complementary sums, as columns. -/
theorem pay6_apply (x0 : Vec Ideal S20000x64 .f32) (x1 : Vec Ideal S8x64 .f32) (p : Fin 8) :
    k0_pay6 (F := Ideal) x0 x1 (ix2 p (0 : Fin 1)) = Finset.univ.inf fun r : Fin 20000 => dotRow (maskCompl x1) x0 p r := by
  unfold k0_pay6
  refine (column_apply _ p (0 : Fin 1)).trans ?_
  refine (laneMin_apply _ p).trans ?_
  exact Finset.inf_congr rfl fun r _ => pay5_apply x0 x1 p r

theorem pay7_apply (x0 : Vec Ideal S20000x64 .f32) (x1 : Vec Ideal S8x64 .f32) (p : Fin 8) :
    k0_pay7 (F := Ideal) x0 x1 (ix2 p (0 : Fin 1)) = Finset.univ.sup fun r : Fin 20000 => dotRow (maskCompl x1) x0 p r := by
  unfold k0_pay7
  refine (column_apply _ p (0 : Fin 1)).trans ?_
  refine (laneMax_apply _ p).trans ?_
  exact Finset.sup_congr rfl fun r _ => pay5_apply x0 x1 p r

/-- The four reset blocks: `+∞` for the two minima, `-∞` for the two maxima. -/
theorem pay8_apply (p : Fin 8) : k0_pay8 (F := Ideal) (ix3 (0 : Fin 1) p (0 : Fin 1)) = ⊤ := by
  unfold k0_pay8
  refine (shapeCast_ab_1ab_apply _ _ (0 : Fin 1) p (0 : Fin 1)).trans ?_
  exact ofBits_posInf
theorem pay9_apply (p : Fin 8) : k0_pay9 (F := Ideal) (ix3 (0 : Fin 1) p (0 : Fin 1)) = ⊥ := by
  unfold k0_pay9
  refine (shapeCast_ab_1ab_apply _ _ (0 : Fin 1) p (0 : Fin 1)).trans ?_
  exact ofBits_negInf
theorem pay10_apply (p : Fin 8) : k0_pay10 (F := Ideal) (ix3 (0 : Fin 1) p (0 : Fin 1)) = ⊤ := by
  unfold k0_pay10
  refine (shapeCast_ab_1ab_apply _ _ (0 : Fin 1) p (0 : Fin 1)).trans ?_
  exact ofBits_posInf
theorem pay11_apply (p : Fin 8) : k0_pay11 (F := Ideal) (ix3 (0 : Fin 1) p (0 : Fin 1)) = ⊥ := by
  unfold k0_pay11
  refine (shapeCast_ab_1ab_apply _ _ (0 : Fin 1) p (0 : Fin 1)).trans ?_
  exact ofBits_negInf

/-- The running minimum of the masked sums after a tile: the block before, folded with the tile's infimum. -/
theorem pay12_apply (x0 : Vec Ideal S20000x64 .f32) (x1 : Vec Ideal S8x64 .f32) (xo : Vec Ideal S1x8x1 .f32) (p : Fin 8) :
    k0_pay12 (F := Ideal) x0 x1 xo (ix3 (0 : Fin 1) p (0 : Fin 1))
      = min (xo (ix3 (0 : Fin 1) p (0 : Fin 1))) (Finset.univ.inf fun r : Fin 20000 => dotRow x1 x0 p r) := by
  unfold k0_pay12
  refine (shapeCast_ab_1ab_apply _ _ (0 : Fin 1) p (0 : Fin 1)).trans ?_
  refine (minimumf_apply _ _ _).trans ?_
  refine congrArg₂ min (shapeCast_1ab_ab_apply _ _ p (0 : Fin 1)) ?_
  refine (column_apply _ p (0 : Fin 1)).trans ?_
  refine (laneMin_apply _ p).trans ?_
  exact Finset.inf_congr rfl fun r _ => pay4_apply x0 x1 p r

/-- The running maximum of the masked sums. -/
theorem pay13_apply (x0 : Vec Ideal S20000x64 .f32) (x1 : Vec Ideal S8x64 .f32) (xo : Vec Ideal S1x8x1 .f32) (p : Fin 8) :
    k0_pay13 (F := Ideal) x0 x1 xo (ix3 (0 : Fin 1) p (0 : Fin 1))
      = max (xo (ix3 (0 : Fin 1) p (0 : Fin 1))) (Finset.univ.sup fun r : Fin 20000 => dotRow x1 x0 p r) := by
  unfold k0_pay13
  refine (shapeCast_ab_1ab_apply _ _ (0 : Fin 1) p (0 : Fin 1)).trans ?_
  refine (maximumf_apply _ _ _).trans ?_
  refine congrArg₂ max (shapeCast_1ab_ab_apply _ _ p (0 : Fin 1)) ?_
  refine (column_apply _ p (0 : Fin 1)).trans ?_
  refine (laneMax_apply _ p).trans ?_
  exact Finset.sup_congr rfl fun r _ => pay4_apply x0 x1 p r

/-- The running minimum and maximum of the complementary sums: the block before, folded with a column. -/
theorem pay1_apply (v12 : FVec Ideal S8x1 .f32) (v30 : Vec Ideal S1x8x1 .f32) (p : Fin 8) :
    k0_pay1 (F := Ideal) v12 v30 (ix3 (0 : Fin 1) p (0 : Fin 1))
      = min (v30 (ix3 (0 : Fin 1) p (0 : Fin 1))) (v12 (ix2 p (0 : Fin 1))) := by
  unfold k0_pay1
  refine (shapeCast_ab_1ab_apply _ _ (0 : Fin 1) p (0 : Fin 1)).trans ?_
  refine (minimumf_apply _ _ _).trans ?_
  exact congrArg₂ min (shapeCast_1ab_ab_apply _ _ p (0 : Fin 1)) rfl

theorem pay2_apply (v14 : FVec Ideal S8x1 .f32) (v36 : Vec Ideal S1x8x1 .f32) (p : Fin 8) :
    k0_pay2 (F := Ideal) v14 v36 (ix3 (0 : Fin 1) p (0 : Fin 1))
      = max (v36 (ix3 (0 : Fin 1) p (0 : Fin 1))) (v14 (ix2 p (0 : Fin 1))) := by
  unfold k0_pay2
  refine (shapeCast_ab_1ab_apply _ _ (0 : Fin 1) p (0 : Fin 1)).trans ?_
  refine (maximumf_apply _ _ _).trans ?_
  exact congrArg₂ max (shapeCast_1ab_ab_apply _ _ p (0 : Fin 1)) rfl

end Cert.KernelIdeal.Stats

end
-- ==== Proof.StatsRegion.lean ====
/-
  The statistics pass, read off its run: what its four result arrays hold when the region ends.

  The grid is 2 × 50.  Point `t` works for core half `t / 50` on tile `t % 50`: it loads rows `20000·t … 20000·t + 19999`
  of the state (`state_block`) and the whole mask (`mask_block`), so the sums it forms are the masked row sums
  `rowA` / `rowB` of those rows (`tileA`, `tileB`; the rows named by natural numbers, `rowAN`, `rowBN`).  Each of
  the four running 1 × 8 × 1 blocks is reset at tile 0 and folded with `min` / `max` at every tile, so after tile `j`
  of half `q` it holds the infimum / supremum over the half's first `20000·(j + 1)` rows (`run2` … `run5`, by
  induction on `j`: a segment of `a + b` rows is its first `a` rows followed by the next `b`).  The block is written
  back after tile 49 to entry `(q, ·, 0)` of the 2 × 8 × 1 result array, and those two blocks cover the array; hence
  entry `(cc, p, 0)` is the infimum / supremum of row `p`'s sums over the million time steps of half `cc`.
-/
import proofs.«150017_j5007931867607_2_alg».proof.Proof.Gen.KernelIdeal.Frame
import proofs.«150017_j5007931867607_2_alg».proof.Proof.Spec
import proofs.«150017_j5007931867607_2_alg».proof.Proof.TileExtrema
import proofs.«150017_j5007931867607_2_alg».proof.Proof.StatsPieces
import proofs.«150017_j5007931867607_2_alg».proof.Proof.StatsPayloads
import Idealize.ShloMosaic.Lib.Pipeline.Value
import Idealize.ShloMosaic.Lib.Tactic

noncomputable section

namespace Cert.KernelIdeal.Stats

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## Where the windows' blocks sit -/

theorem idx_state : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_mask : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

theorem state_block (c : Dev nD) (t : Fin cfg0.N) (r : Fin 20000) (d : Fin 64) (k : Cert.MI.SX.Idx)
    (hk0 : (k (0 : Fin 2)).val = 20000 * t.val + r.val) (hk1 : (k (1 : Fin 2)).val = d.val) :
    (iblk0 V c 0 t : Vec Ideal S20000x64 .f32) (ix2 r d) = (V c main_arg0 : Cert.MI.SX.Idx → EReal) k := by
  obtain ⟨e0, e1⟩ := idx_state t
  unfold iblk0
  rw [View.read_apply]
  show V c main_arg0 _ = V c main_arg0 _
  refine congrArg (V c main_arg0) ?_
  funext a
  apply Fin.ext
  match a with
  | ⟨0, _⟩ => show win0_0.index t (0 : Fin 2) * 20000 + 1 * r.val = (k (0 : Fin 2)).val; rw [e0, hk0]; omega
  | ⟨1, _⟩ => show win0_0.index t (1 : Fin 2) * 64 + 1 * d.val = (k (1 : Fin 2)).val; rw [e1, hk1]; omega

theorem mask_block (c : Dev nD) (t : Fin cfg0.N) (p : Fin 8) (d : Fin 64) :
    (iblk0 V c 1 t : Vec Ideal S8x64 .f32) (ix2 p d) = (V c main_v0 : Cert.MI.SP.Idx → EReal) (ix2 p d) := by
  obtain ⟨e0, e1⟩ := idx_mask t
  unfold iblk0
  rw [View.read_apply]
  show V c main_v0 _ = V c main_v0 _
  refine congrArg (V c main_v0) ?_
  funext a
  apply Fin.ext
  match a with
  | ⟨0, _⟩ => show win0_1.index t (0 : Fin 2) * 8 + 1 * p.val = p.val; rw [e0]; omega
  | ⟨1, _⟩ => show win0_1.index t (1 : Fin 2) * 64 + 1 * d.val = d.val; rw [e1]; omega

/-! ## The row sums over the naturals -/

def rowAN (c : Dev nD) (pv s : ℕ) : EReal :=
  if h : pv < 8 ∧ s < 2000000 then Cert.MI.rowA (V c main_v0) (V c main_arg0) ⟨pv, h.1⟩ ⟨s, h.2⟩ else 0

def rowBN (c : Dev nD) (pv s : ℕ) : EReal :=
  if h : pv < 8 ∧ s < 2000000 then Cert.MI.rowB (V c main_v0) (V c main_arg0) ⟨pv, h.1⟩ ⟨s, h.2⟩ else 0

theorem tileA (c : Dev nD) (t : Fin cfg0.N) (p : Fin 8) (r : Fin 20000) :
    dotRow (iblk0 V c 1 t) (iblk0 V c 0 t) p r = rowAN V c p.val (20000 * t.val + r.val) := by
  have hN : t.val < 100 := lt_of_lt_of_eq t.isLt (show cfg0.N = 100 from N_0)
  have hb : p.val < 8 ∧ 20000 * t.val + r.val < 2000000 := ⟨p.isLt, by have := r.isLt; omega⟩
  unfold rowAN
  rw [dif_pos hb]
  unfold dotRow Cert.MI.rowA
  exact Finset.sum_congr rfl fun d _ => congrArg₂ (· * ·) (mask_block V c t p d)
    (state_block V c t r d (ix2 ⟨20000 * t.val + r.val, hb.2⟩ d) rfl rfl)

theorem tileB (c : Dev nD) (t : Fin cfg0.N) (p : Fin 8) (r : Fin 20000) :
    dotRow (maskCompl (iblk0 V c 1 t)) (iblk0 V c 0 t) p r = rowBN V c p.val (20000 * t.val + r.val) := by
  have hN : t.val < 100 := lt_of_lt_of_eq t.isLt (show cfg0.N = 100 from N_0)
  have hb : p.val < 8 ∧ 20000 * t.val + r.val < 2000000 := ⟨p.isLt, by have := r.isLt; omega⟩
  unfold rowBN
  rw [dif_pos hb]
  unfold dotRow Cert.MI.rowB maskCompl
  exact Finset.sum_congr rfl fun d _ => congrArg₂ (· * ·) (congrArg (Cert.MI.one - ·) (mask_block V c t p d))
    (state_block V c t r d (ix2 ⟨20000 * t.val + r.val, hb.2⟩ d) rfl rfl)

/-! ## Window 2: the running minimum of the masked sums -/

/-- One tile folded into a running block, at mask row `p`: the block before against the tile's infimum,
    the tile's rows read off the state as rows `20000·t … 20000·t + 19999`. -/
theorem step2 (c : Dev nD) (t : Fin cfg0.N) (p : Fin 8) (xo : Vec Ideal S1x8x1 .f32) :
    k0_pay12 (F := Ideal) (iblk0 V c 0 t) (iblk0 V c 1 t) xo (ix3 (0 : Fin 1) p (0 : Fin 1))
      = min (xo (ix3 (0 : Fin 1) p (0 : Fin 1))) ((Finset.range 20000).inf fun i => rowAN V c p.val (20000 * t.val + i)) :=
  (pay12_apply (iblk0 V c 0 t) (iblk0 V c 1 t) xo p).trans
    (congrArg (min (xo (ix3 (0 : Fin 1) p (0 : Fin 1))))
      (inf_fin_eq_range 20000 _ (fun i => rowAN V c p.val (20000 * t.val + i)) fun r => (tileA V c t p r).symm))

/-- At the first tile of a half the block is the tile's own infimum. -/
theorem first2 (c : Dev nD) (t : Fin cfg0.N) (hA : t.val % 50 = 0) (p : Fin 8) :
    (outsAt0 V c t.val t.isLt).1 (ix3 (0 : Fin 1) p (0 : Fin 1)) = ((Finset.range 20000).inf fun i => rowAN V c p.val (20000 * t.val + i)) := by
  rw [outsAt0_A V c t hA]
  dsimp only
  rw [out_A_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr hA) (iblk0 V c 0 t) (iblk0 V c 1 t)]
  rw [step2 V c t p, pay8_apply, min_top_left]

/-- At every later tile it is what the tile before left, folded with the tile's. -/
theorem later2 (c : Dev nD) (t : Fin cfg0.N) (hB : ¬t.val % 50 = 0) (p : Fin 8) :
    (outsAt0 V c t.val t.isLt).1 (ix3 (0 : Fin 1) p (0 : Fin 1))
      = min ((outsAt0 V c (t.val - 1) (Nat.lt_of_le_of_lt (Nat.sub_le _ _) t.isLt)).1 (ix3 (0 : Fin 1) p (0 : Fin 1))) ((Finset.range 20000).inf fun i => rowAN V c p.val (20000 * t.val + i)) := by
  rw [outsAt0_B V c t hB]
  dsimp only
  rw [out_B_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => hB ((hcond0_0 t).mp h)) (iblk0 V c 0 t) (iblk0 V c 1 t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2]
  exact step2 V c t p _

/-- So after tile `j` of half `q` the block holds the infimum over the half's first `20000·(j + 1)` rows. -/
theorem run2 (c : Dev nD) (p : Fin 8) (q : ℕ) : ∀ (j : ℕ) (_ : j < 50) (h : 50 * q + j < cfg0.N),
    (outsAt0 V c (50 * q + j) h).1 (ix3 (0 : Fin 1) p (0 : Fin 1))
      = (Finset.range (20000 * (j + 1))).inf fun i => rowAN V c p.val (1000000 * q + i)
  | 0, _, h => by
    refine (first2 V c ⟨50 * q + 0, h⟩ (by show (50 * q + 0) % 50 = 0; omega) p).trans ?_
    show (Finset.range 20000).inf _ = (Finset.range 20000).inf _
    exact Finset.inf_congr rfl fun i _ => congrArg (rowAN V c p.val)
      (by show 20000 * (50 * q + 0) + i = 1000000 * q + i; omega)
  | j + 1, hj, h => by
    have hB : ¬(⟨50 * q + (j + 1), h⟩ : Fin cfg0.N).val % 50 = 0 := by
      show ¬(50 * q + (j + 1)) % 50 = 0; omega
    refine (later2 V c ⟨50 * q + (j + 1), h⟩ hB p).trans ?_
    rw [show 20000 * (j + 1 + 1) = 20000 * (j + 1) + 20000 by omega, inf_range_add]
    refine congrArg₂ min ?_ ?_
    · exact run2 c p q j (Nat.lt_of_succ_lt hj) (Nat.lt_of_succ_lt h)
    · exact Finset.inf_congr rfl fun i _ => congrArg (rowAN V c p.val)
        (by show 20000 * (50 * q + (j + 1)) + i = 1000000 * q + (20000 * (j + 1) + i); omega)

/-- The infimum over half `qv` of the time axis, for mask row `pv`. -/
def ext2 (c : Dev nD) (pv qv : ℕ) : EReal := (Finset.range 1000000).inf fun s => rowAN V c pv (1000000 * qv + s)

theorem idx_out2 : ∀ t : Fin cfg0.N, win0_2.index t (0 : Fin 3) = t.val / 50 ∧ win0_2.index t (1 : Fin 3) = 0 ∧ win0_2.index t (2 : Fin 3) = 0 :=
  (by decide +kernel : ∀ t : Fin grid0.N, win0_2.index t (0 : Fin 3) = t.val / 50 ∧ win0_2.index t (1 : Fin 3) = 0 ∧ win0_2.index t (2 : Fin 3) = 0)

/-- What the last tile of a half writes back is that half's block of the array whose entry `(cc, p, 0)` is what the
    running block holds for row `p` after the last tile of half `cc` (`E p cc`, for any family `E` that names it). -/
theorem flushed2_of (c : Dev nD) (E : ℕ → ℕ → EReal)
    (hE : ∀ (p : Fin 8) (q : ℕ) (h : 50 * q + 49 < cfg0.N),
      (outsAt0 V c (50 * q + 49) h).1 (ix3 (0 : Fin 1) p (0 : Fin 1)) = E p.val q)
    (t : Fin cfg0.N) (hf : (cfg0.win 2).flush t = true) :
    (dat0 V c).flushed 2 t = ((cfg0.win 2).blk t).view.read (Elt Ideal)
      (fun i : S2x8x1.Idx => E (i (1 : Fin 3)).val (i (0 : Fin 3)).val) := by
  have hN : t.val < 100 := lt_of_lt_of_eq t.isLt (show cfg0.N = 100 from N_0)
  have h49 : t.val % 50 = 49 := (flush0_2 t).mp hf
  obtain ⟨e0, e1, e2⟩ := idx_out2 t
  show (cfg0.win 2).cut (grid0.coords t) ((dat0 V c).after 2 t) = _
  rw [after0_2]
  funext y
  obtain ⟨u, p, z, rfl⟩ : ∃ (u : Fin 1) (p : Fin 8) (z : Fin 1), y = ix3 u p z := ⟨y 0, y 1, y 2, eq_ix3 y⟩
  obtain rfl : u = 0 := Subsingleton.elim _ _
  obtain rfl : z = 0 := Subsingleton.elim _ _
  rw [View.read_apply]
  show (outsAt0 V c t.val t.isLt).1 (ix3 (0 : Fin 1) p (0 : Fin 1))
    = E ((((cfg0.win 2).blk t).view.emb (ix3 (0 : Fin 1) p (0 : Fin 1))) (1 : Fin 3)).val
        ((((cfg0.win 2).blk t).view.emb (ix3 (0 : Fin 1) p (0 : Fin 1))) (0 : Fin 3)).val
  have same : ∀ (u : ℕ) (hu : u < cfg0.N), u = t.val → (outsAt0 V c u hu).1 = (outsAt0 V c t.val t.isLt).1 :=
    fun u hu e => by subst e; rfl
  have hq : 50 * (t.val / 50) + 49 = t.val := by omega
  have hlt : 50 * (t.val / 50) + 49 < cfg0.N :=
    lt_of_lt_of_eq (by omega : 50 * (t.val / 50) + 49 < 100) (show cfg0.N = 100 from N_0).symm
  have c0 : ((((cfg0.win 2).blk t).view.emb (ix3 (0 : Fin 1) p (0 : Fin 1))) (0 : Fin 3)).val = t.val / 50 := by
    show win0_2.index t (0 : Fin 3) * 1 + 1 * 0 = t.val / 50; rw [e0]; omega
  have c1 : ((((cfg0.win 2).blk t).view.emb (ix3 (0 : Fin 1) p (0 : Fin 1))) (1 : Fin 3)).val = p.val := by
    show win0_2.index t (1 : Fin 3) * 8 + 1 * p.val = p.val; rw [e1]; omega
  rw [c0, c1, ← same (50 * (t.val / 50) + 49) hlt hq]
  exact hE p (t.val / 50) hlt

/-- Every entry of the array is in the block of the last tile of its half. -/
theorem cover2 (i : S2x8x1.Idx) :
    ∃ t : Fin cfg0.N, (cfg0.win 2).flush t = true ∧ i ∈ ((cfg0.win 2).blk t).view.set := by
  have h0 : (i (0 : Fin 3)).val < 2 := (i (0 : Fin 3)).isLt
  have h1 : (i (1 : Fin 3)).val < 8 := (i (1 : Fin 3)).isLt
  have h2 : (i (2 : Fin 3)).val < 1 := (i (2 : Fin 3)).isLt
  obtain ⟨t, ht⟩ : ∃ t : Fin cfg0.N, t.val = 50 * (i (0 : Fin 3)).val + 49 :=
    ⟨⟨50 * (i (0 : Fin 3)).val + 49, by rw [show cfg0.N = 100 from N_0]; omega⟩, rfl⟩
  obtain ⟨e0, e1, e2⟩ := idx_out2 t
  refine ⟨t, (flush0_2 t).mpr (by omega), ?_⟩
  show i ∈ ((View.whole main_v1_0).slice (win0_2.rect t)).set
  rw [View.set_slice_whole, Rect.mem_set_unit]
  intro a
  match a with
  | ⟨0, _⟩ =>
    show win0_2.index t (0 : Fin 3) * 1 ≤ (i (0 : Fin 3)).val ∧ (i (0 : Fin 3)).val < win0_2.index t (0 : Fin 3) * 1 + 1
    rw [e0]; omega
  | ⟨1, _⟩ =>
    show win0_2.index t (1 : Fin 3) * 8 ≤ (i (1 : Fin 3)).val ∧ (i (1 : Fin 3)).val < win0_2.index t (1 : Fin 3) * 8 + 8
    rw [e1]; omega
  | ⟨2, _⟩ =>
    show win0_2.index t (2 : Fin 3) * 1 ≤ (i (2 : Fin 3)).val ∧ (i (2 : Fin 3)).val < win0_2.index t (2 : Fin 3) * 1 + 1
    rw [e2]; omega

/-- The array after the region: entry `(cc, p, 0)` is the infimum over half `cc`. -/
theorem arr2 (c : Dev nD) :
    (dat0 V c).arrAt 2 cfg0.N = fun i : S2x8x1.Idx => ext2 V c (i (1 : Fin 3)).val (i (0 : Fin 3)).val :=
  (dat0 V c).arrAt_eq_of_cover 2 (fun i : S2x8x1.Idx => ext2 V c (i (1 : Fin 3)).val (i (0 : Fin 3)).val)
    (fun t hf => flushed2_of V c (ext2 V c)
      (fun p q h => (run2 V c p q 49 (by omega) h).trans (by unfold ext2; rfl)) t hf)
    cover2

theorem minA_arr (c : Dev nD) (cc : Fin 2) (p : Fin 8) :
    (Gen.dat0 (F := Ideal) V c).arrAt 2 cfg0.N (ValueIdx.ix3 cc p (0 : Fin 1)) =
      Finset.univ.inf fun r : Fin 1000000 => Cert.MI.rowA (V c main_v0) (V c main_arg0) p (Cert.MI.stepOf cc r) := by
  rw [arr2]
  show ext2 V c p.val cc.val = _
  unfold ext2
  refine (inf_fin_eq_range 1000000 _ _ fun r => ?_).symm
  unfold rowAN
  rw [dif_pos ⟨p.isLt, by have := cc.isLt; have := r.isLt; omega⟩]
  rfl

/-! ## Window 3: the running maximum of the masked sums -/

/-- One tile folded into a running block, at mask row `p`: the block before against the tile's supremum,
    the tile's rows read off the state as rows `20000·t … 20000·t + 19999`. -/
theorem step3 (c : Dev nD) (t : Fin cfg0.N) (p : Fin 8) (xo : Vec Ideal S1x8x1 .f32) :
    k0_pay13 (F := Ideal) (iblk0 V c 0 t) (iblk0 V c 1 t) xo (ix3 (0 : Fin 1) p (0 : Fin 1))
      = max (xo (ix3 (0 : Fin 1) p (0 : Fin 1))) ((Finset.range 20000).sup fun i => rowAN V c p.val (20000 * t.val + i)) :=
  (pay13_apply (iblk0 V c 0 t) (iblk0 V c 1 t) xo p).trans
    (congrArg (max (xo (ix3 (0 : Fin 1) p (0 : Fin 1))))
      (sup_fin_eq_range 20000 _ (fun i => rowAN V c p.val (20000 * t.val + i)) fun r => (tileA V c t p r).symm))

/-- At the first tile of a half the block is the tile's own supremum. -/
theorem first3 (c : Dev nD) (t : Fin cfg0.N) (hA : t.val % 50 = 0) (p : Fin 8) :
    (outsAt0 V c t.val t.isLt).2.1 (ix3 (0 : Fin 1) p (0 : Fin 1)) = ((Finset.range 20000).sup fun i => rowAN V c p.val (20000 * t.val + i)) := by
  rw [outsAt0_A V c t hA]
  dsimp only
  rw [out_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr hA) (iblk0 V c 0 t) (iblk0 V c 1 t)]
  rw [step3 V c t p, pay9_apply, max_bot_left]

/-- At every later tile it is what the tile before left, folded with the tile's. -/
theorem later3 (c : Dev nD) (t : Fin cfg0.N) (hB : ¬t.val % 50 = 0) (p : Fin 8) :
    (outsAt0 V c t.val t.isLt).2.1 (ix3 (0 : Fin 1) p (0 : Fin 1))
      = max ((outsAt0 V c (t.val - 1) (Nat.lt_of_le_of_lt (Nat.sub_le _ _) t.isLt)).2.1 (ix3 (0 : Fin 1) p (0 : Fin 1))) ((Finset.range 20000).sup fun i => rowAN V c p.val (20000 * t.val + i)) := by
  rw [outsAt0_B V c t hB]
  dsimp only
  rw [out_B_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => hB ((hcond0_0 t).mp h)) (iblk0 V c 0 t) (iblk0 V c 1 t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2]
  exact step3 V c t p _

/-- So after tile `j` of half `q` the block holds the supremum over the half's first `20000·(j + 1)` rows. -/
theorem run3 (c : Dev nD) (p : Fin 8) (q : ℕ) : ∀ (j : ℕ) (_ : j < 50) (h : 50 * q + j < cfg0.N),
    (outsAt0 V c (50 * q + j) h).2.1 (ix3 (0 : Fin 1) p (0 : Fin 1))
      = (Finset.range (20000 * (j + 1))).sup fun i => rowAN V c p.val (1000000 * q + i)
  | 0, _, h => by
    refine (first3 V c ⟨50 * q + 0, h⟩ (by show (50 * q + 0) % 50 = 0; omega) p).trans ?_
    show (Finset.range 20000).sup _ = (Finset.range 20000).sup _
    exact Finset.sup_congr rfl fun i _ => congrArg (rowAN V c p.val)
      (by show 20000 * (50 * q + 0) + i = 1000000 * q + i; omega)
  | j + 1, hj, h => by
    have hB : ¬(⟨50 * q + (j + 1), h⟩ : Fin cfg0.N).val % 50 = 0 := by
      show ¬(50 * q + (j + 1)) % 50 = 0; omega
    refine (later3 V c ⟨50 * q + (j + 1), h⟩ hB p).trans ?_
    rw [show 20000 * (j + 1 + 1) = 20000 * (j + 1) + 20000 by omega, sup_range_add]
    refine congrArg₂ max ?_ ?_
    · exact run3 c p q j (Nat.lt_of_succ_lt hj) (Nat.lt_of_succ_lt h)
    · exact Finset.sup_congr rfl fun i _ => congrArg (rowAN V c p.val)
        (by show 20000 * (50 * q + (j + 1)) + i = 1000000 * q + (20000 * (j + 1) + i); omega)

/-- The supremum over half `qv` of the time axis, for mask row `pv`. -/
def ext3 (c : Dev nD) (pv qv : ℕ) : EReal := (Finset.range 1000000).sup fun s => rowAN V c pv (1000000 * qv + s)

theorem idx_out3 : ∀ t : Fin cfg0.N, win0_3.index t (0 : Fin 3) = t.val / 50 ∧ win0_3.index t (1 : Fin 3) = 0 ∧ win0_3.index t (2 : Fin 3) = 0 :=
  (by decide +kernel : ∀ t : Fin grid0.N, win0_3.index t (0 : Fin 3) = t.val / 50 ∧ win0_3.index t (1 : Fin 3) = 0 ∧ win0_3.index t (2 : Fin 3) = 0)

/-- What the last tile of a half writes back is that half's block of the array whose entry `(cc, p, 0)` is what the
    running block holds for row `p` after the last tile of half `cc` (`E p cc`, for any family `E` that names it). -/
theorem flushed3_of (c : Dev nD) (E : ℕ → ℕ → EReal)
    (hE : ∀ (p : Fin 8) (q : ℕ) (h : 50 * q + 49 < cfg0.N),
      (outsAt0 V c (50 * q + 49) h).2.1 (ix3 (0 : Fin 1) p (0 : Fin 1)) = E p.val q)
    (t : Fin cfg0.N) (hf : (cfg0.win 3).flush t = true) :
    (dat0 V c).flushed 3 t = ((cfg0.win 3).blk t).view.read (Elt Ideal)
      (fun i : S2x8x1.Idx => E (i (1 : Fin 3)).val (i (0 : Fin 3)).val) := by
  have hN : t.val < 100 := lt_of_lt_of_eq t.isLt (show cfg0.N = 100 from N_0)
  have h49 : t.val % 50 = 49 := (flush0_3 t).mp hf
  obtain ⟨e0, e1, e2⟩ := idx_out3 t
  show (cfg0.win 3).cut (grid0.coords t) ((dat0 V c).after 3 t) = _
  rw [after0_3]
  funext y
  obtain ⟨u, p, z, rfl⟩ : ∃ (u : Fin 1) (p : Fin 8) (z : Fin 1), y = ix3 u p z := ⟨y 0, y 1, y 2, eq_ix3 y⟩
  obtain rfl : u = 0 := Subsingleton.elim _ _
  obtain rfl : z = 0 := Subsingleton.elim _ _
  rw [View.read_apply]
  show (outsAt0 V c t.val t.isLt).2.1 (ix3 (0 : Fin 1) p (0 : Fin 1))
    = E ((((cfg0.win 3).blk t).view.emb (ix3 (0 : Fin 1) p (0 : Fin 1))) (1 : Fin 3)).val
        ((((cfg0.win 3).blk t).view.emb (ix3 (0 : Fin 1) p (0 : Fin 1))) (0 : Fin 3)).val
  have same : ∀ (u : ℕ) (hu : u < cfg0.N), u = t.val → (outsAt0 V c u hu).2.1 = (outsAt0 V c t.val t.isLt).2.1 :=
    fun u hu e => by subst e; rfl
  have hq : 50 * (t.val / 50) + 49 = t.val := by omega
  have hlt : 50 * (t.val / 50) + 49 < cfg0.N :=
    lt_of_lt_of_eq (by omega : 50 * (t.val / 50) + 49 < 100) (show cfg0.N = 100 from N_0).symm
  have c0 : ((((cfg0.win 3).blk t).view.emb (ix3 (0 : Fin 1) p (0 : Fin 1))) (0 : Fin 3)).val = t.val / 50 := by
    show win0_3.index t (0 : Fin 3) * 1 + 1 * 0 = t.val / 50; rw [e0]; omega
  have c1 : ((((cfg0.win 3).blk t).view.emb (ix3 (0 : Fin 1) p (0 : Fin 1))) (1 : Fin 3)).val = p.val := by
    show win0_3.index t (1 : Fin 3) * 8 + 1 * p.val = p.val; rw [e1]; omega
  rw [c0, c1, ← same (50 * (t.val / 50) + 49) hlt hq]
  exact hE p (t.val / 50) hlt

/-- Every entry of the array is in the block of the last tile of its half. -/
theorem cover3 (i : S2x8x1.Idx) :
    ∃ t : Fin cfg0.N, (cfg0.win 3).flush t = true ∧ i ∈ ((cfg0.win 3).blk t).view.set := by
  have h0 : (i (0 : Fin 3)).val < 2 := (i (0 : Fin 3)).isLt
  have h1 : (i (1 : Fin 3)).val < 8 := (i (1 : Fin 3)).isLt
  have h2 : (i (2 : Fin 3)).val < 1 := (i (2 : Fin 3)).isLt
  obtain ⟨t, ht⟩ : ∃ t : Fin cfg0.N, t.val = 50 * (i (0 : Fin 3)).val + 49 :=
    ⟨⟨50 * (i (0 : Fin 3)).val + 49, by rw [show cfg0.N = 100 from N_0]; omega⟩, rfl⟩
  obtain ⟨e0, e1, e2⟩ := idx_out3 t
  refine ⟨t, (flush0_3 t).mpr (by omega), ?_⟩
  show i ∈ ((View.whole main_v1_1).slice (win0_3.rect t)).set
  rw [View.set_slice_whole, Rect.mem_set_unit]
  intro a
  match a with
  | ⟨0, _⟩ =>
    show win0_3.index t (0 : Fin 3) * 1 ≤ (i (0 : Fin 3)).val ∧ (i (0 : Fin 3)).val < win0_3.index t (0 : Fin 3) * 1 + 1
    rw [e0]; omega
  | ⟨1, _⟩ =>
    show win0_3.index t (1 : Fin 3) * 8 ≤ (i (1 : Fin 3)).val ∧ (i (1 : Fin 3)).val < win0_3.index t (1 : Fin 3) * 8 + 8
    rw [e1]; omega
  | ⟨2, _⟩ =>
    show win0_3.index t (2 : Fin 3) * 1 ≤ (i (2 : Fin 3)).val ∧ (i (2 : Fin 3)).val < win0_3.index t (2 : Fin 3) * 1 + 1
    rw [e2]; omega

/-- The array after the region: entry `(cc, p, 0)` is the supremum over half `cc`. -/
theorem arr3 (c : Dev nD) :
    (dat0 V c).arrAt 3 cfg0.N = fun i : S2x8x1.Idx => ext3 V c (i (1 : Fin 3)).val (i (0 : Fin 3)).val :=
  (dat0 V c).arrAt_eq_of_cover 3 (fun i : S2x8x1.Idx => ext3 V c (i (1 : Fin 3)).val (i (0 : Fin 3)).val)
    (fun t hf => flushed3_of V c (ext3 V c)
      (fun p q h => (run3 V c p q 49 (by omega) h).trans (by unfold ext3; rfl)) t hf)
    cover3

theorem maxA_arr (c : Dev nD) (cc : Fin 2) (p : Fin 8) :
    (Gen.dat0 (F := Ideal) V c).arrAt 3 cfg0.N (ValueIdx.ix3 cc p (0 : Fin 1)) =
      Finset.univ.sup fun r : Fin 1000000 => Cert.MI.rowA (V c main_v0) (V c main_arg0) p (Cert.MI.stepOf cc r) := by
  rw [arr3]
  show ext3 V c p.val cc.val = _
  unfold ext3
  refine (sup_fin_eq_range 1000000 _ _ fun r => ?_).symm
  unfold rowAN
  rw [dif_pos ⟨p.isLt, by have := cc.isLt; have := r.isLt; omega⟩]
  rfl

/-! ## Window 4: the running minimum of the complementary sums -/

/-- One tile folded into a running block, at mask row `p`: the block before against the tile's infimum,
    the tile's rows read off the state as rows `20000·t … 20000·t + 19999`. -/
theorem step4 (c : Dev nD) (t : Fin cfg0.N) (p : Fin 8) (xo : Vec Ideal S1x8x1 .f32) :
    k0_pay1 (F := Ideal) (k0_pay6 (iblk0 V c 0 t) (iblk0 V c 1 t)) xo (ix3 (0 : Fin 1) p (0 : Fin 1))
      = min (xo (ix3 (0 : Fin 1) p (0 : Fin 1))) ((Finset.range 20000).inf fun i => rowBN V c p.val (20000 * t.val + i)) :=
  (pay1_apply (k0_pay6 (iblk0 V c 0 t) (iblk0 V c 1 t)) xo p).trans
    (congrArg (min (xo (ix3 (0 : Fin 1) p (0 : Fin 1))))
      ((pay6_apply (iblk0 V c 0 t) (iblk0 V c 1 t) p).trans
        (inf_fin_eq_range 20000 _ (fun i => rowBN V c p.val (20000 * t.val + i)) fun r => (tileB V c t p r).symm)))

/-- At the first tile of a half the block is the tile's own infimum. -/
theorem first4 (c : Dev nD) (t : Fin cfg0.N) (hA : t.val % 50 = 0) (p : Fin 8) :
    (outsAt0 V c t.val t.isLt).2.2.1 (ix3 (0 : Fin 1) p (0 : Fin 1)) = ((Finset.range 20000).inf fun i => rowBN V c p.val (20000 * t.val + i)) := by
  rw [outsAt0_A V c t hA]
  dsimp only
  rw [out_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr hA) (iblk0 V c 0 t) (iblk0 V c 1 t)]
  rw [step4 V c t p, pay10_apply, min_top_left]

/-- At every later tile it is what the tile before left, folded with the tile's. -/
theorem later4 (c : Dev nD) (t : Fin cfg0.N) (hB : ¬t.val % 50 = 0) (p : Fin 8) :
    (outsAt0 V c t.val t.isLt).2.2.1 (ix3 (0 : Fin 1) p (0 : Fin 1))
      = min ((outsAt0 V c (t.val - 1) (Nat.lt_of_le_of_lt (Nat.sub_le _ _) t.isLt)).2.2.1 (ix3 (0 : Fin 1) p (0 : Fin 1))) ((Finset.range 20000).inf fun i => rowBN V c p.val (20000 * t.val + i)) := by
  rw [outsAt0_B V c t hB]
  dsimp only
  rw [out_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => hB ((hcond0_0 t).mp h)) (iblk0 V c 0 t) (iblk0 V c 1 t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2]
  exact step4 V c t p _

/-- So after tile `j` of half `q` the block holds the infimum over the half's first `20000·(j + 1)` rows. -/
theorem run4 (c : Dev nD) (p : Fin 8) (q : ℕ) : ∀ (j : ℕ) (_ : j < 50) (h : 50 * q + j < cfg0.N),
    (outsAt0 V c (50 * q + j) h).2.2.1 (ix3 (0 : Fin 1) p (0 : Fin 1))
      = (Finset.range (20000 * (j + 1))).inf fun i => rowBN V c p.val (1000000 * q + i)
  | 0, _, h => by
    refine (first4 V c ⟨50 * q + 0, h⟩ (by show (50 * q + 0) % 50 = 0; omega) p).trans ?_
    show (Finset.range 20000).inf _ = (Finset.range 20000).inf _
    exact Finset.inf_congr rfl fun i _ => congrArg (rowBN V c p.val)
      (by show 20000 * (50 * q + 0) + i = 1000000 * q + i; omega)
  | j + 1, hj, h => by
    have hB : ¬(⟨50 * q + (j + 1), h⟩ : Fin cfg0.N).val % 50 = 0 := by
      show ¬(50 * q + (j + 1)) % 50 = 0; omega
    refine (later4 V c ⟨50 * q + (j + 1), h⟩ hB p).trans ?_
    rw [show 20000 * (j + 1 + 1) = 20000 * (j + 1) + 20000 by omega, inf_range_add]
    refine congrArg₂ min ?_ ?_
    · exact run4 c p q j (Nat.lt_of_succ_lt hj) (Nat.lt_of_succ_lt h)
    · exact Finset.inf_congr rfl fun i _ => congrArg (rowBN V c p.val)
        (by show 20000 * (50 * q + (j + 1)) + i = 1000000 * q + (20000 * (j + 1) + i); omega)

/-- The infimum over half `qv` of the time axis, for mask row `pv`. -/
def ext4 (c : Dev nD) (pv qv : ℕ) : EReal := (Finset.range 1000000).inf fun s => rowBN V c pv (1000000 * qv + s)

theorem idx_out4 : ∀ t : Fin cfg0.N, win0_4.index t (0 : Fin 3) = t.val / 50 ∧ win0_4.index t (1 : Fin 3) = 0 ∧ win0_4.index t (2 : Fin 3) = 0 :=
  (by decide +kernel : ∀ t : Fin grid0.N, win0_4.index t (0 : Fin 3) = t.val / 50 ∧ win0_4.index t (1 : Fin 3) = 0 ∧ win0_4.index t (2 : Fin 3) = 0)

/-- What the last tile of a half writes back is that half's block of the array whose entry `(cc, p, 0)` is what the
    running block holds for row `p` after the last tile of half `cc` (`E p cc`, for any family `E` that names it). -/
theorem flushed4_of (c : Dev nD) (E : ℕ → ℕ → EReal)
    (hE : ∀ (p : Fin 8) (q : ℕ) (h : 50 * q + 49 < cfg0.N),
      (outsAt0 V c (50 * q + 49) h).2.2.1 (ix3 (0 : Fin 1) p (0 : Fin 1)) = E p.val q)
    (t : Fin cfg0.N) (hf : (cfg0.win 4).flush t = true) :
    (dat0 V c).flushed 4 t = ((cfg0.win 4).blk t).view.read (Elt Ideal)
      (fun i : S2x8x1.Idx => E (i (1 : Fin 3)).val (i (0 : Fin 3)).val) := by
  have hN : t.val < 100 := lt_of_lt_of_eq t.isLt (show cfg0.N = 100 from N_0)
  have h49 : t.val % 50 = 49 := (flush0_4 t).mp hf
  obtain ⟨e0, e1, e2⟩ := idx_out4 t
  show (cfg0.win 4).cut (grid0.coords t) ((dat0 V c).after 4 t) = _
  rw [after0_4]
  funext y
  obtain ⟨u, p, z, rfl⟩ : ∃ (u : Fin 1) (p : Fin 8) (z : Fin 1), y = ix3 u p z := ⟨y 0, y 1, y 2, eq_ix3 y⟩
  obtain rfl : u = 0 := Subsingleton.elim _ _
  obtain rfl : z = 0 := Subsingleton.elim _ _
  rw [View.read_apply]
  show (outsAt0 V c t.val t.isLt).2.2.1 (ix3 (0 : Fin 1) p (0 : Fin 1))
    = E ((((cfg0.win 4).blk t).view.emb (ix3 (0 : Fin 1) p (0 : Fin 1))) (1 : Fin 3)).val
        ((((cfg0.win 4).blk t).view.emb (ix3 (0 : Fin 1) p (0 : Fin 1))) (0 : Fin 3)).val
  have same : ∀ (u : ℕ) (hu : u < cfg0.N), u = t.val → (outsAt0 V c u hu).2.2.1 = (outsAt0 V c t.val t.isLt).2.2.1 :=
    fun u hu e => by subst e; rfl
  have hq : 50 * (t.val / 50) + 49 = t.val := by omega
  have hlt : 50 * (t.val / 50) + 49 < cfg0.N :=
    lt_of_lt_of_eq (by omega : 50 * (t.val / 50) + 49 < 100) (show cfg0.N = 100 from N_0).symm
  have c0 : ((((cfg0.win 4).blk t).view.emb (ix3 (0 : Fin 1) p (0 : Fin 1))) (0 : Fin 3)).val = t.val / 50 := by
    show win0_4.index t (0 : Fin 3) * 1 + 1 * 0 = t.val / 50; rw [e0]; omega
  have c1 : ((((cfg0.win 4).blk t).view.emb (ix3 (0 : Fin 1) p (0 : Fin 1))) (1 : Fin 3)).val = p.val := by
    show win0_4.index t (1 : Fin 3) * 8 + 1 * p.val = p.val; rw [e1]; omega
  rw [c0, c1, ← same (50 * (t.val / 50) + 49) hlt hq]
  exact hE p (t.val / 50) hlt

/-- Every entry of the array is in the block of the last tile of its half. -/
theorem cover4 (i : S2x8x1.Idx) :
    ∃ t : Fin cfg0.N, (cfg0.win 4).flush t = true ∧ i ∈ ((cfg0.win 4).blk t).view.set := by
  have h0 : (i (0 : Fin 3)).val < 2 := (i (0 : Fin 3)).isLt
  have h1 : (i (1 : Fin 3)).val < 8 := (i (1 : Fin 3)).isLt
  have h2 : (i (2 : Fin 3)).val < 1 := (i (2 : Fin 3)).isLt
  obtain ⟨t, ht⟩ : ∃ t : Fin cfg0.N, t.val = 50 * (i (0 : Fin 3)).val + 49 :=
    ⟨⟨50 * (i (0 : Fin 3)).val + 49, by rw [show cfg0.N = 100 from N_0]; omega⟩, rfl⟩
  obtain ⟨e0, e1, e2⟩ := idx_out4 t
  refine ⟨t, (flush0_4 t).mpr (by omega), ?_⟩
  show i ∈ ((View.whole main_v1_2).slice (win0_4.rect t)).set
  rw [View.set_slice_whole, Rect.mem_set_unit]
  intro a
  match a with
  | ⟨0, _⟩ =>
    show win0_4.index t (0 : Fin 3) * 1 ≤ (i (0 : Fin 3)).val ∧ (i (0 : Fin 3)).val < win0_4.index t (0 : Fin 3) * 1 + 1
    rw [e0]; omega
  | ⟨1, _⟩ =>
    show win0_4.index t (1 : Fin 3) * 8 ≤ (i (1 : Fin 3)).val ∧ (i (1 : Fin 3)).val < win0_4.index t (1 : Fin 3) * 8 + 8
    rw [e1]; omega
  | ⟨2, _⟩ =>
    show win0_4.index t (2 : Fin 3) * 1 ≤ (i (2 : Fin 3)).val ∧ (i (2 : Fin 3)).val < win0_4.index t (2 : Fin 3) * 1 + 1
    rw [e2]; omega

/-- The array after the region: entry `(cc, p, 0)` is the infimum over half `cc`. -/
theorem arr4 (c : Dev nD) :
    (dat0 V c).arrAt 4 cfg0.N = fun i : S2x8x1.Idx => ext4 V c (i (1 : Fin 3)).val (i (0 : Fin 3)).val :=
  (dat0 V c).arrAt_eq_of_cover 4 (fun i : S2x8x1.Idx => ext4 V c (i (1 : Fin 3)).val (i (0 : Fin 3)).val)
    (fun t hf => flushed4_of V c (ext4 V c)
      (fun p q h => (run4 V c p q 49 (by omega) h).trans (by unfold ext4; rfl)) t hf)
    cover4

theorem minB_arr (c : Dev nD) (cc : Fin 2) (p : Fin 8) :
    (Gen.dat0 (F := Ideal) V c).arrAt 4 cfg0.N (ValueIdx.ix3 cc p (0 : Fin 1)) =
      Finset.univ.inf fun r : Fin 1000000 => Cert.MI.rowB (V c main_v0) (V c main_arg0) p (Cert.MI.stepOf cc r) := by
  rw [arr4]
  show ext4 V c p.val cc.val = _
  unfold ext4
  refine (inf_fin_eq_range 1000000 _ _ fun r => ?_).symm
  unfold rowBN
  rw [dif_pos ⟨p.isLt, by have := cc.isLt; have := r.isLt; omega⟩]
  rfl

/-! ## Window 5: the running maximum of the complementary sums -/

/-- One tile folded into a running block, at mask row `p`: the block before against the tile's supremum,
    the tile's rows read off the state as rows `20000·t … 20000·t + 19999`. -/
theorem step5 (c : Dev nD) (t : Fin cfg0.N) (p : Fin 8) (xo : Vec Ideal S1x8x1 .f32) :
    k0_pay2 (F := Ideal) (k0_pay7 (iblk0 V c 0 t) (iblk0 V c 1 t)) xo (ix3 (0 : Fin 1) p (0 : Fin 1))
      = max (xo (ix3 (0 : Fin 1) p (0 : Fin 1))) ((Finset.range 20000).sup fun i => rowBN V c p.val (20000 * t.val + i)) :=
  (pay2_apply (k0_pay7 (iblk0 V c 0 t) (iblk0 V c 1 t)) xo p).trans
    (congrArg (max (xo (ix3 (0 : Fin 1) p (0 : Fin 1))))
      ((pay7_apply (iblk0 V c 0 t) (iblk0 V c 1 t) p).trans
        (sup_fin_eq_range 20000 _ (fun i => rowBN V c p.val (20000 * t.val + i)) fun r => (tileB V c t p r).symm)))

/-- At the first tile of a half the block is the tile's own supremum. -/
theorem first5 (c : Dev nD) (t : Fin cfg0.N) (hA : t.val % 50 = 0) (p : Fin 8) :
    (outsAt0 V c t.val t.isLt).2.2.2 (ix3 (0 : Fin 1) p (0 : Fin 1)) = ((Finset.range 20000).sup fun i => rowBN V c p.val (20000 * t.val + i)) := by
  rw [outsAt0_A V c t hA]
  dsimp only
  rw [out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr hA) (iblk0 V c 0 t) (iblk0 V c 1 t)]
  rw [step5 V c t p, pay11_apply, max_bot_left]

/-- At every later tile it is what the tile before left, folded with the tile's. -/
theorem later5 (c : Dev nD) (t : Fin cfg0.N) (hB : ¬t.val % 50 = 0) (p : Fin 8) :
    (outsAt0 V c t.val t.isLt).2.2.2 (ix3 (0 : Fin 1) p (0 : Fin 1))
      = max ((outsAt0 V c (t.val - 1) (Nat.lt_of_le_of_lt (Nat.sub_le _ _) t.isLt)).2.2.2 (ix3 (0 : Fin 1) p (0 : Fin 1))) ((Finset.range 20000).sup fun i => rowBN V c p.val (20000 * t.val + i)) := by
  rw [outsAt0_B V c t hB]
  dsimp only
  rw [out_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => hB ((hcond0_0 t).mp h)) (iblk0 V c 0 t) (iblk0 V c 1 t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2]
  exact step5 V c t p _

/-- So after tile `j` of half `q` the block holds the supremum over the half's first `20000·(j + 1)` rows. -/
theorem run5 (c : Dev nD) (p : Fin 8) (q : ℕ) : ∀ (j : ℕ) (_ : j < 50) (h : 50 * q + j < cfg0.N),
    (outsAt0 V c (50 * q + j) h).2.2.2 (ix3 (0 : Fin 1) p (0 : Fin 1))
      = (Finset.range (20000 * (j + 1))).sup fun i => rowBN V c p.val (1000000 * q + i)
  | 0, _, h => by
    refine (first5 V c ⟨50 * q + 0, h⟩ (by show (50 * q + 0) % 50 = 0; omega) p).trans ?_
    show (Finset.range 20000).sup _ = (Finset.range 20000).sup _
    exact Finset.sup_congr rfl fun i _ => congrArg (rowBN V c p.val)
      (by show 20000 * (50 * q + 0) + i = 1000000 * q + i; omega)
  | j + 1, hj, h => by
    have hB : ¬(⟨50 * q + (j + 1), h⟩ : Fin cfg0.N).val % 50 = 0 := by
      show ¬(50 * q + (j + 1)) % 50 = 0; omega
    refine (later5 V c ⟨50 * q + (j + 1), h⟩ hB p).trans ?_
    rw [show 20000 * (j + 1 + 1) = 20000 * (j + 1) + 20000 by omega, sup_range_add]
    refine congrArg₂ max ?_ ?_
    · exact run5 c p q j (Nat.lt_of_succ_lt hj) (Nat.lt_of_succ_lt h)
    · exact Finset.sup_congr rfl fun i _ => congrArg (rowBN V c p.val)
        (by show 20000 * (50 * q + (j + 1)) + i = 1000000 * q + (20000 * (j + 1) + i); omega)

/-- The supremum over half `qv` of the time axis, for mask row `pv`. -/
def ext5 (c : Dev nD) (pv qv : ℕ) : EReal := (Finset.range 1000000).sup fun s => rowBN V c pv (1000000 * qv + s)

theorem idx_out5 : ∀ t : Fin cfg0.N, win0_5.index t (0 : Fin 3) = t.val / 50 ∧ win0_5.index t (1 : Fin 3) = 0 ∧ win0_5.index t (2 : Fin 3) = 0 :=
  (by decide +kernel : ∀ t : Fin grid0.N, win0_5.index t (0 : Fin 3) = t.val / 50 ∧ win0_5.index t (1 : Fin 3) = 0 ∧ win0_5.index t (2 : Fin 3) = 0)

/-- What the last tile of a half writes back is that half's block of the array whose entry `(cc, p, 0)` is what the
    running block holds for row `p` after the last tile of half `cc` (`E p cc`, for any family `E` that names it). -/
theorem flushed5_of (c : Dev nD) (E : ℕ → ℕ → EReal)
    (hE : ∀ (p : Fin 8) (q : ℕ) (h : 50 * q + 49 < cfg0.N),
      (outsAt0 V c (50 * q + 49) h).2.2.2 (ix3 (0 : Fin 1) p (0 : Fin 1)) = E p.val q)
    (t : Fin cfg0.N) (hf : (cfg0.win 5).flush t = true) :
    (dat0 V c).flushed 5 t = ((cfg0.win 5).blk t).view.read (Elt Ideal)
      (fun i : S2x8x1.Idx => E (i (1 : Fin 3)).val (i (0 : Fin 3)).val) := by
  have hN : t.val < 100 := lt_of_lt_of_eq t.isLt (show cfg0.N = 100 from N_0)
  have h49 : t.val % 50 = 49 := (flush0_5 t).mp hf
  obtain ⟨e0, e1, e2⟩ := idx_out5 t
  show (cfg0.win 5).cut (grid0.coords t) ((dat0 V c).after 5 t) = _
  rw [after0_5]
  funext y
  obtain ⟨u, p, z, rfl⟩ : ∃ (u : Fin 1) (p : Fin 8) (z : Fin 1), y = ix3 u p z := ⟨y 0, y 1, y 2, eq_ix3 y⟩
  obtain rfl : u = 0 := Subsingleton.elim _ _
  obtain rfl : z = 0 := Subsingleton.elim _ _
  rw [View.read_apply]
  show (outsAt0 V c t.val t.isLt).2.2.2 (ix3 (0 : Fin 1) p (0 : Fin 1))
    = E ((((cfg0.win 5).blk t).view.emb (ix3 (0 : Fin 1) p (0 : Fin 1))) (1 : Fin 3)).val
        ((((cfg0.win 5).blk t).view.emb (ix3 (0 : Fin 1) p (0 : Fin 1))) (0 : Fin 3)).val
  have same : ∀ (u : ℕ) (hu : u < cfg0.N), u = t.val → (outsAt0 V c u hu).2.2.2 = (outsAt0 V c t.val t.isLt).2.2.2 :=
    fun u hu e => by subst e; rfl
  have hq : 50 * (t.val / 50) + 49 = t.val := by omega
  have hlt : 50 * (t.val / 50) + 49 < cfg0.N :=
    lt_of_lt_of_eq (by omega : 50 * (t.val / 50) + 49 < 100) (show cfg0.N = 100 from N_0).symm
  have c0 : ((((cfg0.win 5).blk t).view.emb (ix3 (0 : Fin 1) p (0 : Fin 1))) (0 : Fin 3)).val = t.val / 50 := by
    show win0_5.index t (0 : Fin 3) * 1 + 1 * 0 = t.val / 50; rw [e0]; omega
  have c1 : ((((cfg0.win 5).blk t).view.emb (ix3 (0 : Fin 1) p (0 : Fin 1))) (1 : Fin 3)).val = p.val := by
    show win0_5.index t (1 : Fin 3) * 8 + 1 * p.val = p.val; rw [e1]; omega
  rw [c0, c1, ← same (50 * (t.val / 50) + 49) hlt hq]
  exact hE p (t.val / 50) hlt

/-- Every entry of the array is in the block of the last tile of its half. -/
theorem cover5 (i : S2x8x1.Idx) :
    ∃ t : Fin cfg0.N, (cfg0.win 5).flush t = true ∧ i ∈ ((cfg0.win 5).blk t).view.set := by
  have h0 : (i (0 : Fin 3)).val < 2 := (i (0 : Fin 3)).isLt
  have h1 : (i (1 : Fin 3)).val < 8 := (i (1 : Fin 3)).isLt
  have h2 : (i (2 : Fin 3)).val < 1 := (i (2 : Fin 3)).isLt
  obtain ⟨t, ht⟩ : ∃ t : Fin cfg0.N, t.val = 50 * (i (0 : Fin 3)).val + 49 :=
    ⟨⟨50 * (i (0 : Fin 3)).val + 49, by rw [show cfg0.N = 100 from N_0]; omega⟩, rfl⟩
  obtain ⟨e0, e1, e2⟩ := idx_out5 t
  refine ⟨t, (flush0_5 t).mpr (by omega), ?_⟩
  show i ∈ ((View.whole main_v1_3).slice (win0_5.rect t)).set
  rw [View.set_slice_whole, Rect.mem_set_unit]
  intro a
  match a with
  | ⟨0, _⟩ =>
    show win0_5.index t (0 : Fin 3) * 1 ≤ (i (0 : Fin 3)).val ∧ (i (0 : Fin 3)).val < win0_5.index t (0 : Fin 3) * 1 + 1
    rw [e0]; omega
  | ⟨1, _⟩ =>
    show win0_5.index t (1 : Fin 3) * 8 ≤ (i (1 : Fin 3)).val ∧ (i (1 : Fin 3)).val < win0_5.index t (1 : Fin 3) * 8 + 8
    rw [e1]; omega
  | ⟨2, _⟩ =>
    show win0_5.index t (2 : Fin 3) * 1 ≤ (i (2 : Fin 3)).val ∧ (i (2 : Fin 3)).val < win0_5.index t (2 : Fin 3) * 1 + 1
    rw [e2]; omega

/-- The array after the region: entry `(cc, p, 0)` is the supremum over half `cc`. -/
theorem arr5 (c : Dev nD) :
    (dat0 V c).arrAt 5 cfg0.N = fun i : S2x8x1.Idx => ext5 V c (i (1 : Fin 3)).val (i (0 : Fin 3)).val :=
  (dat0 V c).arrAt_eq_of_cover 5 (fun i : S2x8x1.Idx => ext5 V c (i (1 : Fin 3)).val (i (0 : Fin 3)).val)
    (fun t hf => flushed5_of V c (ext5 V c)
      (fun p q h => (run5 V c p q 49 (by omega) h).trans (by unfold ext5; rfl)) t hf)
    cover5

theorem maxB_arr (c : Dev nD) (cc : Fin 2) (p : Fin 8) :
    (Gen.dat0 (F := Ideal) V c).arrAt 5 cfg0.N (ValueIdx.ix3 cc p (0 : Fin 1)) =
      Finset.univ.sup fun r : Fin 1000000 => Cert.MI.rowB (V c main_v0) (V c main_arg0) p (Cert.MI.stepOf cc r) := by
  rw [arr5]
  show ext5 V c p.val cc.val = _
  unfold ext5
  refine (sup_fin_eq_range 1000000 _ _ fun r => ?_).symm
  unfold rowBN
  rw [dif_pos ⟨p.isLt, by have := cc.isLt; have := r.isLt; omega⟩]
  rfl

end Cert.KernelIdeal.Stats

end
-- ==== Proof.SumBlocks.lean ====
/-
  Finite sums regrouped into blocks: a sum over `a * b` consecutive naturals is the sum over `a` blocks of `b`
  consecutive terms each.
-/
import Mathlib.Algebra.BigOperators.Intervals
import Mathlib.Algebra.BigOperators.Fin

namespace Cert.SumBlocks

open Finset

variable {M : Type*} [AddCommMonoid M]

/-- A sum over `a * b` consecutive naturals, taken block by block. -/
theorem sum_range_blocks (a b : ℕ) (g : ℕ → M) :
    ∑ s ∈ range a, ∑ j ∈ range b, g (b * s + j) = ∑ r ∈ range (a * b), g r := by
  induction a with
  | zero => simp
  | succ a ih =>
    rw [sum_range_succ, ih, Nat.succ_mul, sum_range_add]
    congr 1
    refine sum_congr rfl fun j _ => ?_
    rw [Nat.mul_comm]

/-- The same with the blocks starting at block number `c`, the inner sums and the result over `Fin`. -/
theorem sum_blocks_fin (a b c : ℕ) (g : ℕ → M) :
    ∑ s ∈ range a, ∑ j : Fin b, g (b * (c + s) + j.val) = ∑ r : Fin (a * b), g (b * c + r.val) := by
  have h1 : ∀ s, ∑ j : Fin b, g (b * (c + s) + j.val) = ∑ j ∈ range b, (fun r => g (b * c + r)) (b * s + j) := by
    intro s
    rw [← Fin.sum_univ_eq_sum_range (fun j => g (b * c + (b * s + j))) b]
    refine sum_congr rfl fun j _ => ?_
    rw [Nat.mul_add, Nat.add_assoc]
  rw [sum_congr rfl fun s _ => h1 s, sum_range_blocks a b (fun r => g (b * c + r)),
    ← Fin.sum_univ_eq_sum_range (fun r => g (b * c + r)) (a * b)]

/-- The same, the number of terms given as a numeral. -/
theorem sum_blocks_fin_of_eq (a b c n : ℕ) (hn : n = a * b) (g : ℕ → M) :
    ∑ s ∈ range a, ∑ j : Fin b, g (b * (c + s) + j.val) = ∑ r : Fin n, g (b * c + r.val) := by
  subst hn
  exact sum_blocks_fin a b c g

end Cert.SumBlocks
-- ==== Proof.HistPayload.lean ====
/-
  The histogram body's arithmetic at an index, over the extended reals.

  The body forms, for mask row `p` and row `r` of its block of the state, the sums over the selected and over
  the unselected columns, normalises each against given bounds and counts, bins them, and adds to cell
  `(p, x, y)` of its running block the number of rows `r` whose two bins are `(x, y)`.
-/
import proofs.«150017_j5007931867607_2_alg».proof.Proof.Gen.KernelIdeal.Skeleton
import proofs.«150017_j5007931867607_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hist

open Idealize.ShloMosaic Idealize.ShloMosaic.ValueIdx
open Cert.KernelIdeal Cert.KernelIdeal.Gen

/-! ## Layout operations of the body read at explicit coordinates -/

/-- A column of eight copied along two thousand lanes reads its row's entry. -/
theorem bcast_col (v : FVec Ideal S8x1 .f32) (h : S8x1.Broadcasts S8x2000) (p : Fin 8) (r : Fin 2000) :
    broadcastTo S8x2000 v h (ix2 p r) = v (ix2 p (0 : Fin 1)) :=
  broadcastTo_apply v h _ _ fun a => match a with
    | ⟨0, _⟩ => rfl
    | ⟨1, _⟩ => rfl

/-- A trailing unit axis added to an 8 × 2000 array of words. -/
theorem cast_addLast (v : IVec S8x2000 32) (h : S8x2000.ShapeCasts S8x2000x1) (p : Fin 8) (r : Fin 2000) (u : Fin 1) :
    shapeCast S8x2000x1 v h (ix3 p r u) = v (ix2 p r) :=
  shapeCast_apply v h _ _ (by
    have hu : u.val = 0 := by omega
    rw [Shape.rowMajor_val_two, Shape.rowMajor_val_three]
    show p.val * 2000 + r.val = (p.val * 2000 + r.val) * 1 + u.val
    omega)

/-- That array copied along ten lanes. -/
theorem bcast_last (v : IVec S8x2000x1 32) (h : S8x2000x1.Broadcasts S8x2000x10) (p : Fin 8) (r : Fin 2000) (x : Fin 10) :
    broadcastTo S8x2000x10 v h (ix3 p r x) = v (ix3 p r (0 : Fin 1)) :=
  broadcastTo_apply v h _ _ fun a => match a with
    | ⟨0, _⟩ => rfl
    | ⟨1, _⟩ => rfl
    | ⟨2, _⟩ => rfl

/-- The lane numbers 0 … 9 copied over every row. -/
theorem bcast_lanes (v : IVec S1x1x10 32) (h : S1x1x10.Broadcasts S8x2000x10) (p : Fin 8) (r : Fin 2000) (x : Fin 10) :
    broadcastTo S8x2000x10 v h (ix3 p r x) = v (ix3 (0 : Fin 1) (0 : Fin 1) x) :=
  broadcastTo_apply v h _ _ fun a => match a with
    | ⟨0, _⟩ => rfl
    | ⟨1, _⟩ => rfl
    | ⟨2, _⟩ => rfl

/-! ## The one-hot entries -/

/-- A one-bit comparison result, widened and converted, is the number 1 or 0. -/
theorem onehot_entry (w : BitVec 32) (x : Fin 10) :
    (FloatOps.sitofp (F := Ideal) .f32 ((IntOp.cmpi .eq w (BitVec.ofNat 32 x.val)).setWidth 32) : EReal) = Cert.MI.oh w x := by
  unfold Cert.MI.oh
  show (((BitVec.setWidth 32 (IntOp.cmpi .eq w (BitVec.ofNat 32 x.val))).toInt : ℝ) : EReal) = _
  by_cases h : w = BitVec.ofNat 32 x.val
  · have e : IntOp.cmpi .eq w (BitVec.ofNat 32 x.val) = 1#1 := by simp [IntOp.cmpi, h]
    have e1 : (BitVec.setWidth 32 (1#1)).toInt = 1 := by decide
    rw [if_pos h, e, e1]; simp
  · have hb : (w == BitVec.ofNat 32 x.val) = false := beq_eq_false_iff_ne.mpr h
    have e : IntOp.cmpi .eq w (BitVec.ofNat 32 x.val) = 0#1 := by simp [IntOp.cmpi, hb]
    have e1 : (BitVec.setWidth 32 (0#1)).toInt = 0 := by decide
    rw [if_neg h, e, e1]; simp

/-- The one-hot array of an 8 × 2000 array of bin words, read at row `r` of mask row `p` and lane `x`. -/
theorem onehot_apply (b : IVec S8x2000 32) (h1 : S8x2000.ShapeCasts S8x2000x1) (h2 : S8x2000x1.Broadcasts S8x2000x10)
    (hi : S1x1x10.Iotas .tc 32 [2]) (h3 : S1x1x10.Broadcasts S8x2000x10) (h4 : 1 < 32)
    (h5 : FTy.bits .bf16 < FTy.bits .f32) (p : Fin 8) (r : Fin 2000) (x : Fin 10) :
    (truncf .bf16 (sitofp .f32 (extui 32 (cmpi .eq (broadcastTo S8x2000x10 (shapeCast S8x2000x1 b h1) h2)
      (broadcastTo S8x2000x10 (iota .tc S1x1x10 32 [2] hi) h3)) h4) : FVec Ideal S8x2000x10 .f32) h5
        : FVec Ideal S8x2000x10 .bf16) (ix3 p r x) = Cert.MI.oh (b (ix2 p r)) x := by
  show (FloatOps.sitofp (F := Ideal) .f32 ((IntOp.cmpi .eq (broadcastTo S8x2000x10 (shapeCast S8x2000x1 b h1) h2 (ix3 p r x))
      (broadcastTo S8x2000x10 (iota .tc S1x1x10 32 [2] hi) h3 (ix3 p r x))).setWidth 32) : EReal) = _
  rw [bcast_last, cast_addLast, bcast_lanes, iota_single_apply]
  exact onehot_entry _ x

/-! ## The counting product -/

/-- The dimension numbers of the counting product: batch axis 0, contraction over the rows. -/
abbrev DH : DotDims S8x2000x10 S8x2000x10 S8x10x10 := dot_S8x2000x10_S8x2000x10_S8x10x10_1_1_2_2_0_0

theorem DH_lhs_0 (j : S8x10x10.Idx) (q : DH.contr.Idx) : (DH.lhsIdx j q 0).val = (j 0).val := by
  unfold DotDims.lhsIdx
  rw [dif_pos (show (0 : Fin S8x2000x10.rank) ∈ DH.lhsBatch by decide)]
  rfl
theorem DH_lhs_1 (j : S8x10x10.Idx) (q : DH.contr.Idx) : (DH.lhsIdx j q 1).val = (q ⟨0, by decide⟩).val :=
  DH.lhsIdx_val_of_single rfl j q
theorem DH_lhs_2 (j : S8x10x10.Idx) (q : DH.contr.Idx) : (DH.lhsIdx j q 2).val = (j 1).val := by
  unfold DotDims.lhsIdx
  rw [dif_neg (show ¬(2 : Fin S8x2000x10.rank) ∈ DH.lhsBatch by decide),
    dif_pos (show (2 : Fin S8x2000x10.rank) ∈ DH.lhsNonContracting by decide)]
  rfl
theorem DH_rhs_0 (j : S8x10x10.Idx) (q : DH.contr.Idx) : (DH.rhsIdx j q 0).val = (j 0).val := by
  unfold DotDims.rhsIdx
  rw [dif_pos (show (0 : Fin S8x2000x10.rank) ∈ DH.rhsBatch by decide)]
  rfl
theorem DH_rhs_1 (j : S8x10x10.Idx) (q : DH.contr.Idx) : (DH.rhsIdx j q 1).val = (q ⟨0, by decide⟩).val :=
  DH.rhsIdx_val_of_single rfl j q
theorem DH_rhs_2 (j : S8x10x10.Idx) (q : DH.contr.Idx) : (DH.rhsIdx j q 2).val = (j 2).val := by
  unfold DotDims.rhsIdx
  rw [dif_neg (show ¬(2 : Fin S8x2000x10.rank) ∈ DH.rhsBatch by decide),
    dif_pos (show (2 : Fin S8x2000x10.rank) ∈ DH.rhsNonContracting by decide)]
  rfl

/-- The batched product of two 8 × 2000 × 10 arrays into a zero block: cell `(p, x, y)` sums over the rows. -/
theorem hist_matmul (L R : FVec Ideal S8x2000x10 .bf16) (p : Fin 8) (x y : Fin 10) :
    matmul DH none L R (constant S8x10x10 .f32 0x00000000#32) (ix3 p x y)
      = ∑ r : Fin 2000, L (ix3 p r x) * R (ix3 p r y) := by
  simp only [matmul]
  rw [Ideal.matmul_constant_zero_apply, ← Equiv.sum_comp (contrEquiv1 DH 2000 rfl rfl).symm]
  refine Finset.sum_congr rfl fun k _ => ?_
  have hk := contrEquiv1_symm_val DH 2000 rfl rfl k
  have el : DH.lhsIdx (ix3 p x y) ((contrEquiv1 DH 2000 rfl rfl).symm k) = ix3 p k x :=
    funext fun a => Fin.ext (by
      match a with
      | ⟨0, _⟩ => exact DH_lhs_0 _ _
      | ⟨1, _⟩ => exact (DH_lhs_1 _ _).trans hk
      | ⟨2, _⟩ => exact DH_lhs_2 _ _)
  have er : DH.rhsIdx (ix3 p x y) ((contrEquiv1 DH 2000 rfl rfl).symm k) = ix3 p k y :=
    funext fun a => Fin.ext (by
      match a with
      | ⟨0, _⟩ => exact DH_rhs_0 _ _
      | ⟨1, _⟩ => exact (DH_rhs_1 _ _).trans hk
      | ⟨2, _⟩ => exact DH_rhs_2 _ _)
  rw [el, er]

/-! ## The row sums -/

/-- The dimension numbers of the row sums: mask row against state row, contraction over the columns. -/
abbrev DR : DotDims S8x64 S2000x64 S8x2000 := dot_S8x64_S2000x64_S8x2000_1_1_0_0_n_n

theorem DR_lhs_0 (j : S8x2000.Idx) (q : DR.contr.Idx) : (DR.lhsIdx j q 0).val = (j 0).val := by
  unfold DotDims.lhsIdx
  rw [dif_neg (show ¬(0 : Fin S8x64.rank) ∈ DR.lhsBatch by decide),
    dif_pos (show (0 : Fin S8x64.rank) ∈ DR.lhsNonContracting by decide)]
  rfl
theorem DR_lhs_1 (j : S8x2000.Idx) (q : DR.contr.Idx) : (DR.lhsIdx j q 1).val = (q ⟨0, by decide⟩).val :=
  DR.lhsIdx_val_of_single rfl j q
theorem DR_rhs_0 (j : S8x2000.Idx) (q : DR.contr.Idx) : (DR.rhsIdx j q 0).val = (j 1).val := by
  unfold DotDims.rhsIdx
  rw [dif_neg (show ¬(0 : Fin S2000x64.rank) ∈ DR.rhsBatch by decide),
    dif_pos (show (0 : Fin S2000x64.rank) ∈ DR.rhsNonContracting by decide)]
  rfl
theorem DR_rhs_1 (j : S8x2000.Idx) (q : DR.contr.Idx) : (DR.rhsIdx j q 1).val = (q ⟨0, by decide⟩).val :=
  DR.rhsIdx_val_of_single rfl j q

/-- A mask-like 8 × 64 array against the block's 2000 × 64 rows, into a zero block: entry `(p, r)` sums over the columns. -/
theorem rows_matmul (prec : Option ContractPrecision) (M : FVec Ideal S8x64 .f32) (X : FVec Ideal S2000x64 .f32)
    (p : Fin 8) (r : Fin 2000) :
    matmul DR prec M X (constant S8x2000 .f32 0x00000000#32) (ix2 p r) = ∑ d : Fin 64, M (ix2 p d) * X (ix2 r d) := by
  simp only [matmul]
  rw [Ideal.matmul_constant_zero_apply, ← Equiv.sum_comp (contrEquiv1 DR 64 rfl rfl).symm]
  refine Finset.sum_congr rfl fun k _ => ?_
  have hk := contrEquiv1_symm_val DR 64 rfl rfl k
  have el : DR.lhsIdx (ix2 p r) ((contrEquiv1 DR 64 rfl rfl).symm k) = ix2 p k :=
    funext fun a => Fin.ext (by
      match a with
      | ⟨0, _⟩ => exact DR_lhs_0 _ _
      | ⟨1, _⟩ => exact (DR_lhs_1 _ _).trans hk)
  have er : DR.rhsIdx (ix2 p r) ((contrEquiv1 DR 64 rfl rfl).symm k) = ix2 r k :=
    funext fun a => Fin.ext (by
      match a with
      | ⟨0, _⟩ => exact DR_rhs_0 _ _
      | ⟨1, _⟩ => exact (DR_rhs_1 _ _).trans hk)
  rw [el, er]
/-! ## The body's stored values at an index -/

/-- The normalised sums over the selected columns: entry `(p, r)`. -/
theorem pay4_apply (x0 : FVec Ideal S2000x64 .f32) (x1 : FVec Ideal S8x64 .f32) (mn mx cnt : FVec Ideal S8x1 .f32)
    (p : Fin 8) (r : Fin 2000) :
    k1_pay4 (F := Ideal) x0 x1 mn mx cnt (ix2 p r)
      = Cert.MI.normWith (∑ d : Fin 64, x1 (ix2 p d) * x0 (ix2 r d))
          (mn (ix2 p (0 : Fin 1))) (mx (ix2 p (0 : Fin 1))) (cnt (ix2 p (0 : Fin 1))) := by
  unfold k1_pay4 k1_pay3 Cert.MI.normWith
  simp only [shapeCast_self]
  refine (divf_apply _ _ _).trans ?_
  refine congrArg₂ Ideal.div ?_ ?_
  · refine (subf_apply _ _ _).trans ?_
    refine congrArg₂ (· - ·) ?_ ?_
    · exact rows_matmul _ x1 x0 p r
    · exact bcast_col mn _ p r
  · exact bcast_col _ _ p r

/-- The normalised sums over the unselected columns: entry `(p, r)`. -/
theorem pay5_apply (x0 : FVec Ideal S2000x64 .f32) (x1 : FVec Ideal S8x64 .f32) (mn mx cnt : FVec Ideal S8x1 .f32)
    (p : Fin 8) (r : Fin 2000) :
    k1_pay5 (F := Ideal) x0 x1 mn mx cnt (ix2 p r)
      = Cert.MI.normWith (∑ d : Fin 64, (Cert.MI.one - x1 (ix2 p d)) * x0 (ix2 r d))
          (mn (ix2 p (0 : Fin 1))) (mx (ix2 p (0 : Fin 1))) (cnt (ix2 p (0 : Fin 1))) := by
  unfold k1_pay5 k1_pay3 Cert.MI.normWith
  simp only [shapeCast_self]
  refine (divf_apply _ _ _).trans ?_
  refine congrArg₂ Ideal.div ?_ ?_
  · refine (subf_apply _ _ _).trans ?_
    refine congrArg₂ (· - ·) ?_ ?_
    · exact rows_matmul _ _ x0 p r
    · exact bcast_col mn _ p r
  · exact bcast_col _ _ p r

/-- The zero block the first tile of each half stores. -/
theorem pay1_apply (u : Fin 1) (p : Fin 8) (x y : Fin 10) : k1_pay1 (F := Ideal) (ix4 u p x y) = 0 := by
  unfold k1_pay1
  refine (shapeCast_abc_1abc_apply _ _ u p x y).trans ?_
  exact Ideal.ofBits_zero_f32

/-- The block a tile stores: the block before it plus, in cell `(p, x, y)`, the number of the tile's rows whose two
    normalised values fall in bins `x` and `y`. -/
theorem pay2_apply (va vb : FVec Ideal S8x2000 .f32) (acc : FVec Ideal S1x8x10x10 .f32) (p : Fin 8) (x y : Fin 10) :
    k1_pay2 (F := Ideal) va vb (k1_pay6 (F := Ideal)) acc (ix4 (0 : Fin 1) p x y)
      = acc (ix4 (0 : Fin 1) p x y)
        + ∑ r : Fin 2000, Cert.MI.oh (Cert.MI.binOf (va (ix2 p r))) x * Cert.MI.oh (Cert.MI.binOf (vb (ix2 p r))) y := by
  unfold k1_pay2 k1_pay6
  refine (shapeCast_abc_1abc_apply _ _ (0 : Fin 1) p x y).trans ?_
  refine (addf_apply _ _ _).trans ?_
  refine congrArg₂ (· + ·) (shapeCast_1abc_abc_apply acc _ p x y) ?_
  refine (hist_matmul _ _ p x y).trans ?_
  refine Finset.sum_congr rfl fun r _ => ?_
  refine congrArg₂ (· * ·) ?_ ?_
  · exact onehot_apply _ _ _ _ _ _ _ p r x
  · exact onehot_apply _ _ _ _ _ _ _ p r y

end Cert.KernelIdeal.Hist

end
-- ==== Proof.HistSteps.lean ====
/-
  The histogram region of the kernel program, point by point, read at the extended reals.

  Per grid point the body adds to its running block the counts of one tile of two thousand time steps; the first
  tile of each half of the time axis starts from the zero block.  So after a point the block holds the counts of
  the tiles of the point's half up to that point.
-/
import proofs.«150017_j5007931867607_2_alg».proof.Proof.Gen.KernelIdeal.Frame
import proofs.«150017_j5007931867607_2_alg».proof.Proof.Spec
import proofs.«150017_j5007931867607_2_alg».proof.Proof.SumBlocks
import proofs.«150017_j5007931867607_2_alg».proof.Proof.HistPayload
import Idealize.ShloMosaic.Lib.Pipeline.Value
import Idealize.ShloMosaic.Lib.Tactic

set_option maxRecDepth 16384

noncomputable section

namespace Cert.KernelIdeal.Hist

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen

theorem hz2 : (![0, 0] : Fin 2 → Nat) = fun _ => 0 := funext fun a => by fin_cases a <;> rfl
theorem hz4 : (![0, 0, 0, 0] : Fin 4 → Nat) = fun _ => 0 := funext fun a => by fin_cases a <;> rfl

/-! ## What one grid point leaves in the output's block -/

section Pieces
variable {F : FTy → Type} [FloatOps F]

theorem out_B (c : Dev nD) (i : grid1.Coords) (arg2 : Memref sig .tc .vmem S2000x64 .f32) (harg2 : arg2.IsWhole) (arg3 : Memref sig .tc .vmem S8x64 .f32) (harg3 : arg3.IsWhole) (arg4 : Memref sig .tc .vmem S8x1 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S1x8x10x10 .f32) (harg10 : arg10.IsWhole) (hc0 : ¬cond1_0 i)
    (x0 : Vec F S2000x64 .f32) (x1 : Vec F S8x64 .f32) (x2 : Vec F S8x1 .f32) (x3 : Vec F S8x1 .f32) (x4 : Vec F S8x1 .f32) (x5 : Vec F S8x1 .f32) (x6 : Vec F S8x1 .f32) (x7 : Vec F S8x1 .f32) (xo8 : Vec F S1x8x10x10 .f32) :
    out1_B_8 c i arg2 harg2 arg3 harg3 arg4 harg4 arg5 harg5 arg6 harg6 arg7 harg7 arg8 harg8 arg9 harg9 arg10 harg10 hc0 x0 x1 x2 x3 x4 x5 x6 x7 xo8
      = k1_pay2 (k1_pay4 x0 x1 x4 x5 x2) (k1_pay5 x0 x1 x6 x7 x3) (k1_pay6 (F := F)) xo8 := by
  unfold out1_B_8
  rw [View.read_writes_eq_canon _ _ _ (cover1_B_8 c i arg2 harg2 arg3 harg3 arg4 harg4 arg5 harg5 arg6 harg6 arg7 harg7 arg8 harg8 arg9 harg9 arg10 harg10 hc0 x0 x1 x2 x3 x4 x5 x6 x7 xo8)]
  unfold kernelRun1_B
  dsimp only
  rw [View.canon_unit_zero (S := S1x8x10x10) hz4]
  sl_unfold_words
  simp only [View.readAt_eq_ld, harg2.read_unread, harg3.read_unread, harg4.read_unread, harg5.read_unread,
    harg6.read_unread, harg7.read_unread, harg8.read_unread, harg9.read_unread, harg10.read_unread,
    View.ld_unit_zero (S := S2000x64) hz2, View.ld_unit_zero (S := S8x64) hz2, View.ld_unit_zero (S := S8x1) hz2,
    View.ld_unit_zero (S := S1x8x10x10) hz4]

theorem out_A (c : Dev nD) (i : grid1.Coords) (arg2 : Memref sig .tc .vmem S2000x64 .f32) (harg2 : arg2.IsWhole) (arg3 : Memref sig .tc .vmem S8x64 .f32) (harg3 : arg3.IsWhole) (arg4 : Memref sig .tc .vmem S8x1 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S1x8x10x10 .f32) (harg10 : arg10.IsWhole) (hc0 : cond1_0 i)
    (x0 : Vec F S2000x64 .f32) (x1 : Vec F S8x64 .f32) (x2 : Vec F S8x1 .f32) (x3 : Vec F S8x1 .f32) (x4 : Vec F S8x1 .f32) (x5 : Vec F S8x1 .f32) (x6 : Vec F S8x1 .f32) (x7 : Vec F S8x1 .f32) :
    out1_A_8 c i arg2 harg2 arg3 harg3 arg4 harg4 arg5 harg5 arg6 harg6 arg7 harg7 arg8 harg8 arg9 harg9 arg10 harg10 hc0 x0 x1 x2 x3 x4 x5 x6 x7
      = k1_pay2 (k1_pay4 x0 x1 x4 x5 x2) (k1_pay5 x0 x1 x6 x7 x3) (k1_pay6 (F := F)) (k1_pay1 (F := F)) := by
  unfold out1_A_8
  rw [View.read_writes_eq_canon _ _ _ (cover1_A_8 c i arg2 harg2 arg3 harg3 arg4 harg4 arg5 harg5 arg6 harg6 arg7 harg7 arg8 harg8 arg9 harg9 arg10 harg10 hc0 x0 x1 x2 x3 x4 x5 x6 x7)]
  unfold kernelRun1_A
  dsimp only
  rw [View.canon_cons_unit_zero (S := S1x8x10x10) hz4]
  sl_unfold_words
  rw [View.readCov_unit_zero (S := S1x8x10x10) _ hz4]
  simp only [View.readAt_eq_ld, harg2.read_unread, harg3.read_unread, harg4.read_unread, harg5.read_unread,
    harg6.read_unread, harg7.read_unread, harg8.read_unread, harg9.read_unread,
    View.ld_unit_zero (S := S2000x64) hz2, View.ld_unit_zero (S := S8x64) hz2, View.ld_unit_zero (S := S8x1) hz2]

end Pieces

/-! ## One tile's contribution, over given arrays -/

/-- The block a tile stores, when its loaded blocks are tile `T` of the state, the mask and the six columns. -/
theorem tile_apply (Mf : Cert.MI.SP.Idx → EReal) (X : Cert.MI.SX.Idx → EReal) (cA cB mnA mxA mnB mxB : Fin 8 → EReal)
    (x0 : FVec Ideal S2000x64 .f32) (x1 : FVec Ideal S8x64 .f32) (x2 x3 x4 x5 x6 x7 : FVec Ideal S8x1 .f32)
    (acc : FVec Ideal S1x8x10x10 .f32) (T : ℕ) (hT : T < 1000)
    (h0 : ∀ (r : Fin 2000) (d : Fin 64), x0 (ix2 r d) = X (ix2 (⟨2000 * T + r.val, by omega⟩ : Fin 2000000) d))
    (h1 : ∀ (p : Fin 8) (d : Fin 64), x1 (ix2 p d) = Mf (ix2 p d))
    (h2 : ∀ p : Fin 8, x2 (ix2 p (0 : Fin 1)) = cA p) (h3 : ∀ p : Fin 8, x3 (ix2 p (0 : Fin 1)) = cB p)
    (h4 : ∀ p : Fin 8, x4 (ix2 p (0 : Fin 1)) = mnA p) (h5 : ∀ p : Fin 8, x5 (ix2 p (0 : Fin 1)) = mxA p)
    (h6 : ∀ p : Fin 8, x6 (ix2 p (0 : Fin 1)) = mnB p) (h7 : ∀ p : Fin 8, x7 (ix2 p (0 : Fin 1)) = mxB p)
    (p : Fin 8) (x y : Fin 10) :
    k1_pay2 (F := Ideal) (k1_pay4 x0 x1 x4 x5 x2) (k1_pay5 x0 x1 x6 x7 x3) (k1_pay6 (F := Ideal)) acc (ix4 (0 : Fin 1) p x y)
      = acc (ix4 (0 : Fin 1) p x y)
        + ∑ j : Fin 2000, Cert.MI.hitK Mf X cA cB mnA mxA mnB mxB p (⟨2000 * T + j.val, by omega⟩ : Fin 2000000) x y := by
  rw [pay2_apply]
  refine congrArg (acc _ + ·) (Finset.sum_congr rfl fun j _ => ?_)
  rw [pay4_apply, pay5_apply]
  unfold Cert.MI.hitK Cert.MI.rowA Cert.MI.rowB
  simp only [h0, h1, h2, h3, h4, h5, h6, h7]

/-! ## The region at the arrays it finds -/

section Region
variable (V : (c : Dev nD) → (b : Ref sig .tc) → Buf (Elt Ideal) ((c : Thread nD τ).loc b))

/-- One time step's contribution to cell `(x, y)` of mask row `p`, the step given as a natural number (zero past the
    end of the time axis). -/
def hitAt (c : Dev nD) (p : Fin 8) (x y : Fin 10) (n : ℕ) : EReal :=
  if h : n < 2000000 then
    Cert.MI.hitK (V c main_v0) (V c main_arg0)
      (fun q => V c main_v15 (ix2 q (0 : Fin 1))) (fun q => V c main_v17 (ix2 q (0 : Fin 1)))
      (fun q => V c main_v4 (ix2 q (0 : Fin 1))) (fun q => V c main_v7 (ix2 q (0 : Fin 1)))
      (fun q => V c main_v10 (ix2 q (0 : Fin 1))) (fun q => V c main_v13 (ix2 q (0 : Fin 1))) p ⟨n, h⟩ x y
  else 0

/-- Tile `T`'s contribution: its two thousand time steps'. -/
def tileSum (c : Dev nD) (p : Fin 8) (x y : Fin 10) (T : ℕ) : EReal :=
  ∑ j : Fin 2000, hitAt V c p x y (2000 * T + j.val)

/-! ### The windows' blocks -/

theorem idx_0 : ∀ t : Fin cfg1.N, win1_0.index t (0 : Fin 2) = t.val ∧ win1_0.index t (1 : Fin 2) = 0 :=
  (by decide +kernel : ∀ t : Fin grid1.N, _)

/-- The state's block at point `t` is its rows `2000 t … 2000 t + 1999`. -/
theorem iblk_state (c : Dev nD) (t : Fin cfg1.N) (ht : t.val < 1000) (r : Fin 2000) (d : Fin 64) :
    (iblk1 V c 0 t : Vec Ideal S2000x64 .f32) (ix2 r d)
      = V c main_arg0 (ix2 (⟨2000 * t.val + r.val, by omega⟩ : Fin 2000000) d) := by
  obtain ⟨e0, e1⟩ := idx_0 t
  unfold iblk1
  rw [View.read_apply]
  show V c main_arg0 _ = V c main_arg0 _
  congr 1
  funext a
  apply Fin.ext
  match a with
  | ⟨0, _⟩ => show win1_0.index t (0 : Fin 2) * 2000 + 1 * r.val = 2000 * t.val + r.val; rw [e0]; omega
  | ⟨1, _⟩ => show win1_0.index t (1 : Fin 2) * 64 + 1 * d.val = d.val; rw [e1]; omega

theorem idx_1 : ∀ t : Fin cfg1.N, win1_1.index t (0 : Fin 2) = 0 ∧ win1_1.index t (1 : Fin 2) = 0 :=
  (by decide +kernel : ∀ t : Fin grid1.N, _)

/-- The mask's block is the whole mask. -/
theorem iblk_mask (c : Dev nD) (t : Fin cfg1.N) (p : Fin 8) (d : Fin 64) :
    (iblk1 V c 1 t : Vec Ideal S8x64 .f32) (ix2 p d) = V c main_v0 (ix2 p d) := by
  obtain ⟨e0, e1⟩ := idx_1 t
  unfold iblk1
  rw [View.read_apply]
  show V c main_v0 _ = V c main_v0 _
  congr 1
  funext a
  apply Fin.ext
  match a with
  | ⟨0, _⟩ => show win1_1.index t (0 : Fin 2) * 8 + 1 * p.val = p.val; rw [e0]; omega
  | ⟨1, _⟩ => show win1_1.index t (1 : Fin 2) * 64 + 1 * d.val = d.val; rw [e1]; omega

theorem idx_2 : ∀ t : Fin cfg1.N, win1_2.index t (0 : Fin 2) = 0 ∧ win1_2.index t (1 : Fin 2) = 0 :=
  (by decide +kernel : ∀ t : Fin grid1.N, _)

/-- Window 2's block is its whole column. -/
theorem iblk_col2 (c : Dev nD) (t : Fin cfg1.N) (p : Fin 8) :
    (iblk1 V c 2 t : Vec Ideal S8x1 .f32) (ix2 p (0 : Fin 1)) = V c main_v15 (ix2 p (0 : Fin 1)) := by
  obtain ⟨e0, e1⟩ := idx_2 t
  unfold iblk1
  rw [View.read_apply]
  show V c main_v15 _ = V c main_v15 _
  congr 1
  funext a
  apply Fin.ext
  match a with
  | ⟨0, _⟩ => show win1_2.index t (0 : Fin 2) * 8 + 1 * p.val = p.val; rw [e0]; omega
  | ⟨1, _⟩ => show win1_2.index t (1 : Fin 2) * 1 + 1 * 0 = 0; rw [e1]

theorem idx_3 : ∀ t : Fin cfg1.N, win1_3.index t (0 : Fin 2) = 0 ∧ win1_3.index t (1 : Fin 2) = 0 :=
  (by decide +kernel : ∀ t : Fin grid1.N, _)

/-- Window 3's block is its whole column. -/
theorem iblk_col3 (c : Dev nD) (t : Fin cfg1.N) (p : Fin 8) :
    (iblk1 V c 3 t : Vec Ideal S8x1 .f32) (ix2 p (0 : Fin 1)) = V c main_v17 (ix2 p (0 : Fin 1)) := by
  obtain ⟨e0, e1⟩ := idx_3 t
  unfold iblk1
  rw [View.read_apply]
  show V c main_v17 _ = V c main_v17 _
  congr 1
  funext a
  apply Fin.ext
  match a with
  | ⟨0, _⟩ => show win1_3.index t (0 : Fin 2) * 8 + 1 * p.val = p.val; rw [e0]; omega
  | ⟨1, _⟩ => show win1_3.index t (1 : Fin 2) * 1 + 1 * 0 = 0; rw [e1]

theorem idx_4 : ∀ t : Fin cfg1.N, win1_4.index t (0 : Fin 2) = 0 ∧ win1_4.index t (1 : Fin 2) = 0 :=
  (by decide +kernel : ∀ t : Fin grid1.N, _)

/-- Window 4's block is its whole column. -/
theorem iblk_col4 (c : Dev nD) (t : Fin cfg1.N) (p : Fin 8) :
    (iblk1 V c 4 t : Vec Ideal S8x1 .f32) (ix2 p (0 : Fin 1)) = V c main_v4 (ix2 p (0 : Fin 1)) := by
  obtain ⟨e0, e1⟩ := idx_4 t
  unfold iblk1
  rw [View.read_apply]
  show V c main_v4 _ = V c main_v4 _
  congr 1
  funext a
  apply Fin.ext
  match a with
  | ⟨0, _⟩ => show win1_4.index t (0 : Fin 2) * 8 + 1 * p.val = p.val; rw [e0]; omega
  | ⟨1, _⟩ => show win1_4.index t (1 : Fin 2) * 1 + 1 * 0 = 0; rw [e1]

theorem idx_5 : ∀ t : Fin cfg1.N, win1_5.index t (0 : Fin 2) = 0 ∧ win1_5.index t (1 : Fin 2) = 0 :=
  (by decide +kernel : ∀ t : Fin grid1.N, _)

/-- Window 5's block is its whole column. -/
theorem iblk_col5 (c : Dev nD) (t : Fin cfg1.N) (p : Fin 8) :
    (iblk1 V c 5 t : Vec Ideal S8x1 .f32) (ix2 p (0 : Fin 1)) = V c main_v7 (ix2 p (0 : Fin 1)) := by
  obtain ⟨e0, e1⟩ := idx_5 t
  unfold iblk1
  rw [View.read_apply]
  show V c main_v7 _ = V c main_v7 _
  congr 1
  funext a
  apply Fin.ext
  match a with
  | ⟨0, _⟩ => show win1_5.index t (0 : Fin 2) * 8 + 1 * p.val = p.val; rw [e0]; omega
  | ⟨1, _⟩ => show win1_5.index t (1 : Fin 2) * 1 + 1 * 0 = 0; rw [e1]

theorem idx_6 : ∀ t : Fin cfg1.N, win1_6.index t (0 : Fin 2) = 0 ∧ win1_6.index t (1 : Fin 2) = 0 :=
  (by decide +kernel : ∀ t : Fin grid1.N, _)

/-- Window 6's block is its whole column. -/
theorem iblk_col6 (c : Dev nD) (t : Fin cfg1.N) (p : Fin 8) :
    (iblk1 V c 6 t : Vec Ideal S8x1 .f32) (ix2 p (0 : Fin 1)) = V c main_v10 (ix2 p (0 : Fin 1)) := by
  obtain ⟨e0, e1⟩ := idx_6 t
  unfold iblk1
  rw [View.read_apply]
  show V c main_v10 _ = V c main_v10 _
  congr 1
  funext a
  apply Fin.ext
  match a with
  | ⟨0, _⟩ => show win1_6.index t (0 : Fin 2) * 8 + 1 * p.val = p.val; rw [e0]; omega
  | ⟨1, _⟩ => show win1_6.index t (1 : Fin 2) * 1 + 1 * 0 = 0; rw [e1]

theorem idx_7 : ∀ t : Fin cfg1.N, win1_7.index t (0 : Fin 2) = 0 ∧ win1_7.index t (1 : Fin 2) = 0 :=
  (by decide +kernel : ∀ t : Fin grid1.N, _)

/-- Window 7's block is its whole column. -/
theorem iblk_col7 (c : Dev nD) (t : Fin cfg1.N) (p : Fin 8) :
    (iblk1 V c 7 t : Vec Ideal S8x1 .f32) (ix2 p (0 : Fin 1)) = V c main_v13 (ix2 p (0 : Fin 1)) := by
  obtain ⟨e0, e1⟩ := idx_7 t
  unfold iblk1
  rw [View.read_apply]
  show V c main_v13 _ = V c main_v13 _
  congr 1
  funext a
  apply Fin.ext
  match a with
  | ⟨0, _⟩ => show win1_7.index t (0 : Fin 2) * 8 + 1 * p.val = p.val; rw [e0]; omega
  | ⟨1, _⟩ => show win1_7.index t (1 : Fin 2) * 1 + 1 * 0 = 0; rw [e1]

/-! ### One grid point -/

/-- What point `t` adds to the running block. -/
theorem point_apply (c : Dev nD) (t : Fin cfg1.N) (acc : FVec Ideal S1x8x10x10 .f32) (p : Fin 8) (x y : Fin 10) :
    k1_pay2 (F := Ideal) (k1_pay4 (iblk1 V c 0 t) (iblk1 V c 1 t) (iblk1 V c 4 t) (iblk1 V c 5 t) (iblk1 V c 2 t))
        (k1_pay5 (iblk1 V c 0 t) (iblk1 V c 1 t) (iblk1 V c 6 t) (iblk1 V c 7 t) (iblk1 V c 3 t)) (k1_pay6 (F := Ideal)) acc
        (ix4 (0 : Fin 1) p x y)
      = acc (ix4 (0 : Fin 1) p x y) + tileSum V c p x y t.val := by
  have hT : t.val < 1000 := lt_of_lt_of_eq t.isLt (show cfg1.N = 1000 from N_1)
  refine (tile_apply (V c main_v0) (V c main_arg0)
      (fun q => V c main_v15 (ix2 q (0 : Fin 1))) (fun q => V c main_v17 (ix2 q (0 : Fin 1)))
      (fun q => V c main_v4 (ix2 q (0 : Fin 1))) (fun q => V c main_v7 (ix2 q (0 : Fin 1)))
      (fun q => V c main_v10 (ix2 q (0 : Fin 1))) (fun q => V c main_v13 (ix2 q (0 : Fin 1)))
      (iblk1 V c 0 t) (iblk1 V c 1 t) (iblk1 V c 2 t) (iblk1 V c 3 t) (iblk1 V c 4 t) (iblk1 V c 5 t) (iblk1 V c 6 t) (iblk1 V c 7 t)
      acc t.val hT (iblk_state V c t hT) (iblk_mask V c t) (iblk_col2 V c t) (iblk_col3 V c t) (iblk_col4 V c t)
      (iblk_col5 V c t) (iblk_col6 V c t) (iblk_col7 V c t) p x y).trans ?_
  unfold tileSum
  refine congrArg (acc _ + ·) (Finset.sum_congr rfl fun j _ => ?_)
  unfold hitAt
  rw [dif_pos (show 2000 * t.val + j.val < 2000000 by omega)]

/-- At the first tile of a half the block is that tile's contribution. -/
theorem step_A (c : Dev nD) (p : Fin 8) (x y : Fin 10) (t : Fin cfg1.N) (h0 : t.val % 500 = 0) :
    outsAt1 V c t.val t.isLt (ix4 (0 : Fin 1) p x y) = tileSum V c p x y t.val := by
  refine (congrFun ((outsAt1_A V c t h0).trans (out_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) (iblk1 V c 0 t) (iblk1 V c 1 t) (iblk1 V c 2 t) (iblk1 V c 3 t) (iblk1 V c 4 t) (iblk1 V c 5 t) (iblk1 V c 6 t) (iblk1 V c 7 t)))
    (ix4 (0 : Fin 1) p x y)).trans ?_
  rw [point_apply V c t _ p x y, pay1_apply, zero_add]

/-- At a later tile the block is what the tile before left plus the tile's contribution. -/
theorem step_B (c : Dev nD) (p : Fin 8) (x y : Fin 10) (t : Fin cfg1.N) (h0 : ¬t.val % 500 = 0) :
    outsAt1 V c t.val t.isLt (ix4 (0 : Fin 1) p x y)
      = outsAt1 V c (t.val - 1) (Nat.lt_of_le_of_lt (Nat.sub_le _ _) t.isLt) (ix4 (0 : Fin 1) p x y)
        + tileSum V c p x y t.val := by
  refine (congrFun ((outsAt1_B V c t h0).trans (out_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t)
    (outsAt1 V c (t.val - 1) (Nat.lt_of_le_of_lt (Nat.sub_le _ _) t.isLt)))) (ix4 (0 : Fin 1) p x y)).trans ?_
  exact point_apply V c t _ p x y

/-- After point `n` the block holds the contributions of the tiles of `n`'s half up to `n`. -/
theorem outsAt_apply (c : Dev nD) (p : Fin 8) (x y : Fin 10) : ∀ (n : ℕ) (hn : n < cfg1.N),
    outsAt1 V c n hn (ix4 (0 : Fin 1) p x y)
      = ∑ s ∈ Finset.range (n % 500 + 1), tileSum V c p x y (n - n % 500 + s) := by
  intro n
  induction n with
  | zero =>
    intro hn
    rw [step_A V c p x y ⟨0, hn⟩ rfl]
    simp
  | succ n ih =>
    intro hn
    by_cases h0 : (n + 1) % 500 = 0
    · rw [step_A V c p x y ⟨n + 1, hn⟩ h0, h0]
      simp
    · rw [step_B V c p x y ⟨n + 1, hn⟩ h0]
      show outsAt1 V c n _ (ix4 (0 : Fin 1) p x y) + tileSum V c p x y (n + 1) = _
      have e1 : (n + 1) % 500 + 1 = (n % 500 + 1) + 1 := by omega
      have e2 : n + 1 - (n + 1) % 500 = n - n % 500 := by omega
      have e3 : n - n % 500 + (n % 500 + 1) = n + 1 := by omega
      rw [ih, e1, e2, Finset.sum_range_succ (fun s => tileSum V c p x y (n - n % 500 + s)) (n % 500 + 1), e3]

end Region

end Cert.KernelIdeal.Hist

end
-- ==== Proof.HistRegion.lean ====
/-
  The histogram region of the kernel program, read at the extended reals: the block the region leaves for core
  half `cc`, mask row `p` and bin pair `(x, y)` is the number of time steps of that half whose two bins are `(x, y)`.

  The running block is written back after the last tile of each half; the two write-backs cover the output array.
-/
import proofs.«150017_j5007931867607_2_alg».proof.Proof.HistSteps

set_option maxRecDepth 16384

noncomputable section

namespace Cert.KernelIdeal.Hist

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen

section Region
variable (V : (c : Dev nD) → (b : Ref sig .tc) → Buf (Elt Ideal) ((c : Thread nD τ).loc b))

/-! ### The array the region leaves -/

/-- The joint histogram of each half of the time axis, as contents of the region's output array. -/
def jointFn (c : Dev nD) : S2x8x10x10.Idx → EReal :=
  fun i => ∑ r : Fin 1000000, Cert.MI.hitK (V c main_v0) (V c main_arg0)
      (fun q => V c main_v15 (ix2 q (0 : Fin 1))) (fun q => V c main_v17 (ix2 q (0 : Fin 1)))
      (fun q => V c main_v4 (ix2 q (0 : Fin 1))) (fun q => V c main_v7 (ix2 q (0 : Fin 1)))
      (fun q => V c main_v10 (ix2 q (0 : Fin 1))) (fun q => V c main_v13 (ix2 q (0 : Fin 1)))
      (i 1) (Cert.MI.stepOf (i 0) r) (i 2) (i 3)

/-- Its entry at explicit coordinates. -/
theorem jointFn_apply (c : Dev nD) (cc : Fin 2) (p : Fin 8) (x y : Fin 10) :
    jointFn V c (ix4 cc p x y) = ∑ r : Fin 1000000, Cert.MI.hitK (V c main_v0) (V c main_arg0)
      (fun q => V c main_v15 (ix2 q (0 : Fin 1))) (fun q => V c main_v17 (ix2 q (0 : Fin 1)))
      (fun q => V c main_v4 (ix2 q (0 : Fin 1))) (fun q => V c main_v7 (ix2 q (0 : Fin 1)))
      (fun q => V c main_v10 (ix2 q (0 : Fin 1))) (fun q => V c main_v13 (ix2 q (0 : Fin 1)))
      p (Cert.MI.stepOf cc r) x y := rfl

-- from here on the array is read only through `jointFn_apply`: a sum over a million terms is never opened
attribute [irreducible] jointFn

/-- The same as contents of the output's buffer. -/
abbrev joint (c : Dev nD) : Buf (Elt Ideal) ((c : Thread nD τ).loc main_v18) := jointFn V c

theorem idx_8 : ∀ t : Fin cfg1.N, win1_8.index t (0 : Fin 4) = t.val / 500 ∧ win1_8.index t (1 : Fin 4) = 0
    ∧ win1_8.index t (2 : Fin 4) = 0 ∧ win1_8.index t (3 : Fin 4) = 0 :=
  (by decide +kernel : ∀ t : Fin grid1.N, _)

/-- After the last tile of a half the running block is that half's block of the joint histogram. -/
theorem block_eq (c : Dev nD) (t : Fin cfg1.N) (hf : (cfg1.win 8).flush t = true) (p : Fin 8) (x y : Fin 10) :
    outsAt1 V c t.val t.isLt (ix4 (0 : Fin 1) p x y)
      = jointFn V c (ix4 (⟨t.val / 500, by have := lt_of_lt_of_eq t.isLt (show cfg1.N = 1000 from N_1); omega⟩ : Fin 2) p x y) := by
  have hN : t.val < 1000 := lt_of_lt_of_eq t.isLt (show cfg1.N = 1000 from N_1)
  have h499 : t.val % 500 = 499 := (flush1_8 t).mp hf
  rw [outsAt_apply V c p x y t.val t.isLt, h499]
  have e4 : t.val - 499 = 500 * (t.val / 500) := by omega
  show ∑ s ∈ Finset.range 500, tileSum V c p x y (t.val - 499 + s) = _
  rw [e4]
  unfold tileSum
  rw [Cert.SumBlocks.sum_blocks_fin_of_eq 500 2000 (500 * (t.val / 500)) 1000000 (by norm_num) (hitAt V c p x y)]
  rw [jointFn_apply]
  refine Finset.sum_congr rfl fun r _ => ?_
  unfold hitAt
  rw [dif_pos (show 2000 * (500 * (t.val / 500)) + r.val < 2000000 by omega)]
  refine congrArg (fun s => Cert.MI.hitK _ _ _ _ _ _ _ _ p s x y) (Fin.ext ?_)
  show 2000 * (500 * (t.val / 500)) + r.val = 1000000 * (t.val / 500) + r.val
  omega

/-- A block that agrees entry by entry with an array read through the output window at point `t` is what that
    point writes back of it (stated over arbitrary contents, so that nothing is ever opened). -/
theorem flushed_of_entries (c : Dev nD) (t : Fin cfg1.N) (O : Vec Ideal S1x8x10x10 .f32)
    (G : Buf (Elt Ideal) ((c : Thread nD τ).loc main_v18))
    (h : ∀ j : S1x8x10x10.Idx, O j = G (((cfg1.win 8).blk t).view.emb j)) :
    (cfg1.win 8).cut (grid1.coords t) O = ((cfg1.win 8).blk t).view.read (Elt Ideal) G := by
  funext j
  rw [View.read_apply]
  exact h j

/-- The last tile of a half writes back that half's block of the joint histogram. -/
theorem flushed_eq (c : Dev nD) (t : Fin cfg1.N) (hf : (cfg1.win 8).flush t = true) :
    (dat1 V c).flushed 8 t = ((cfg1.win 8).blk t).view.read (Elt Ideal) (joint V c) := by
  have hN : t.val < 1000 := lt_of_lt_of_eq t.isLt (show cfg1.N = 1000 from N_1)
  obtain ⟨e0, e1, e2, e3⟩ := idx_8 t
  show (cfg1.win 8).cut (grid1.coords t) ((dat1 V c).after 8 t) = _
  rw [after1_8]
  have key : ∀ j : S1x8x10x10.Idx, outsAt1 V c t.val t.isLt j = joint V c (((cfg1.win 8).blk t).view.emb j) := by
    intro j
    obtain ⟨u, p, x, y, rfl⟩ : ∃ (u : Fin 1) (p : Fin 8) (x y : Fin 10), j = ix4 u p x y := ⟨j 0, j 1, j 2, j 3, eq_ix4 j⟩
    obtain rfl : u = 0 := Subsingleton.elim _ _
    have he : ((cfg1.win 8).blk t).view.emb (ix4 (0 : Fin 1) p x y)
        = ix4 (⟨t.val / 500, by omega⟩ : Fin 2) p x y := by
      funext a
      apply Fin.ext
      match a with
      | ⟨0, _⟩ => show win1_8.index t (0 : Fin 4) * 1 + 1 * 0 = t.val / 500; rw [e0]; omega
      | ⟨1, _⟩ => show win1_8.index t (1 : Fin 4) * 8 + 1 * p.val = p.val; rw [e1]; omega
      | ⟨2, _⟩ => show win1_8.index t (2 : Fin 4) * 10 + 1 * x.val = x.val; rw [e2]; omega
      | ⟨3, _⟩ => show win1_8.index t (3 : Fin 4) * 10 + 1 * y.val = y.val; rw [e3]; omega
    rw [he]
    exact block_eq V c t hf p x y
  exact flushed_of_entries c t _ _ key

/-- What the region leaves in its output array: per half of the time axis, mask row and bin pair, the number of the
    half's time steps whose two bins are that pair. -/
theorem joint_arr (c : Dev nD) (cc : Fin 2) (p : Fin 8) (x y : Fin 10) :
    (Gen.dat1 (F := Ideal) V c).arrAt 8 cfg1.N (ValueIdx.ix4 cc p x y) =
      ∑ r : Fin 1000000, Cert.MI.hitK (V c main_v0) (V c main_arg0)
        (fun q => V c main_v15 (ValueIdx.ix2 q (0 : Fin 1))) (fun q => V c main_v17 (ValueIdx.ix2 q (0 : Fin 1)))
        (fun q => V c main_v4 (ValueIdx.ix2 q (0 : Fin 1))) (fun q => V c main_v7 (ValueIdx.ix2 q (0 : Fin 1)))
        (fun q => V c main_v10 (ValueIdx.ix2 q (0 : Fin 1))) (fun q => V c main_v13 (ValueIdx.ix2 q (0 : Fin 1)))
        p (Cert.MI.stepOf cc r) x y := by
  have hN : cfg1.N = 1000 := N_1
  have ht : 500 * cc.val + 499 < cfg1.N := by rw [hN]; omega
  have hf : (cfg1.win 8).flush (⟨500 * cc.val + 499, ht⟩ : Fin cfg1.N) = true :=
    (flush1_8 _).mpr (by show (500 * cc.val + 499) % 500 = 499; omega)
  obtain ⟨e0, e1, e2, e3⟩ := idx_8 ⟨500 * cc.val + 499, ht⟩
  refine ((dat1 V c).arrAt_apply_of_mem 8 (joint V c) (flushed_eq V c) cfg1.N ⟨500 * cc.val + 499, ht⟩
    (ix4 cc p x y) ht hf ?_).trans (jointFn_apply V c cc p x y)
  show ix4 cc p x y ∈ ((View.whole main_v18).slice (win1_8.rect ⟨500 * cc.val + 499, ht⟩)).set
  rw [View.set_slice_whole, Rect.mem_set_unit]
  intro a
  match a with
  | ⟨0, _⟩ =>
    show win1_8.index ⟨500 * cc.val + 499, ht⟩ (0 : Fin 4) * 1 ≤ cc.val
      ∧ cc.val < win1_8.index ⟨500 * cc.val + 499, ht⟩ (0 : Fin 4) * 1 + 1
    rw [e0]; show (500 * cc.val + 499) / 500 * 1 ≤ cc.val ∧ cc.val < (500 * cc.val + 499) / 500 * 1 + 1; omega
  | ⟨1, _⟩ =>
    show win1_8.index ⟨500 * cc.val + 499, ht⟩ (1 : Fin 4) * 8 ≤ p.val
      ∧ p.val < win1_8.index ⟨500 * cc.val + 499, ht⟩ (1 : Fin 4) * 8 + 8
    rw [e1]; omega
  | ⟨2, _⟩ =>
    show win1_8.index ⟨500 * cc.val + 499, ht⟩ (2 : Fin 4) * 10 ≤ x.val
      ∧ x.val < win1_8.index ⟨500 * cc.val + 499, ht⟩ (2 : Fin 4) * 10 + 10
    rw [e2]; omega
  | ⟨3, _⟩ =>
    show win1_8.index ⟨500 * cc.val + 499, ht⟩ (3 : Fin 4) * 10 ≤ y.val
      ∧ y.val < win1_8.index ⟨500 * cc.val + 499, ht⟩ (3 : Fin 4) * 10 + 10
    rw [e3]; omega

end Region

end Cert.KernelIdeal.Hist

end
-- ==== Proof.Halves.lean ====
/-
  The time axis splits into two halves of a million steps: the smallest value, the largest value and the joint
  histogram over the whole axis are the combination of the same over each half.  Also the two-step folds of
  `min` from `⊤` and of `max` from `⊥`.
-/
import proofs.«150017_j5007931867607_2_alg».proof.Proof.Spec

noncomputable section

namespace Cert.MI

open Idealize.ShloMosaic

theorem stepOf_zero_val (r : Fin 1000000) : (stepOf 0 r).val = r.val := by
  show 1000000 * 0 + r.val = r.val
  omega

theorem stepOf_one_val (r : Fin 1000000) : (stepOf 1 r).val = 1000000 + r.val := by
  show 1000000 * 1 + r.val = 1000000 + r.val
  omega

/-- Every time step is a step of the first half or of the second. -/
theorem exists_stepOf (t : Fin 2000000) :
    (∃ r : Fin 1000000, stepOf 0 r = t) ∨ (∃ r : Fin 1000000, stepOf 1 r = t) := by
  by_cases h : t.val < 1000000
  · exact Or.inl ⟨⟨t.val, h⟩, Fin.ext (stepOf_zero_val _)⟩
  · have h2 : t.val - 1000000 < 1000000 := by have := t.isLt; omega
    refine Or.inr ⟨⟨t.val - 1000000, h2⟩, Fin.ext ?_⟩
    rw [stepOf_one_val]
    show 1000000 + (t.val - 1000000) = t.val
    omega

/-- The smallest value over the time axis is the smaller of the two halves' smallest values. -/
theorem infRow_halves (f : Fin 2000000 → EReal) :
    infRow f = min (Finset.univ.inf fun r : Fin 1000000 => f (stepOf 0 r))
      (Finset.univ.inf fun r : Fin 1000000 => f (stepOf 1 r)) := by
  unfold infRow
  apply le_antisymm
  · refine le_min ?_ ?_
    · exact Finset.le_inf fun r _ => Finset.inf_le (Finset.mem_univ _)
    · exact Finset.le_inf fun r _ => Finset.inf_le (Finset.mem_univ _)
  · refine Finset.le_inf fun t _ => ?_
    rcases exists_stepOf t with ⟨r, rfl⟩ | ⟨r, rfl⟩
    · exact (min_le_left _ _).trans (Finset.inf_le (f := fun r : Fin 1000000 => f (stepOf 0 r)) (Finset.mem_univ r))
    · exact (min_le_right _ _).trans (Finset.inf_le (f := fun r : Fin 1000000 => f (stepOf 1 r)) (Finset.mem_univ r))

/-- The largest value over the time axis is the larger of the two halves' largest values. -/
theorem supRow_halves (f : Fin 2000000 → EReal) :
    supRow f = max (Finset.univ.sup fun r : Fin 1000000 => f (stepOf 0 r))
      (Finset.univ.sup fun r : Fin 1000000 => f (stepOf 1 r)) := by
  unfold supRow
  apply le_antisymm
  · refine Finset.sup_le fun t _ => ?_
    rcases exists_stepOf t with ⟨r, rfl⟩ | ⟨r, rfl⟩
    · exact (Finset.le_sup (f := fun r : Fin 1000000 => f (stepOf 0 r)) (Finset.mem_univ r)).trans (le_max_left _ _)
    · exact (Finset.le_sup (f := fun r : Fin 1000000 => f (stepOf 1 r)) (Finset.mem_univ r)).trans (le_max_right _ _)
  · refine max_le ?_ ?_
    · exact Finset.sup_le fun r _ => Finset.le_sup (Finset.mem_univ _)
    · exact Finset.sup_le fun r _ => Finset.le_sup (Finset.mem_univ _)

/-- A sum over the time axis is the sum over the first half plus the sum over the second. -/
theorem sum_halves (g : Fin 2000000 → EReal) :
    ∑ t : Fin 2000000, g t = (∑ r : Fin 1000000, g (stepOf 0 r)) + ∑ r : Fin 1000000, g (stepOf 1 r) := by
  have h : 1000000 + 1000000 = 2000000 := by norm_num
  refine (Fin.sum_congr' (a := 1000000 + 1000000) (b := 2000000) g h).symm.trans
    ((Fin.sum_univ_add (a := 1000000) (b := 1000000) fun i => g (i.cast h)).trans ?_)
  refine congrArg₂ (· + ·) ?_ ?_
  · refine Finset.sum_congr rfl fun r _ => congrArg g (Fin.ext ?_)
    rw [stepOf_zero_val]; rfl
  · refine Finset.sum_congr rfl fun r _ => congrArg g (Fin.ext ?_)
    rw [stepOf_one_val]; rfl

/-- The joint histogram over the time axis is the sum of the two halves' joint histograms. -/
theorem joint_halves (bx bz : Fin 8 → Fin 2000000 → BitVec 32) (p : Fin 8) (x y : Fin 10) :
    joint bx bz p x y
      = (∑ r : Fin 1000000, oh (bx p (stepOf 0 r)) x * oh (bz p (stepOf 0 r)) y)
        + ∑ r : Fin 1000000, oh (bx p (stepOf 1 r)) x * oh (bz p (stepOf 1 r)) y := by
  unfold joint
  exact sum_halves fun t => oh (bx p t) x * oh (bz p t) y

/-- Folding `min` from `⊤` over two values gives their minimum. -/
theorem min_fold_two (a b : EReal) : min (min ⊤ a) b = min a b := by
  rw [min_eq_right (le_top : a ≤ ⊤)]

/-- Folding `max` from `⊥` over two values gives their maximum. -/
theorem max_fold_two (a b : EReal) : max (max ⊥ a) b = max a b := by
  rw [max_eq_right (bot_le : ⊥ ≤ a)]

end Cert.MI

end
-- ==== Proof.Consts.lean ====
/-
  The float constants of the two programs as extended reals: 1, 64, 10, the guard (a positive real) and 0.
-/
import proofs.«150017_j5007931867607_2_alg».proof.Proof.Spec

noncomputable section

namespace Cert.MI

open Idealize.ShloMosaic

/-- The pattern of `1.0` denotes `1`. -/
theorem one_eq : one = 1 := by
  simp [one, Ideal.ofBits, Ideal.ieee, -EReal.coe_mul]; norm_num

/-- The pattern of `64.0` denotes the real `64`. -/
theorem sixtyfour_eq : sixtyfour = ((64 : ℝ) : EReal) := by
  simp [sixtyfour, Ideal.ofBits, Ideal.ieee, -EReal.coe_mul]; norm_num

/-- The pattern of `10.0` denotes the real `10`. -/
theorem ten_eq : ten = ((10 : ℝ) : EReal) := by
  simp [ten, Ideal.ofBits, Ideal.ieee, -EReal.coe_mul]; norm_num

/-- The guard's pattern is a positive normal float: it denotes the real `8796093 · 2⁻⁴³`. -/
theorem eps_eq : eps = (((8796093 : ℝ) * (2 : ℝ) ^ (-43 : ℤ) : ℝ) : EReal) := by
  simp [eps, Ideal.ofBits, Ideal.ieee, -EReal.coe_mul]

/-- The guard is a positive real. -/
theorem eps_pos_real : ∃ e : ℝ, 0 < e ∧ eps = (e : EReal) :=
  ⟨(8796093 : ℝ) * (2 : ℝ) ^ (-43 : ℤ), by positivity, eps_eq⟩

/-- The pattern of `+0.0` denotes `0`. -/
theorem ofBits_zero : Ideal.ofBits .f32 0#32 = 0 := by
  simp [Ideal.ofBits, Ideal.ieee]

end Cert.MI

end
-- ==== Proof.BinsAgree.lean ====
/-
  The two normalisations give the same bins.

  One program normalises the row sums `s t` by their smallest and largest value with the guard scaled by the
  count `c` of selected columns; the other normalises the means `s t / c` with the guard unscaled.  When
  `c > 0` the two normalised values are one real number: dividing by `c` commutes with the smallest and the
  largest value, and `(s - m) / (M - m + e·c) = (s/c - m/c) / (M/c - m/c + e)`.  When `c = 0` every row sum
  is `0`; the first value is `0/0 = ⊥` and the second is `⊥/⊥ = 0`, and both fall in bin `0`.
-/
import proofs.«150017_j5007931867607_2_alg».proof.Proof.Consts

noncomputable section

namespace Cert.MI

open Idealize.ShloMosaic Idealize.ShloMosaic.ValueIdx

/-- The inclusion of the reals in the extended reals commutes with finite sums. -/
theorem coe_finset_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The quotient of two reals, the divisor not zero, is the real quotient. -/
theorem div_coe_coe (a b : ℝ) (hb : b ≠ 0) : Ideal.div (a : EReal) (b : EReal) = ((a / b : ℝ) : EReal) := by
  rw [Ideal.div_coe hb, ← EReal.coe_mul, mul_one_div]

/-- A family's smallest value over the time axis is its value at a step below all the others. -/
theorem infRow_eq_of_le (g : Fin 2000000 → EReal) (t0 : Fin 2000000) (h : ∀ t, g t0 ≤ g t) :
    infRow g = g t0 :=
  le_antisymm (Finset.inf_le (Finset.mem_univ t0)) (Finset.le_inf fun t _ => h t)

/-- A family's largest value over the time axis is its value at a step above all the others. -/
theorem supRow_eq_of_le (g : Fin 2000000 → EReal) (t1 : Fin 2000000) (h : ∀ t, g t ≤ g t1) :
    supRow g = g t1 :=
  le_antisymm (Finset.sup_le fun t _ => h t) (Finset.le_sup (Finset.mem_univ t1))

/-- A real family over the time axis has a step where it is smallest. -/
theorem exists_least (s : Fin 2000000 → ℝ) : ∃ t0, ∀ t, s t0 ≤ s t := by
  obtain ⟨t0, -, h⟩ := Finset.exists_min_image (Finset.univ : Finset (Fin 2000000)) s
    ⟨⟨0, by norm_num⟩, Finset.mem_univ _⟩
  exact ⟨t0, fun t => h t (Finset.mem_univ t)⟩

/-- A real family over the time axis has a step where it is largest. -/
theorem exists_greatest (s : Fin 2000000 → ℝ) : ∃ t1, ∀ t, s t ≤ s t1 := by
  obtain ⟨t1, -, h⟩ := Finset.exists_max_image (Finset.univ : Finset (Fin 2000000)) s
    ⟨⟨0, by norm_num⟩, Finset.mem_univ _⟩
  exact ⟨t1, fun t => h t (Finset.mem_univ t)⟩

/-- With a positive count the two normalised values are the same real number. -/
theorem norm_agree_pos (s : Fin 2000000 → ℝ) (c : ℝ) (hc : 0 < c) (t : Fin 2000000) :
    normK (fun t => (s t : EReal)) (c : EReal) t
      = normR (fun t => Ideal.div (s t : EReal) (c : EReal)) t := by
  obtain ⟨e, he, heps⟩ := eps_pos_real
  obtain ⟨t0, h0⟩ := exists_least s
  obtain ⟨t1, h1⟩ := exists_greatest s
  have hg : ∀ t, Ideal.div (s t : EReal) (c : EReal) = ((s t / c : ℝ) : EReal) :=
    fun t => div_coe_coe _ _ hc.ne'
  have i1 : infRow (fun t => (s t : EReal)) = (s t0 : EReal) :=
    infRow_eq_of_le _ t0 fun t => by exact_mod_cast h0 t
  have s1 : supRow (fun t => (s t : EReal)) = (s t1 : EReal) :=
    supRow_eq_of_le _ t1 fun t => by exact_mod_cast h1 t
  have i2 : infRow (fun t => ((s t / c : ℝ) : EReal)) = ((s t0 / c : ℝ) : EReal) :=
    infRow_eq_of_le _ t0 fun t => by exact_mod_cast div_le_div_of_nonneg_right (h0 t) hc.le
  have s2 : supRow (fun t => ((s t / c : ℝ) : EReal)) = ((s t1 / c : ℝ) : EReal) :=
    supRow_eq_of_le _ t1 fun t => by exact_mod_cast div_le_div_of_nonneg_right (h1 t) hc.le
  have hm : s t0 ≤ s t1 := h0 t1
  have d1 : s t1 - s t0 + e * c ≠ 0 := by
    have : 0 < e * c := mul_pos he hc
    linarith
  have d2 : s t1 / c - s t0 / c + e ≠ 0 := by
    have : s t0 / c ≤ s t1 / c := div_le_div_of_nonneg_right hm hc.le
    linarith
  simp only [normK, normR, normWith, hg, i1, s1, i2, s2, heps]
  simp only [← EReal.coe_sub, ← EReal.coe_mul, ← EReal.coe_add]
  rw [div_coe_coe _ _ d1, div_coe_coe _ _ d2]
  refine congrArg Real.toEReal ?_
  have hc' : c ≠ 0 := hc.ne'
  field_simp

/-- `0 / 0` is the documented junk value `⊥`. -/
theorem div_zero_zero : Ideal.div 0 0 = ⊥ := by simp [Ideal.div]

/-- `⊥ / ⊥ = ⊥ · ⊥⁻¹ = ⊥ · 0 = 0`. -/
theorem div_bot_bot : Ideal.div ⊥ ⊥ = 0 := by simp [Ideal.div]

/-- `⊥` falls in bin `0`: ten times it is `⊥`, cut to the most negative word, clamped to `0`. -/
theorem binOf_bot : binOf ⊥ = 0#32 := by
  unfold binOf
  rw [ten_eq, EReal.bot_mul_coe_of_pos (by norm_num : (0 : ℝ) < 10)]
  simp only [Ideal.fptosi, Ideal.toIntClamped_bot]
  decide

/-- `0` falls in bin `0`. -/
theorem binOf_zero : binOf 0 = 0#32 := by
  unfold binOf
  rw [zero_mul, ← EReal.coe_zero]
  simp only [Ideal.fptosi, Ideal.toIntClamped_coe]
  simp
  decide

/-- With every row sum and the count zero, both normalised values fall in bin `0`. -/
theorem bins_agree_zero (t : Fin 2000000) :
    binOf (normK (fun _ => ((0 : ℝ) : EReal)) ((0 : ℝ) : EReal) t)
      = binOf (normR (fun _ => Ideal.div ((0 : ℝ) : EReal) ((0 : ℝ) : EReal)) t) := by
  have hk : normK (fun _ => ((0 : ℝ) : EReal)) ((0 : ℝ) : EReal) t = ⊥ := by
    unfold normK normWith
    rw [infRow_eq_of_le _ t (fun _ => le_rfl), supRow_eq_of_le _ t (fun _ => le_rfl)]
    simp [Ideal.div]
  have hr : normR (fun _ => Ideal.div ((0 : ℝ) : EReal) ((0 : ℝ) : EReal)) t = 0 := by
    unfold normR
    rw [infRow_eq_of_le _ t (fun _ => le_rfl), supRow_eq_of_le _ t (fun _ => le_rfl)]
    rw [EReal.coe_zero, div_zero_zero, EReal.bot_sub, EReal.bot_add, div_bot_bot]
  rw [hk, hr, binOf_bot, binOf_zero]

/-- The two bins agree for a mask of zeros and ones `w` against real rows `x`. -/
theorem bins_core (w : Fin 64 → ℝ) (hw : ∀ d, w d = 0 ∨ w d = 1) (x : Fin 2000000 → Fin 64 → ℝ)
    (t : Fin 2000000) :
    binOf (normK (fun t => ((∑ d, w d * x t d : ℝ) : EReal)) ((∑ d, w d : ℝ) : EReal) t)
      = binOf (normR (fun t => Ideal.div ((∑ d, w d * x t d : ℝ) : EReal) ((∑ d, w d : ℝ) : EReal)) t) := by
  have hnn : ∀ d, 0 ≤ w d := fun d => by rcases hw d with h | h <;> rw [h] <;> norm_num
  rcases (Finset.sum_nonneg fun d _ => hnn d : 0 ≤ ∑ d, w d).eq_or_lt with hc | hc
  · have hz : ∀ d, w d = 0 := fun d =>
      (Finset.sum_eq_zero_iff_of_nonneg fun d _ => hnn d).mp hc.symm d (Finset.mem_univ d)
    have hs : ∀ t, ∑ d, w d * x t d = 0 := fun t => Finset.sum_eq_zero fun d _ => by rw [hz d, zero_mul]
    simp only [hs, ← hc]
    exact bins_agree_zero t
  · exact congrArg binOf (norm_agree_pos _ _ hc t)

/-- The bins of the selected columns' sums: both programs form the same. -/
theorem binA_agree (Mf : SP.Idx → EReal) (X : SX.Idx → EReal) (hM : ∀ i, Mf i = 0 ∨ Mf i = 1)
    (hX : ∀ i, ∃ r : ℝ, X i = (r : EReal)) (p : Fin 8) (t : Fin 2000000) :
    binKA Mf X p t = binRA Mf X p t := by
  have hMr : ∀ i, Mf i = ((Mf i).toReal : EReal) ∧ ((Mf i).toReal = 0 ∨ (Mf i).toReal = 1) := fun i => by
    rcases hM i with h | h <;> rw [h] <;> simp
  have hXr : ∀ i, X i = ((X i).toReal : EReal) := fun i => by
    obtain ⟨r, h⟩ := hX i
    rw [h, EReal.toReal_coe]
  have hrow : rowA Mf X p
      = fun t => ((∑ d, (Mf (ix2 p d)).toReal * (X (ix2 t d)).toReal : ℝ) : EReal) := by
    funext t
    rw [coe_finset_sum]
    exact Finset.sum_congr rfl fun d _ => by rw [EReal.coe_mul, ← (hMr _).1, ← hXr]
  have hcnt : cntA Mf p = ((∑ d, (Mf (ix2 p d)).toReal : ℝ) : EReal) := by
    rw [coe_finset_sum]
    exact Finset.sum_congr rfl fun d _ => (hMr _).1
  unfold binKA binRA
  rw [hrow, hcnt]
  exact bins_core _ (fun d => (hMr _).2) _ t

/-- The bins of the other columns' sums: both programs form the same (the kernel spells the count of the
    other columns `64 - ` the count of the selected ones). -/
theorem binB_agree (Mf : SP.Idx → EReal) (X : SX.Idx → EReal) (hM : ∀ i, Mf i = 0 ∨ Mf i = 1)
    (hX : ∀ i, ∃ r : ℝ, X i = (r : EReal)) (p : Fin 8) (t : Fin 2000000) :
    binKB Mf X p t = binRB Mf X p t := by
  have hMr : ∀ i, Mf i = ((Mf i).toReal : EReal) ∧ ((Mf i).toReal = 0 ∨ (Mf i).toReal = 1) := fun i => by
    rcases hM i with h | h <;> rw [h] <;> simp
  have hXr : ∀ i, X i = ((X i).toReal : EReal) := fun i => by
    obtain ⟨r, h⟩ := hX i
    rw [h, EReal.toReal_coe]
  have hone : ∀ i, one - Mf i = ((1 - (Mf i).toReal : ℝ) : EReal) := fun i => by
    rw [EReal.coe_sub, EReal.coe_one, ← (hMr i).1, one_eq]
  have hrow : rowB Mf X p
      = fun t => ((∑ d, (1 - (Mf (ix2 p d)).toReal) * (X (ix2 t d)).toReal : ℝ) : EReal) := by
    funext t
    rw [coe_finset_sum]
    exact Finset.sum_congr rfl fun d _ => by rw [EReal.coe_mul, ← hone, ← hXr]
  have hcntB : cntB Mf p = ((∑ d, (1 - (Mf (ix2 p d)).toReal) : ℝ) : EReal) := by
    rw [coe_finset_sum]
    exact Finset.sum_congr rfl fun d _ => hone _
  have hcntA : cntA Mf p = ((∑ d, (Mf (ix2 p d)).toReal : ℝ) : EReal) := by
    rw [coe_finset_sum]
    exact Finset.sum_congr rfl fun d _ => (hMr _).1
  have hcntK : sixtyfour - cntA Mf p = ((∑ d, (1 - (Mf (ix2 p d)).toReal) : ℝ) : EReal) := by
    rw [sixtyfour_eq, hcntA, ← EReal.coe_sub]
    refine congrArg Real.toEReal ?_
    simp [Finset.sum_sub_distrib]
  unfold binKB binRB
  rw [hrow, hcntK, hcntB]
  refine bins_core _ (fun d => ?_) _ t
  rcases (hMr (ix2 p d)).2 with h | h <;> rw [h] <;> norm_num

end Cert.MI

end
-- ==== Proof.JointAgree.lean ====
/-
  The kernel's two per-core histograms add up to the joint histogram of its bins, and that is the joint
  histogram of the reference's bins.
-/
import proofs.«150017_j5007931867607_2_alg».proof.Proof.Halves
import proofs.«150017_j5007931867607_2_alg».proof.Proof.BinsAgree

noncomputable section

namespace Cert.MI

open Idealize.ShloMosaic Idealize.ShloMosaic.ValueIdx

/-- A mask bit read as a float is `0` or `1`. -/
theorem mask01 (b : BitVec 1) :
    FloatOps.uitofp (F := Ideal) .f32 b = 0 ∨ FloatOps.uitofp (F := Ideal) .f32 b = 1 := by
  rcases BitVec.eq_zero_or_eq_one b with h | h
  · left; rw [h]; show ((((0#1 : BitVec 1).toNat : ℝ)) : EReal) = 0; simp
  · right; rw [h]; show ((((1#1 : BitVec 1).toNat : ℝ)) : EReal) = 1; simp

/-- The two cores' histograms, each over its half of the time axis with the bounds combined over the two
    cores, add up to the joint histogram of the kernel's bins. -/
theorem kernel_joint (Mf : SP.Idx → EReal) (X : SX.Idx → EReal) (A2 A3 A4 A5 : Fin 2 → Fin 8 → EReal)
    (h2 : ∀ cc q, A2 cc q = Finset.univ.inf fun r : Fin 1000000 => rowA Mf X q (stepOf cc r))
    (h3 : ∀ cc q, A3 cc q = Finset.univ.sup fun r : Fin 1000000 => rowA Mf X q (stepOf cc r))
    (h4 : ∀ cc q, A4 cc q = Finset.univ.inf fun r : Fin 1000000 => rowB Mf X q (stepOf cc r))
    (h5 : ∀ cc q, A5 cc q = Finset.univ.sup fun r : Fin 1000000 => rowB Mf X q (stepOf cc r))
    (H : Fin 2 → Fin 8 → Fin 10 → Fin 10 → EReal)
    (hH : ∀ cc p x y, H cc p x y = ∑ r : Fin 1000000, hitK Mf X (cntA Mf) (fun q => sixtyfour - cntA Mf q)
        (fun q => min (A2 0 q) (A2 1 q)) (fun q => max (A3 0 q) (A3 1 q))
        (fun q => min (A4 0 q) (A4 1 q)) (fun q => max (A5 0 q) (A5 1 q)) p (stepOf cc r) x y)
    (p : Fin 8) (x y : Fin 10) :
    H 0 p x y + H 1 p x y = joint (binKA Mf X) (binKB Mf X) p x y := by
  have e2 : ∀ q, min (A2 0 q) (A2 1 q) = infRow (rowA Mf X q) := fun q => by
    rw [h2, h2]; exact (infRow_halves _).symm
  have e3 : ∀ q, max (A3 0 q) (A3 1 q) = supRow (rowA Mf X q) := fun q => by
    rw [h3, h3]; exact (supRow_halves _).symm
  have e4 : ∀ q, min (A4 0 q) (A4 1 q) = infRow (rowB Mf X q) := fun q => by
    rw [h4, h4]; exact (infRow_halves _).symm
  have e5 : ∀ q, max (A5 0 q) (A5 1 q) = supRow (rowB Mf X q) := fun q => by
    rw [h5, h5]; exact (supRow_halves _).symm
  have hit : ∀ t, hitK Mf X (cntA Mf) (fun q => sixtyfour - cntA Mf q)
      (fun q => min (A2 0 q) (A2 1 q)) (fun q => max (A3 0 q) (A3 1 q))
      (fun q => min (A4 0 q) (A4 1 q)) (fun q => max (A5 0 q) (A5 1 q)) p t x y
      = oh (binKA Mf X p t) x * oh (binKB Mf X p t) y := fun t => by
    unfold hitK binKA binKB normK
    simp only [e2, e3, e4, e5]
  rw [hH, hH, joint_halves]
  simp only [hit]

/-- The joint histogram of the kernel's bins is the joint histogram of the reference's bins. -/
theorem joint_agree (Mf : SP.Idx → EReal) (X : SX.Idx → EReal) (hM : ∀ i, Mf i = 0 ∨ Mf i = 1)
    (hX : ∀ i, ∃ r : ℝ, X i = (r : EReal)) (p : Fin 8) (x y : Fin 10) :
    joint (binKA Mf X) (binKB Mf X) p x y = joint (binRA Mf X) (binRB Mf X) p x y := by
  unfold joint
  exact Finset.sum_congr rfl fun t _ => by rw [binA_agree Mf X hM hX, binB_agree Mf X hM hX]

end Cert.MI

end
-- ==== Proof.KernelJoint.lean ====
/-
  The histogram the kernel program's tail receives is the joint histogram of the bins formed from the sums: the
  statistics region's per-core extrema fold into the extrema over the whole time axis, the histogram region's two
  per-core histograms add up to the histogram over the whole time axis.
-/
import proofs.«150017_j5007931867607_2_alg».proof.Proof.KernelArrays
import proofs.«150017_j5007931867607_2_alg».proof.Proof.StatsRegion
import proofs.«150017_j5007931867607_2_alg».proof.Proof.HistRegion
import proofs.«150017_j5007931867607_2_alg».proof.Proof.JointAgree

set_option maxRecDepth 16384

noncomputable section

namespace Cert.KernelIdeal.KValue

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- Cell `(p, x, y)` of the histogram the tail receives: the number of time steps whose two bins, formed from the
    sums with the guard scaled by the counts, are `x` and `y`. -/
theorem jointK_eq (c : Dev nD) (p : Fin 8) (x y : Fin 10) :
    jointK m ρ c (ix3 p x y) = Cert.MI.joint (Cert.MI.binKA (Mfl m c) (Xs m c)) (Cert.MI.binKB (Mfl m c) (Xs m c)) p x y := by
  rw [jointK_apply]
  refine Cert.MI.kernel_joint (Mfl m c) (Xs m c)
    (fun cc q => statArr2 m ρ c (ix3 cc q (0 : Fin 1))) (fun cc q => statArr3 m ρ c (ix3 cc q (0 : Fin 1)))
    (fun cc q => statArr4 m ρ c (ix3 cc q (0 : Fin 1))) (fun cc q => statArr5 m ρ c (ix3 cc q (0 : Fin 1)))
    ?_ ?_ ?_ ?_ (fun cc p x y => histArr m ρ c (ix4 cc p x y)) ?_ p x y
  · intro cc q
    have h := Cert.KernelIdeal.Stats.minA_arr (V1 m ρ) c cc q
    rw [V1_v0, V1_arg0] at h
    exact h
  · intro cc q
    have h := Cert.KernelIdeal.Stats.maxA_arr (V1 m ρ) c cc q
    rw [V1_v0, V1_arg0] at h
    exact h
  · intro cc q
    have h := Cert.KernelIdeal.Stats.minB_arr (V1 m ρ) c cc q
    rw [V1_v0, V1_arg0] at h
    exact h
  · intro cc q
    have h := Cert.KernelIdeal.Stats.maxB_arr (V1 m ρ) c cc q
    rw [V1_v0, V1_arg0] at h
    exact h
  · intro cc p x y
    have h := Cert.KernelIdeal.Hist.joint_arr (V3 m ρ) c cc p x y
    rw [V3_v0, V3_arg0,
      show (fun q : Fin 8 => V3 m ρ c main_v15 (ix2 q (0 : Fin 1))) = Cert.MI.cntA (Mfl m c) from funext (V3_v15_apply m ρ c),
      show (fun q : Fin 8 => V3 m ρ c main_v17 (ix2 q (0 : Fin 1))) = (fun q => Cert.MI.sixtyfour - Cert.MI.cntA (Mfl m c) q) from funext (V3_v17_apply m ρ c),
      show (fun q : Fin 8 => V3 m ρ c main_v4 (ix2 q (0 : Fin 1))) = _ from funext (V3_v4_apply m ρ c),
      show (fun q : Fin 8 => V3 m ρ c main_v7 (ix2 q (0 : Fin 1))) = _ from funext (V3_v7_apply m ρ c),
      show (fun q : Fin 8 => V3 m ρ c main_v10 (ix2 q (0 : Fin 1))) = _ from funext (V3_v10_apply m ρ c),
      show (fun q : Fin 8 => V3 m ρ c main_v13 (ix2 q (0 : Fin 1))) = _ from funext (V3_v13_apply m ρ c)] at h
    exact h

end Cert.KernelIdeal.KValue

end
-- ==== Proof.FiniteState.lean ====
/-
  What the precondition says of the state: the predicate is one conjunction over all entries of
  `|x| < +inf`; when it is all ones, every entry of the state is a real number.
-/
import proofs.«150017_j5007931867607_2_alg».proof.Pre_finite_inputs
import proofs.«150017_j5007931867607_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal

noncomputable section

namespace Cert.Pre_finite_inputs.Read

open Idealize.ShloMosaic Cert.Pre_finite_inputs

/-- An extended real whose absolute value is below `+inf` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- Under the precondition every entry of the state is a real number. -/
theorem real_of_pre [Cert.Pre_finite_inputs.Facts] (X : FVec Ideal S2000000x64 .f32) (M : IVec S8x64 1)
    (h : Cert.Pre_finite_inputs.fn (F := Ideal) X M = fun _ => 1#1) (i : S2000000x64.Idx) :
    ∃ r : ℝ, X i = (r : EReal) := by
  have h0 := congrFun h ValueIdx.ix0
  dsimp only [Cert.Pre_finite_inputs.fn] at h0
  haveI : Subsingleton S_.Idx := ⟨fun a b => funext fun d => d.elim0⟩
  have h1 := Host.reduce_andi_all _ _ _ _ _ h0 i
  have htop : Ideal.ofBits .f32 0x7F800000#32 = ⊤ := by simp [Ideal.ofBits, Ideal.ieee]
  have h2 : BitVec.ofBool (decide (max (X i) (-(X i)) < Ideal.ofBits .f32 0x7F800000#32)) = 1#1 := h1
  rw [htop] at h2
  refine real_of_abs_lt_top (X i) ?_
  by_contra hlt
  rw [decide_eq_false hlt] at h2
  exact absurd h2 (by decide)

end Cert.Pre_finite_inputs.Read

end
-- ==== Proof.RefStage.lean ====
/-
  The reference's two halves: the joint histogram (the scatter-add's result, as a function of the state and the
  mask) and the tail applied to it (row normalisation, marginals, the sum of p · log(p / (px · py)) with guards, the
  maximum with zero and the minimum over the rows).
-/
import proofs.«150017_j5007931867607_2_alg».proof.Proof.RefReadP
import Idealize.ShloMosaic.PureOps.Ideal

noncomputable section

namespace Cert.ReferenceIdeal.RefValue

open Idealize.ShloMosaic Idealize.ShloMosaic.TcCoe Idealize.SL.Sem
open Cert.ReferenceIdeal Cert.ReferenceIdeal.Gen

/-- The joint histogram as the reference forms it: ones scattered and added into zeros at (row, bin, bin). -/
def scatterStage (X : FVec Ideal S2000000x64 .f32) (M : IVec S8x64 1) : FVec Ideal S8x10x10 .f32 :=
  Cert.ReferenceIdeal.ReadP.val_main_v67 (F := Ideal) X M

/-- From the joint histogram to the two results: each row's histogram divided by its total (plus a guard), its two
    marginals, the sum of `p · log ((p + guard) / (px · py + guard))`, the maximum with zero, and the minimum over the
    rows.  The first component is the minimum, the second the eight values. -/
def tailR (J : FVec Ideal S8x10x10 .f32) : FVec Ideal S_ .f32 × FVec Ideal S8 .f32 :=
  let v20 : FVec Ideal S8 .f32 := Host.reduceAdd J (constant S_ .f32 0x00000000#32) reducesTo_S8x10x10_S8_d1_2 h_S_
  let v21 : FVec Ideal S8x1x1 .f32 := broadcastInDim S8x1x1 ![0] bcast_S8_S8x1x1_0 v20
  let v22 : FVec Ideal S8x1x1 .f32 := broadcastInDim S8x1x1 ![] bcast_S_S8x1x1 (constant S_ .f32 0x2EDBE6FF#32)
  let v23 : FVec Ideal S8x1x1 .f32 := addf v21 v22
  let v24 : FVec Ideal S8x10x10 .f32 := broadcastInDim S8x10x10 ![0, 1, 2] bcast_S8x1x1_S8x10x10_0_1_2 v23
  let v25 : FVec Ideal S8x10x10 .f32 := Host.divf J v24
  let v26 : FVec Ideal S8x10 .f32 := Host.reduceAdd v25 (constant S_ .f32 0x00000000#32) reducesTo_S8x10x10_S8x10_d2 h_S_
  let v27 : FVec Ideal S8x10 .f32 := Host.reduceAdd v25 (constant S_ .f32 0x00000000#32) reducesTo_S8x10x10_S8x10_d1 h_S_
  let v28 : FVec Ideal S8x10x1 .f32 := broadcastInDim S8x10x1 ![0, 1] bcast_S8x10_S8x10x1_0_1 v26
  let v29 : FVec Ideal S8x1x10 .f32 := broadcastInDim S8x1x10 ![0, 2] bcast_S8x10_S8x1x10_0_2 v27
  let v30 : FVec Ideal S8x10x10 .f32 := broadcastInDim S8x10x10 ![0, 1, 2] bcast_S8x10x1_S8x10x10_0_1_2 v28
  let v31 : FVec Ideal S8x10x10 .f32 := broadcastInDim S8x10x10 ![0, 1, 2] bcast_S8x1x10_S8x10x10_0_1_2 v29
  let v32 : FVec Ideal S8x10x10 .f32 := mulf v30 v31
  let v33 : FVec Ideal S8x10x10 .f32 := broadcastInDim S8x10x10 ![] bcast_S_S8x10x10 (constant S_ .f32 0x2EDBE6FF#32)
  let v34 : FVec Ideal S8x10x10 .f32 := addf v25 v33
  let v36 : FVec Ideal S8x10x10 .f32 := addf v32 v33
  let v37 : FVec Ideal S8x10x10 .f32 := Host.divf v34 v36
  let v38 : FVec Ideal S8x10x10 .f32 := Host.log v37
  let v39 : FVec Ideal S8x10x10 .f32 := mulf v25 v38
  let v40 : FVec Ideal S8 .f32 := Host.reduceAdd v39 (constant S_ .f32 0x00000000#32) reducesTo_S8x10x10_S8_d1_2 h_S_
  let v41 : FVec Ideal S8 .f32 := broadcastInDim S8 ![] bcast_S_S8 (constant S_ .f32 0x00000000#32)
  let v42 : FVec Ideal S8 .f32 := maximumf v40 v41
  let v43 : FVec Ideal S_ .f32 := Host.reduce FloatOps.minimumf v42 (constant S_ .f32 0x7F800000#32) reducesTo_S8_S_d0 h_S_
  (v43, v42)

end Cert.ReferenceIdeal.RefValue

end
-- ==== Proof.LibAfter.lean ====
/-
  A line of host operations run in two parts: the buffers after the whole line are the buffers after the second part,
  started from the buffers after the first.
-/
import Idealize.ShloMosaic.Lib.StableHlo.Run

namespace Idealize.ShloMosaic.StableHlo

variable {τ : Topo} {sig : RefSig} {Val : EltTy → Type}

theorem after_append (l₁ l₂ : List (HloOp τ sig Val)) (W : Valuation τ sig Val) :
    after (l₁ ++ l₂) W = after l₂ (after l₁ W) := by
  induction l₁ generalizing W with
  | nil => rfl
  | cons op l ih => simp only [List.cons_append, after_cons, ih]

end Idealize.ShloMosaic.StableHlo
-- ==== Proof.RefRun.lean ====
/-
  The reference's run, in two parts.  The program is a straight line of host operations; every execution ends with
  each buffer at the fold of the operations' results over the launch contents.  The line is cut after the
  scatter-add: the first part leaves the joint histogram (as a function of the state and the mask) in the
  scatter-add's buffer, the second part applies the tail to what that buffer holds.
-/
import proofs.«150017_j5007931867607_2_alg».proof.Proof.RefRunP
import proofs.«150017_j5007931867607_2_alg».proof.Proof.RefStage
import proofs.«150017_j5007931867607_2_alg».proof.Proof.LibAfter

set_option maxRecDepth 16384

noncomputable section

namespace Cert.ReferenceIdeal.RefValue

open Idealize.ShloMosaic Idealize.ShloMosaic.TcCoe Idealize.SL.Sem Idealize.ShloMosaic.StableHlo
open Cert.ReferenceIdeal Cert.ReferenceIdeal.Gen Cert.ReferenceIdeal.ValueP

set_option maxRecDepth 100000 in
/-- After the operations up to the first normalised value's conversion to a word, that buffer holds the words of the
    launch contents. -/
theorem afterSums_v37 (W : Valuation τ sig (Elt Ideal)) :
    after ((opsA (F := Ideal)).take 48) W (Proc.devRef .tc main_v37)
      = Cert.ReferenceIdeal.ReadP.val_main_v37 (F := Ideal) (W (Proc.devRef .tc main_arg0)) (W (Proc.devRef .tc main_arg1)) := by
  simp only [opsA, List.take_succ_cons, List.take_zero]
  after_results_simp
  rfl

set_option maxRecDepth 100000 in
/-- … and the second normalised value's buffer the second normalised values. -/
theorem afterSums_v34 (W : Valuation τ sig (Elt Ideal)) :
    after ((opsA (F := Ideal)).take 48) W (Proc.devRef .tc main_v34)
      = Cert.ReferenceIdeal.ReadP.val_main_v34 (F := Ideal) (W (Proc.devRef .tc main_arg0)) (W (Proc.devRef .tc main_arg1)) := by
  simp only [opsA, List.take_succ_cons, List.take_zero]
  after_results_simp
  rfl

/-- A value moved along an equation of types and back is itself. -/
theorem cast_cast_back {A B : Type} (h : A = B) (h' : B = A) (v : A) : cast h' (cast h v) = v := by
  subst h; rfl

/-- A value moved along an equation between a type and itself is itself. -/
theorem cast_self {A : Type} (h : A = A) (a : A) : cast h a = a := rfl

set_option maxRecDepth 100000 in
/-- The clamp of the first words: the first bins. -/
theorem afterClipA_v38 (W : Valuation τ sig (Elt Ideal)) (x0 : FVec Ideal S2000000x64 .f32) (x1 : IVec S8x64 1)
    (h37 : W (Proc.devRef .tc main_v37) = Cert.ReferenceIdeal.ReadP.val_main_v37 (F := Ideal) x0 x1) :
    after (((opsA (F := Ideal)).drop 48).take 8) W (Proc.devRef .tc main_v38) = Cert.ReferenceIdeal.ReadP.val_main_v38 (F := Ideal) x0 x1 := by
  simp only [opsA, List.drop_succ_cons, List.drop_zero, List.take_succ_cons, List.take_zero]
  after_results_simp
  rw [h37]
  unfold TRef.ofBuf TRef.toBuf
  simp only [cast_cast_back]
  refine (cast_self _ _).trans ?_
  unfold ReadP.val_main_v38 ReadP.val_main_call0_v4 ReadP.val_main_call0_v3 ReadP.val_main_c_9
    ReadP.val_main_call0_v2 ReadP.val_main_call0_v1 ReadP.val_main_call0_v0 ReadP.val_main_c
  exact congrArg₂ minsi (congrArg _ (congrArg id (cast_self _ _)))
    (congrArg₂ maxsi (congrArg _ (congrArg id (cast_self _ _))) (cast_self _ _))

set_option maxRecDepth 100000 in
/-- … which leaves the second normalised values where they were. -/
theorem afterClipA_v34 (W : Valuation τ sig (Elt Ideal)) :
    after (((opsA (F := Ideal)).drop 48).take 8) W (Proc.devRef .tc main_v34) = W (Proc.devRef .tc main_v34) := by
  simp only [opsA, List.drop_succ_cons, List.drop_zero, List.take_succ_cons, List.take_zero]
  after_results_simp

set_option maxRecDepth 100000 in
/-- The conversion and clamp of the second values: the second bins. -/
theorem afterClipB_v42 (W : Valuation τ sig (Elt Ideal)) (x0 : FVec Ideal S2000000x64 .f32) (x1 : IVec S8x64 1)
    (h34 : W (Proc.devRef .tc main_v34) = Cert.ReferenceIdeal.ReadP.val_main_v34 (F := Ideal) x0 x1) :
    after ((((opsA (F := Ideal)).drop 48).drop 8).take 12) W (Proc.devRef .tc main_v42) = Cert.ReferenceIdeal.ReadP.val_main_v42 (F := Ideal) x0 x1 := by
  simp only [opsA, List.drop_succ_cons, List.drop_zero, List.take_succ_cons, List.take_zero]
  after_results_simp
  rw [h34]
  unfold TRef.ofBuf TRef.toBuf
  simp only [cast_cast_back]
  refine (cast_self _ _).trans ?_
  unfold ReadP.val_main_v42 ReadP.val_main_call1_v4 ReadP.val_main_call1_v3 ReadP.val_main_c_12
    ReadP.val_main_call1_v2 ReadP.val_main_call1_v1 ReadP.val_main_call1_v0 ReadP.val_main_c_11
    ReadP.val_main_v41 ReadP.val_main_v40 ReadP.val_main_v39 ReadP.val_main_cst_10
  exact congrArg₂ minsi (congrArg _ (congrArg id (cast_self _ _)))
    (congrArg₂ maxsi (congrArg _ (congrArg id (cast_self _ _))) (cast_self _ _))

set_option maxRecDepth 100000 in
/-- … which leaves the first bins where they were. -/
theorem afterClipB_v38 (W : Valuation τ sig (Elt Ideal)) :
    after ((((opsA (F := Ideal)).drop 48).drop 8).take 12) W (Proc.devRef .tc main_v38) = W (Proc.devRef .tc main_v38) := by
  simp only [opsA, List.drop_succ_cons, List.drop_zero, List.take_succ_cons, List.take_zero]
  after_results_simp

section Indices

variable (W : Valuation τ sig (Elt Ideal)) (x0 : FVec Ideal S2000000x64 .f32) (x1 : IVec S8x64 1)
  (h38 : W (Proc.devRef .tc main_v38) = Cert.ReferenceIdeal.ReadP.val_main_v38 (F := Ideal) x0 x1)
  (h42 : W (Proc.devRef .tc main_v42) = Cert.ReferenceIdeal.ReadP.val_main_v42 (F := Ideal) x0 x1)

set_option maxRecDepth 100000 in
/-- The operations from the row indices up to the three index pieces: the row piece. -/
theorem afterIdx_v62 :
    after (((((opsA (F := Ideal)).drop 48).drop 8).drop 12).take 29) W (Proc.devRef .tc main_v62) = Cert.ReferenceIdeal.ReadP.val_main_v62 (F := Ideal) := by
  simp only [opsA, List.drop_succ_cons, List.drop_zero, List.take_succ_cons, List.take_zero]
  after_results_simp
  rfl

set_option maxRecDepth 100000 in
include h38 in
/-- … the first bin piece, when the first bin array's buffer holds the first bins of `x0`, `x1`. -/
theorem afterIdx_v63 :
    after (((((opsA (F := Ideal)).drop 48).drop 8).drop 12).take 29) W (Proc.devRef .tc main_v63) = Cert.ReferenceIdeal.ReadP.val_main_v63 (F := Ideal) x0 x1 := by
  simp only [opsA, List.drop_succ_cons, List.drop_zero, List.take_succ_cons, List.take_zero]
  after_results_simp
  rw [h38]
  rfl

set_option maxRecDepth 100000 in
include h42 in
/-- … the second bin piece. -/
theorem afterIdx_v64 :
    after (((((opsA (F := Ideal)).drop 48).drop 8).drop 12).take 29) W (Proc.devRef .tc main_v64) = Cert.ReferenceIdeal.ReadP.val_main_v64 (F := Ideal) x0 x1 := by
  simp only [opsA, List.drop_succ_cons, List.drop_zero, List.take_succ_cons, List.take_zero]
  after_results_simp
  rw [h42]
  rfl

set_option maxRecDepth 100000 in
/-- … and the zero histogram the scatter-add starts from. -/
theorem afterIdx_v46 :
    after (((((opsA (F := Ideal)).drop 48).drop 8).drop 12).take 29) W (Proc.devRef .tc main_v46) = Cert.ReferenceIdeal.ReadP.val_main_v46 (F := Ideal) := by
  simp only [opsA, List.drop_succ_cons, List.drop_zero, List.take_succ_cons, List.take_zero]
  after_results_simp
  rfl

end Indices

set_option maxRecDepth 100000 in
/-- The last four operations of the first part — the three pieces joined, the ones to scatter, the scatter-add — from
    any contents. -/
theorem afterJoin_v67 (W : Valuation τ sig (Elt Ideal)) :
    (after (((((opsA (F := Ideal)).drop 48).drop 8).drop 12).drop 29) W (Proc.devRef .tc main_v67) : FVec Ideal S8x10x10 .f32)
      = Host.scatterAdd (F := Ideal) (φ := .f32) scatter_S8x10x10_S8x2000000x3_S8x2000000_n_012_012_2 (W (Proc.devRef .tc main_v46) : FVec Ideal S8x10x10 .f32)
          (concatenate S8x2000000x3 2 [⟨S8x2000000x1, (W (Proc.devRef .tc main_v62) : IVec S8x2000000x1 32)⟩, ⟨S8x2000000x1, (W (Proc.devRef .tc main_v63) : IVec S8x2000000x1 32)⟩,
            ⟨S8x2000000x1, (W (Proc.devRef .tc main_v64) : IVec S8x2000000x1 32)⟩] concatenates_S8x2000000x1_S8x2000000x1_S8x2000000x1_S8x2000000x3_d2)
          (Cert.ReferenceIdeal.ReadP.val_main_v66 (F := Ideal)) := by
  simp only [opsA, List.drop_succ_cons, List.drop_zero]
  after_results_simp
  rfl

/-- The operations from the row indices to the scatter-add, started from buffers whose two bin arrays are the bins of
    `x0` and `x1`, leave the joint histogram of `x0` and `x1` in the scatter-add's buffer. -/
theorem afterScatter_v67 (W : Valuation τ sig (Elt Ideal)) (x0 : FVec Ideal S2000000x64 .f32) (x1 : IVec S8x64 1)
    (h38 : W (Proc.devRef .tc main_v38) = Cert.ReferenceIdeal.ReadP.val_main_v38 (F := Ideal) x0 x1)
    (h42 : W (Proc.devRef .tc main_v42) = Cert.ReferenceIdeal.ReadP.val_main_v42 (F := Ideal) x0 x1) :
    after ((((opsA (F := Ideal)).drop 48).drop 8).drop 12) W (Proc.devRef .tc main_v67) = scatterStage x0 x1 := by
  rw [← List.take_append_drop 29 ((((opsA (F := Ideal)).drop 48).drop 8).drop 12), after_append]
  refine (afterJoin_v67 _).trans ?_
  rw [afterIdx_v62 W, afterIdx_v63 W x0 x1 h38, afterIdx_v64 W x0 x1 h42, afterIdx_v46 W]
  rfl

/-- After the first part the scatter-add's buffer holds the joint histogram of the launch contents of the two
    argument buffers. -/
theorem afterA_v67 (W : Valuation τ sig (Elt Ideal)) :
    after (opsA (F := Ideal)) W (Proc.devRef .tc main_v67)
      = scatterStage (W (Proc.devRef .tc main_arg0)) (W (Proc.devRef .tc main_arg1)) := by
  rw [← List.take_append_drop 48 (opsA (F := Ideal)), after_append,
    ← List.take_append_drop 8 ((opsA (F := Ideal)).drop 48), after_append,
    ← List.take_append_drop 12 (((opsA (F := Ideal)).drop 48).drop 8), after_append]
  refine afterScatter_v67 _ _ _ ?_ ?_
  · rw [afterClipB_v38]
    exact afterClipA_v38 _ _ _ (afterSums_v37 W)
  · refine afterClipB_v42 _ _ _ ?_
    rw [afterClipA_v34]
    exact afterSums_v34 W

/-- After the second part, whatever the buffers held before it, the first result buffer holds the tail's first
    component of what the scatter-add's buffer held. -/
theorem afterB_v91 (W : Valuation τ sig (Elt Ideal)) :
    after (opsB (F := Ideal)) W (Proc.devRef .tc main_v91) = (tailR (W (Proc.devRef .tc main_v67))).1 := by
  dsimp only [opsB]
  after_results_simp
  rfl

/-- … and the second result buffer the tail's second component. -/
theorem afterB_v90 (W : Valuation τ sig (Elt Ideal)) :
    after (opsB (F := Ideal)) W (Proc.devRef .tc main_v90) = (tailR (W (Proc.devRef .tc main_v67))).2 := by
  dsimp only [opsB]
  after_results_simp
  rfl

/-- The whole line: the results are the tail of the joint histogram of the two argument buffers' contents. -/
theorem after_v91 (W : Valuation τ sig (Elt Ideal)) :
    after (ops (F := Ideal)) W (Proc.devRef .tc main_v91)
      = (tailR (scatterStage (W (Proc.devRef .tc main_arg0)) (W (Proc.devRef .tc main_arg1)))).1 := by
  rw [ops_split, after_append, afterB_v91, afterA_v67]

theorem after_v90 (W : Valuation τ sig (Elt Ideal)) :
    after (ops (F := Ideal)) W (Proc.devRef .tc main_v90)
      = (tailR (scatterStage (W (Proc.devRef .tc main_arg0)) (W (Proc.devRef .tc main_arg1)))).2 := by
  rw [ops_split, after_append, afterB_v90, afterA_v67]

set_option maxRecDepth 65536 in
/-- Every weakly fair execution of the reference ends, nothing faulting, with the two results at the tail of the
    joint histogram of the launched state and mask, and the two arguments as launched. -/
theorem run_value (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v91)
        = (tailR (scatterStage (m' ((c.tc : Thread nD τ).loc main_arg0)) (m' ((c.tc : Thread nD τ).loc main_arg1)))).1
      ∧ r.2.mem ((c.tc : Thread nD τ).loc main_v90)
        = (tailR (scatterStage (m' ((c.tc : Thread nD τ).loc main_arg0)) (m' ((c.tc : Thread nD τ).loc main_arg1)))).2
      ∧ r.2.mem ((c.tc : Thread nD τ).loc main_arg0) = m' ((c.tc : Thread nD τ).loc main_arg0)
      ∧ r.2.mem ((c.tc : Thread nD τ).loc main_arg1) = m' ((c.tc : Thread nD τ).loc main_arg1)) :=
  (θ_run defs _ _).mono (fun _ h c => ⟨(h c main_v91).trans (after_v91 _), (h c main_v90).trans (after_v90 _),
      (h c main_arg0).trans (by after_results_simp <;> rfl), (h c main_arg1).trans (by after_results_simp <;> rfl)⟩)
    (run_seq scopedRefs_eq scopedSems_eq defs main (fun _ => ops) main_eq (fun _ => ops_sub) m' ρ')

end Cert.ReferenceIdeal.RefValue

end
-- ==== Proof.RowExtrema.lean ====
/-
  The smallest and the largest value of a row of an 8 × 2000000 array, as the host's reduction computes them.

  A reduction over the time axis with a minimum body, started from +∞, is at row `p` the fold of `min` over the
  two million time steps from +∞, and that fold is the infimum of the row; likewise a maximum body from −∞ gives
  the supremum.
-/
import Idealize.ShloMosaic.Lib.ValueIdx
import Idealize.ShloMosaic.PureOps.Ideal
import Idealize.ShloMosaic.PureOps.Ideal.Laws
import Idealize.ShloMosaic.PureOps.Reduce
import proofs.«150017_j5007931867607_2_alg».proof.Proof.Spec

noncomputable section

namespace Cert.MI.RowExtrema

open Idealize.ShloMosaic Idealize.ShloMosaic.ValueIdx

/-- A fold of a minimum from +∞ is the infimum. -/
theorem fold_min_eq_inf {ι : Type} (s : Finset ι) (f : ι → EReal) (op : EReal → EReal → EReal) [Std.Commutative op]
    [Std.Associative op] (hop : ∀ a b, op a b = min a b) (b : EReal) (hb : b = ⊤) : s.fold op b f = s.inf f := by
  classical
  subst hb
  induction s using Finset.induction_on with
  | empty => rw [Finset.fold_empty, Finset.inf_empty]
  | insert a s ha ih => rw [Finset.fold_insert ha, Finset.inf_insert, ih, hop]

/-- A fold of a maximum from −∞ is the supremum. -/
theorem fold_max_eq_sup {ι : Type} (s : Finset ι) (f : ι → EReal) (op : EReal → EReal → EReal) [Std.Commutative op]
    [Std.Associative op] (hop : ∀ a b, op a b = max a b) (b : EReal) (hb : b = ⊥) : s.fold op b f = s.sup f := by
  classical
  subst hb
  induction s using Finset.induction_on with
  | empty => rw [Finset.fold_empty, Finset.sup_empty]
  | insert a s ha ih => rw [Finset.fold_insert ha, Finset.sup_insert, ih, hop]

/-- The patterns of +∞ and −∞. -/
theorem ofBits_posInf : Ideal.ofBits .f32 0x7F800000#32 = ⊤ := by simp [Ideal.ofBits, Ideal.ieee]
theorem ofBits_negInf : Ideal.ofBits .f32 0xFF800000#32 = ⊥ := by simp [Ideal.ofBits, Ideal.ieee]

abbrev SR : Shape := ⟨2, ![8, 2000000]⟩
abbrev SC8 : Shape := ⟨1, ![8]⟩
abbrev S0 : Shape := ⟨0, ![]⟩

/-- Row `p` with the time step `k` put back on the reduced axis is `(p, k)`. -/
theorem lift_row (h : SR.Reduces [1] SC8) (p : Fin 8) (k : Fin (SR.size 1)) :
    h.lift (ix1 p) k = ix2 p (⟨k.val, k.isLt⟩ : Fin 2000000) := by
  funext c; apply Fin.ext
  match c with
  | ⟨0, _⟩ => rfl
  | ⟨1, _⟩ => rfl

/-- From +∞ the host's minimum over the time axis, at row `p`, is the row's infimum. -/
theorem hostReduce_min_row (y : FVec Ideal SR .f32) (h' : SR.ReducesTo [1] SC8) (hu : 0 < S0.numel) (p : Fin 8) :
    Host.reduce FloatOps.minimumf y (constant (F := Ideal) S0 .f32 0x7F800000#32) h' hu (ix1 p)
      = Cert.MI.infRow (fun t => y (ix2 p t)) := by
  have h : SR.Reduces [1] SC8 := by decide
  rw [Host.reduce_eq_fold_single FloatOps.minimumf y _ h' h hu]
  have hf : (y ∘ h.lift (ix1 p)) = fun k : Fin 2000000 => y (ix2 p k) := funext fun k => congrArg y (lift_row h p k)
  unfold Cert.MI.infRow
  refine Eq.trans ?_ (fold_min_eq_inf (Finset.univ : Finset (Fin 2000000)) (fun t => y (ix2 p t))
    (FloatOps.minimumf (F := Ideal) (φ := .f32)) (fun _ _ => rfl) (Ideal.ofBits .f32 0x7F800000#32) ofBits_posInf)
  exact congrArg (fun f => Finset.fold (FloatOps.minimumf (F := Ideal) (φ := .f32)) (Ideal.ofBits .f32 0x7F800000#32) f
    (Finset.univ : Finset (Fin 2000000))) hf

/-- From −∞ the host's maximum over the time axis, at row `p`, is the row's supremum. -/
theorem hostReduce_max_row (y : FVec Ideal SR .f32) (h' : SR.ReducesTo [1] SC8) (hu : 0 < S0.numel) (p : Fin 8) :
    Host.reduce FloatOps.maximumf y (constant (F := Ideal) S0 .f32 0xFF800000#32) h' hu (ix1 p)
      = Cert.MI.supRow (fun t => y (ix2 p t)) := by
  have h : SR.Reduces [1] SC8 := by decide
  rw [Host.reduce_eq_fold_single FloatOps.maximumf y _ h' h hu]
  have hf : (y ∘ h.lift (ix1 p)) = fun k : Fin 2000000 => y (ix2 p k) := funext fun k => congrArg y (lift_row h p k)
  unfold Cert.MI.supRow
  refine Eq.trans ?_ (fold_max_eq_sup (Finset.univ : Finset (Fin 2000000)) (fun t => y (ix2 p t))
    (FloatOps.maximumf (F := Ideal) (φ := .f32)) (fun _ _ => rfl) (Ideal.ofBits .f32 0xFF800000#32) ofBits_negInf)
  exact congrArg (fun f => Finset.fold (FloatOps.maximumf (F := Ideal) (φ := .f32)) (Ideal.ofBits .f32 0xFF800000#32) f
    (Finset.univ : Finset (Fin 2000000))) hf

end Cert.MI.RowExtrema

end
-- ==== Proof.RefBins.lean ====
/-
  The reference's two bin arrays, read at a mask row and a time step.

  From the mask as floats `Mf` the program forms the complement `1 − Mf`, the two counts (sums along the 64
  columns, from 0), the two masked row sums (contractions over the 64 columns), the two means (sums divided by
  counts), each mean's smallest and largest value over the time axis, the means normalised by them with the guard
  added to the range, and the bins: ten times the normalised value, cut to an integer, clamped into 0 … 9.
  Each step is read at an index; the result is the specification's `binRA` and `binRB`.
-/
import proofs.«150017_j5007931867607_2_alg».proof.Proof.RefReadP
import proofs.«150017_j5007931867607_2_alg».proof.Proof.RowExtrema
import proofs.«150017_j5007931867607_2_alg».proof.Proof.Consts

noncomputable section

namespace Cert.ReferenceIdeal.RefValue

open Cert.ReferenceIdeal Cert.ReferenceIdeal.Gen Idealize.ShloMosaic Idealize.ShloMosaic.ValueIdx

/-- The mask as floats: 1 where the bit is set, 0 where it is not. -/
abbrev maskF (M : IVec S8x64 1) : Cert.MI.SP.Idx → EReal := fun i => FloatOps.uitofp (F := Ideal) .f32 (M i)

variable (X : FVec Ideal S2000000x64 .f32) (M : IVec S8x64 1)

/-- %9: the count of selected columns of row `p`, broadcast along the time axis. -/
theorem cntA_read (p : Fin 8) (t : Fin 2000000) :
    ReadP.val_main_v9 (F := Ideal) M (ix2 p t) = Cert.MI.cntA (maskF M) p := by
  rw [ReadP.val_main_v9_apply, ReadP.val_main_v4_apply, ReadP.val_main_v3_apply, ReadP.val_main_cst_0_apply]
  have e : ∀ k : Fin 64, ReadP.idx_main_v3 (ReadP.idx_main_v4 (ReadP.idx_main_v9 (ix2 p t))) k = ix2 p k :=
    fun k => funext fun a => by match a with | ⟨0, _⟩ => rfl | ⟨1, _⟩ => rfl
  simp only [e, Ideal.ofBits_def]
  rw [Cert.MI.ofBits_zero, zero_add]
  rfl

/-- %22: the count of the other columns of row `p`, broadcast along the time axis. -/
theorem cntB_read (p : Fin 8) (t : Fin 2000000) :
    ReadP.val_main_v22 (F := Ideal) M (ix2 p t) = Cert.MI.cntB (maskF M) p := by
  rw [ReadP.val_main_v22_apply, ReadP.val_main_v6_apply, ReadP.val_main_v5_apply, ReadP.val_main_cst_1_apply]
  have e : ∀ k : Fin 64, ReadP.idx_main_v5 (ReadP.idx_main_v6 (ReadP.idx_main_v22 (ix2 p t))) k = ix2 p k :=
    fun k => funext fun a => by match a with | ⟨0, _⟩ => rfl | ⟨1, _⟩ => rfl
  simp only [e, Ideal.ofBits_def, ReadP.val_main_v2_apply, ReadP.val_main_v1_apply, ReadP.val_main_cst_apply]
  rw [Cert.MI.ofBits_zero, zero_add]
  rfl

/-- %10: the mean of the selected columns. -/
theorem meanA_read (p : Fin 8) (t : Fin 2000000) :
    ReadP.val_main_v10 (F := Ideal) X M (ix2 p t)
      = Ideal.div (Cert.MI.rowA (maskF M) X p t) (Cert.MI.cntA (maskF M) p) := by
  rw [ReadP.val_main_v10_apply, ReadP.val_main_v7_apply, cntA_read]
  have el : ∀ k : Fin 64, ReadP.lidx_main_v7 (ix2 p t) k = ix2 p k :=
    fun k => funext fun a => by match a with | ⟨0, _⟩ => rfl | ⟨1, _⟩ => rfl
  have er : ∀ k : Fin 64, ReadP.ridx_main_v7 (ix2 p t) k = ix2 t k :=
    fun k => funext fun a => by match a with | ⟨0, _⟩ => rfl | ⟨1, _⟩ => rfl
  simp only [el, er]
  rfl

/-- %23: the mean of the other columns. -/
theorem meanB_read (p : Fin 8) (t : Fin 2000000) :
    ReadP.val_main_v23 (F := Ideal) X M (ix2 p t)
      = Ideal.div (Cert.MI.rowB (maskF M) X p t) (Cert.MI.cntB (maskF M) p) := by
  rw [ReadP.val_main_v23_apply, ReadP.val_main_v8_apply, cntB_read]
  have el : ∀ k : Fin 64, ReadP.lidx_main_v8 (ix2 p t) k = ix2 p k :=
    fun k => funext fun a => by match a with | ⟨0, _⟩ => rfl | ⟨1, _⟩ => rfl
  have er : ∀ k : Fin 64, ReadP.ridx_main_v8 (ix2 p t) k = ix2 t k :=
    fun k => funext fun a => by match a with | ⟨0, _⟩ => rfl | ⟨1, _⟩ => rfl
  simp only [el, er, ReadP.val_main_v2_apply, ReadP.val_main_v1_apply, ReadP.val_main_cst_apply, Ideal.ofBits_def]
  rfl

/-- The two families of means, as the specification writes them. -/
abbrev meanA (p : Fin 8) : Fin 2000000 → EReal :=
  fun t => Ideal.div (Cert.MI.rowA (maskF M) X p t) (Cert.MI.cntA (maskF M) p)
abbrev meanB (p : Fin 8) : Fin 2000000 → EReal :=
  fun t => Ideal.div (Cert.MI.rowB (maskF M) X p t) (Cert.MI.cntB (maskF M) p)

/-- %11, %13, %24, %26: the smallest and largest mean of each row. -/
theorem minA_read (p : Fin 8) : ReadP.val_main_v11 (F := Ideal) X M (ix1 p) = Cert.MI.infRow (meanA X M p) := by
  unfold ReadP.val_main_v11 ReadP.val_main_cst_2
  rw [Cert.MI.RowExtrema.hostReduce_min_row]
  exact congrArg Cert.MI.infRow (funext fun t => meanA_read X M p t)
theorem maxA_read (p : Fin 8) : ReadP.val_main_v13 (F := Ideal) X M (ix1 p) = Cert.MI.supRow (meanA X M p) := by
  unfold ReadP.val_main_v13 ReadP.val_main_cst_3
  rw [Cert.MI.RowExtrema.hostReduce_max_row]
  exact congrArg Cert.MI.supRow (funext fun t => meanA_read X M p t)
theorem minB_read (p : Fin 8) : ReadP.val_main_v24 (F := Ideal) X M (ix1 p) = Cert.MI.infRow (meanB X M p) := by
  unfold ReadP.val_main_v24 ReadP.val_main_cst_5
  rw [Cert.MI.RowExtrema.hostReduce_min_row]
  exact congrArg Cert.MI.infRow (funext fun t => meanB_read X M p t)
theorem maxB_read (p : Fin 8) : ReadP.val_main_v26 (F := Ideal) X M (ix1 p) = Cert.MI.supRow (meanB X M p) := by
  unfold ReadP.val_main_v26 ReadP.val_main_cst_6
  rw [Cert.MI.RowExtrema.hostReduce_max_row]
  exact congrArg Cert.MI.supRow (funext fun t => meanB_read X M p t)

/-- %21: the first mean, normalised along the time axis. -/
theorem normA_read (p : Fin 8) (t : Fin 2000000) :
    ReadP.val_main_v21 (F := Ideal) X M (ix2 p t) = Cert.MI.normR (meanA X M p) t := by
  have e1 : ReadP.idx_main_v12 (ReadP.idx_main_v15 (ix2 p t)) = ix1 p :=
    funext fun a => by match a with | ⟨0, _⟩ => rfl
  have e2 : ReadP.idx_main_v14 (ReadP.idx_main_v20 (ix2 p t)) = ix1 p :=
    funext fun a => by match a with | ⟨0, _⟩ => rfl
  have e3 : ReadP.idx_main_v12 (ReadP.idx_main_v20 (ix2 p t)) = ix1 p :=
    funext fun a => by match a with | ⟨0, _⟩ => rfl
  rw [ReadP.val_main_v21_apply, ReadP.val_main_v16_apply, ReadP.val_main_v15_apply, ReadP.val_main_v12_apply, e1,
    ReadP.val_main_v20_apply, ReadP.val_main_v19_apply, ReadP.val_main_v17_apply, ReadP.val_main_v14_apply, e2,
    ReadP.val_main_v12_apply, e3, ReadP.val_main_v18_apply, ReadP.val_main_cst_4_apply, minA_read, maxA_read, meanA_read]
  rfl

/-- %34: the second mean, normalised along the time axis. -/
theorem normB_read (p : Fin 8) (t : Fin 2000000) :
    ReadP.val_main_v34 (F := Ideal) X M (ix2 p t) = Cert.MI.normR (meanB X M p) t := by
  have e1 : ReadP.idx_main_v25 (ReadP.idx_main_v28 (ix2 p t)) = ix1 p :=
    funext fun a => by match a with | ⟨0, _⟩ => rfl
  have e2 : ReadP.idx_main_v27 (ReadP.idx_main_v33 (ix2 p t)) = ix1 p :=
    funext fun a => by match a with | ⟨0, _⟩ => rfl
  have e3 : ReadP.idx_main_v25 (ReadP.idx_main_v33 (ix2 p t)) = ix1 p :=
    funext fun a => by match a with | ⟨0, _⟩ => rfl
  rw [ReadP.val_main_v34_apply, ReadP.val_main_v29_apply, ReadP.val_main_v28_apply, ReadP.val_main_v25_apply, e1,
    ReadP.val_main_v33_apply, ReadP.val_main_v32_apply, ReadP.val_main_v30_apply, ReadP.val_main_v27_apply, e2,
    ReadP.val_main_v25_apply, e3, ReadP.val_main_v31_apply, ReadP.val_main_cst_7_apply, minB_read, maxB_read, meanB_read]
  rfl

/-- %38: the first bin array. -/
theorem binsA_read (p : Fin 8) (t : Fin 2000000) :
    ReadP.val_main_v38 (F := Ideal) X M (ix2 p t) = Cert.MI.binRA (maskF M) X p t := by
  rw [ReadP.val_main_v38_apply, ReadP.val_main_call0_v4_apply, ReadP.val_main_call0_v3_apply,
    ReadP.val_main_c_9_apply, ReadP.val_main_call0_v2_apply, ReadP.val_main_call0_v1_apply, ReadP.val_main_call0_v0_apply,
    ReadP.val_main_c_apply, ReadP.val_main_v37_apply, ReadP.val_main_v36_apply, ReadP.val_main_v35_apply,
    ReadP.val_main_cst_8_apply, normA_read]
  rfl

/-- %42: the second bin array. -/
theorem binsB_read (p : Fin 8) (t : Fin 2000000) :
    ReadP.val_main_v42 (F := Ideal) X M (ix2 p t) = Cert.MI.binRB (maskF M) X p t := by
  rw [ReadP.val_main_v42_apply, ReadP.val_main_call1_v4_apply, ReadP.val_main_call1_v3_apply,
    ReadP.val_main_c_12_apply, ReadP.val_main_call1_v2_apply, ReadP.val_main_call1_v1_apply, ReadP.val_main_call1_v0_apply,
    ReadP.val_main_c_11_apply, ReadP.val_main_v41_apply, ReadP.val_main_v40_apply, ReadP.val_main_v39_apply,
    ReadP.val_main_cst_10_apply, normB_read]
  rfl

end Cert.ReferenceIdeal.RefValue

end
-- ==== Proof.BinWords.lean ====
/-
  The index words of the scatter are never negative, so the wrap-around of negative indices leaves them alone.

  Before it scatters, the program replaces an index `i` by `i + n` when `i < 0` (signed; `n` the extent of
  the axis the index goes to).  A bin word is a word clamped (signed) into 0 … 9 and a row number is 0 … 7: neither
  is negative, and the replacement is the identity on both.
-/
import Idealize.ShloMosaic.Lib.ValueIdx
import Idealize.ShloMosaic.PureOps.Ideal
import proofs.«150017_j5007931867607_2_alg».proof.Proof.Spec

noncomputable section

namespace Cert.MI.BinWords

open Idealize.ShloMosaic Idealize.ShloMosaic.ValueIdx

/-- A clamped word is not below zero. -/
theorem clipW_not_neg (w : BitVec 32) : (Cert.MI.clipW w).slt 0#32 = false := by
  unfold Cert.MI.clipW IntOp.minsi IntOp.maxsi
  by_cases h1 : w.slt 0#32 = true
  · rw [if_pos h1]; decide
  · rw [if_neg h1]
    by_cases h2 : (9#32).slt w = true
    · rw [if_pos h2]; decide
    · rw [if_neg h2]; simpa using h1

/-- The wrap-around of a negative index is the identity on a clamped word. -/
theorem wrap_clipW (w : BitVec 32) :
    Scalar.select (IntOp.cmpi .slt (Cert.MI.clipW w) 0#32) (IntOp.addi (Cert.MI.clipW w) 10#32) (Cert.MI.clipW w)
      = Cert.MI.clipW w := by
  show Scalar.select (BitVec.ofBool ((Cert.MI.clipW w).slt 0#32)) _ _ = _
  rw [clipW_not_neg]
  exact select_zero _ _

/-- The wrap-around of a negative index is the identity on a row number. -/
theorem wrap_row : ∀ p : Fin 8,
    Scalar.select (IntOp.cmpi .slt (BitVec.ofNat 32 p.val) 0#32) (IntOp.addi (BitVec.ofNat 32 p.val) 8#32) (BitVec.ofNat 32 p.val)
      = BitVec.ofNat 32 p.val := by decide

end Cert.MI.BinWords

end
-- ==== Proof.ScatterCount.lean ====
/-
  A scatter-add of ones into a zero histogram counts.

  The operand is an 8 × 10 × 10 array, the updates an 8 × 2000000 array, and update `(p, t)` is sent to the
  cell whose three coordinates are the three words the index array holds at `(p, t, 0)`, `(p, t, 1)`,
  `(p, t, 2)`, read as signed integers; an update whose triple is not a cell is dropped.  No window axes: every
  operand axis is an inserted one.  So the element at cell `(a, x, y)` is the operand's element plus the sum of
  the updates whose triple is `(a, x, y)`.  When the first word at `(p, t)` is `p` itself, only row `a` of the
  updates reaches row `a` of the operand, and with every update one and the operand zero the cell holds the
  number of time steps `t` whose two other words are `x` and `y`: the joint histogram of the two word families.
-/
import Idealize.ShloMosaic.Lib.ValueIdx
import Idealize.ShloMosaic.PureOps.Ideal
import proofs.«150017_j5007931867607_2_alg».proof.Proof.Spec

noncomputable section

namespace Cert.MI.ScatterCount

open Idealize.ShloMosaic Idealize.ShloMosaic.ValueIdx

/-- The histogram's shape, the index array's, the updates'. -/
abbrev SJ : Shape := ⟨3, ![8, 10, 10]⟩
abbrev SI : Shape := ⟨3, ![8, 2000000, 3]⟩
abbrev SU : Shape := ⟨2, ![8, 2000000]⟩

/-- The scatter's dimension numbers: no window axes, the index vector along the last axis of the index array,
    its three components going to the operand's three axes in order. -/
abbrev dims (w : ScatterDims.WF SJ SI SU [] [0, 1, 2] [0, 1, 2] 2) : ScatterDims SJ SI SU :=
  ⟨[], [0, 1, 2], [0, 1, 2], 2, w⟩

variable (w : ScatterDims.WF SJ SI SU [] [0, 1, 2] [0, 1, 2] 2)

/-- There is no window: the window coordinate is zero on every operand axis. -/
theorem window_eq (j : SU.Idx) (a : Fin 3) : (dims w).window j a = 0 := by
  unfold ScatterDims.window
  exact dif_neg (List.not_mem_nil)

/-- Update `(p, t)` reads component `c` of its start index at `(p, t, c)`. -/
theorem siIdx_eq (p : Fin 8) (t : Fin 2000000) (c : Fin 3) : (dims w).siIdx (ix2 p t) c = ix3 p t c := by
  funext b
  match b with
  | ⟨0, _⟩ => rfl
  | ⟨1, _⟩ => rfl
  | ⟨2, _⟩ => rfl

/-- The start on operand axis `a` is the word at `(p, t, a)`, read signed. -/
theorem start_eq (p : Fin 8) (t : Fin 2000000) (idx : IVec SI 32) (a : Fin 3) :
    (dims w).start (ix2 p t) idx a = (idx (ix3 p t a)).toInt := by
  match a with
  | ⟨0, _⟩ => exact congrArg (fun i => (idx i).toInt) (siIdx_eq w p t 0)
  | ⟨1, _⟩ => exact congrArg (fun i => (idx i).toInt) (siIdx_eq w p t 1)
  | ⟨2, _⟩ => exact congrArg (fun i => (idx i).toInt) (siIdx_eq w p t 2)

/-- Update `(p, t)` lands on cell `i` exactly when its three words, read signed, are `i`'s coordinates. -/
theorem resultIdx?_eq_some_iff (p : Fin 8) (t : Fin 2000000) (idx : IVec SI 32) (i : SJ.Idx) :
    (dims w).resultIdx? (ix2 p t) idx = some i ↔ ∀ a : Fin 3, (idx (ix3 p t a)).toInt = ((i a).val : Int) := by
  unfold ScatterDims.resultIdx?
  simp only [start_eq, window_eq, Nat.cast_zero, add_zero]
  split
  · next h =>
    rw [Option.some.injEq]
    constructor
    · intro e a
      have := congrArg (fun f : SJ.Idx => ((f a).val : Int)) e
      simp only at this
      rw [← this, Int.toNat_of_nonneg (h a).1]
    · intro e
      funext a
      exact Fin.ext (by simp only [e a, Int.toNat_natCast])
  · next h =>
    constructor
    · intro e; exact absurd e (by simp)
    · intro e
      exact absurd (fun a => ⟨by rw [e a]; exact Int.natCast_nonneg _, by rw [e a]; exact_mod_cast (i a).isLt⟩) h

/-- The accumulating scatter at a cell: the operand's element plus the updates whose three words name the cell. -/
theorem scatterAdd_apply (x0 : SJ.Idx → EReal) (idx : IVec SI 32) (upd : SU.Idx → EReal) (a : Fin 8) (x y : Fin 10) :
    Ideal.hostScatterAdd (dims w) x0 idx upd (ix3 a x y)
      = x0 (ix3 a x y) + ∑ p : Fin 8, ∑ t : Fin 2000000,
          if ((idx (ix3 p t 0)).toInt = (a.val : Int) ∧ (idx (ix3 p t 1)).toInt = (x.val : Int)
              ∧ (idx (ix3 p t 2)).toInt = (y.val : Int)) then upd (ix2 p t) else 0 := by
  unfold Ideal.hostScatterAdd
  refine congrArg (x0 _ + ·) ?_
  rw [Finset.sum_filter, sum_idx2]
  refine Finset.sum_congr rfl fun p _ => Finset.sum_congr rfl fun t _ => ?_
  refine if_congr ?_ rfl rfl
  rw [resultIdx?_eq_some_iff]
  constructor
  · intro h; exact ⟨h 0, h 1, h 2⟩
  · rintro ⟨h0, h1, h2⟩ b
    match b with
    | ⟨0, _⟩ => exact h0
    | ⟨1, _⟩ => exact h1
    | ⟨2, _⟩ => exact h2

/-- A row number, as a 32-bit word read signed, is itself. -/
theorem toInt_row : ∀ p : Fin 8, (BitVec.ofNat 32 p.val).toInt = (p.val : Int) := by decide

/-- A bin number, as a 32-bit word read signed, is itself. -/
theorem toInt_bin : ∀ x : Fin 10, (BitVec.ofNat 32 x.val).toInt = (x.val : Int) := by decide

/-- A word reads signed as the bin number `x` exactly when it is the word `x`. -/
theorem toInt_eq_bin_iff (v : BitVec 32) (x : Fin 10) : v.toInt = (x.val : Int) ↔ v = BitVec.ofNat 32 x.val :=
  ⟨fun h => BitVec.eq_of_toInt_eq (h.trans (toInt_bin x).symm), fun h => h ▸ toInt_bin x⟩

/-- Ones scattered into zeros at the triples `(p, bx p t, bz p t)` leave the joint histogram of `bx` and `bz`. -/
theorem scatterAdd_ones (x0 : SJ.Idx → EReal) (idx : IVec SI 32) (upd : SU.Idx → EReal)
    (bx bz : Fin 8 → Fin 2000000 → BitVec 32)
    (hx0 : ∀ i, x0 i = 0) (hupd : ∀ j, upd j = 1)
    (h0 : ∀ p t, idx (ix3 p t 0) = BitVec.ofNat 32 p.val)
    (h1 : ∀ p t, idx (ix3 p t 1) = bx p t) (h2 : ∀ p t, idx (ix3 p t 2) = bz p t)
    (a : Fin 8) (x y : Fin 10) :
    Ideal.hostScatterAdd (dims w) x0 idx upd (ix3 a x y) = Cert.MI.joint bx bz a x y := by
  rw [scatterAdd_apply, hx0, zero_add]
  unfold Cert.MI.joint
  rw [Finset.sum_eq_single a]
  · refine Finset.sum_congr rfl fun t _ => ?_
    rw [h0, h1, h2, hupd]
    unfold Cert.MI.oh
    simp only [toInt_row, true_and, toInt_eq_bin_iff]
    by_cases hx : bx a t = BitVec.ofNat 32 x.val <;> by_cases hy : bz a t = BitVec.ofNat 32 y.val <;> simp [hx, hy]
  · intro p _ hp
    refine Finset.sum_eq_zero fun t _ => ?_
    rw [h0, toInt_row]
    exact if_neg fun h => hp (Fin.ext (by exact_mod_cast h.1))
  · intro h; exact absurd (Finset.mem_univ a) h

end Cert.MI.ScatterCount

end
-- ==== Proof.RefScatter.lean ====
/-
  The reference's joint histogram, read at a cell.

  The scatter's index array stacks three arrays along a last axis of length three: the row number `p`, and the
  two bin arrays, each first passed through the wrap-around of negative indices, which changes none of them.
  Ones are scattered with these triples into zeros, so cell `(p, x, y)` ends as the number of time steps of row
  `p` whose bins are `x` and `y`: the specification's `joint` of the two bin families.
-/
import proofs.«150017_j5007931867607_2_alg».proof.Proof.RefStage
import proofs.«150017_j5007931867607_2_alg».proof.Proof.RefBins
import proofs.«150017_j5007931867607_2_alg».proof.Proof.BinWords
import proofs.«150017_j5007931867607_2_alg».proof.Proof.ScatterCount

noncomputable section

namespace Cert.ReferenceIdeal.RefValue

open Cert.ReferenceIdeal Cert.ReferenceIdeal.Gen Idealize.ShloMosaic Idealize.ShloMosaic.ValueIdx

variable (X : FVec Ideal S2000000x64 .f32) (M : IVec S8x64 1)

/-- %51: the row numbers, after the wrap-around. -/
theorem rowIdx_read (p : Fin 8) (t : Fin 2000000) :
    ReadP.val_main_v51 (F := Ideal) (ix2 p t) = BitVec.ofNat 32 p.val := by
  have e : ReadP.idx_main_v44 (ReadP.idx_main_v45 (ix2 p t)) = ix1 p :=
    funext fun a => by match a with | ⟨0, _⟩ => rfl
  rw [ReadP.val_main_v51_apply, ReadP.val_main_v48_apply, ReadP.val_main_v50_apply, ReadP.val_main_v45_apply,
    ReadP.val_main_v44_apply, ReadP.val_main_v43_apply, ReadP.val_main_v47_apply, ReadP.val_main_c_14_apply,
    ReadP.val_main_v49_apply, ReadP.val_main_c_15_apply, e]
  exact Cert.MI.BinWords.wrap_row p

/-- %56: the first bins, after the wrap-around. -/
theorem binIdxA_read (p : Fin 8) (t : Fin 2000000) :
    ReadP.val_main_v56 (F := Ideal) X M (ix2 p t) = Cert.MI.binRA (maskF M) X p t := by
  rw [ReadP.val_main_v56_apply, ReadP.val_main_v53_apply, ReadP.val_main_v55_apply, ReadP.val_main_v52_apply,
    ReadP.val_main_c_16_apply, ReadP.val_main_v54_apply, ReadP.val_main_c_17_apply, binsA_read]
  unfold Cert.MI.binRA Cert.MI.binOf
  exact Cert.MI.BinWords.wrap_clipW _

/-- %61: the second bins, after the wrap-around. -/
theorem binIdxB_read (p : Fin 8) (t : Fin 2000000) :
    ReadP.val_main_v61 (F := Ideal) X M (ix2 p t) = Cert.MI.binRB (maskF M) X p t := by
  rw [ReadP.val_main_v61_apply, ReadP.val_main_v58_apply, ReadP.val_main_v60_apply, ReadP.val_main_v57_apply,
    ReadP.val_main_c_18_apply, ReadP.val_main_v59_apply, ReadP.val_main_c_19_apply, binsB_read]
  unfold Cert.MI.binRB Cert.MI.binOf
  exact Cert.MI.BinWords.wrap_clipW _

/-- %65 at `(p, t, 0)`: the row number. -/
theorem stack0_read (p : Fin 8) (t : Fin 2000000) :
    ReadP.val_main_v65 (F := Ideal) X M (ix3 p t 0) = BitVec.ofNat 32 p.val := by
  unfold ReadP.val_main_v65
  refine (concatenate_apply_piece _ _ _ (ix3 p t 0) 0 (by show (0 : Nat) < 3; omega) S8x2000000x1 (ReadP.val_main_v62 (F := Ideal)) (by rfl) (by rfl)
    0 (by rfl) (ix3 p t 0) (fun b hb => ?_) (by rfl)).trans ?_
  · match b with
    | ⟨0, _⟩ => rfl
    | ⟨1, _⟩ => rfl
    | ⟨2, _⟩ => exact absurd rfl hb
  · have e : ReadP.idx_main_v62 (ix3 p t 0) = ix2 p t :=
      funext fun a => by match a with | ⟨0, _⟩ => rfl | ⟨1, _⟩ => rfl
    rw [ReadP.val_main_v62_apply, e, rowIdx_read]

/-- %65 at `(p, t, 1)`: the first bin. -/
theorem stack1_read (p : Fin 8) (t : Fin 2000000) :
    ReadP.val_main_v65 (F := Ideal) X M (ix3 p t 1) = Cert.MI.binRA (maskF M) X p t := by
  unfold ReadP.val_main_v65
  refine (concatenate_apply_piece _ _ _ (ix3 p t 1) 1 (by show (1 : Nat) < 3; omega) S8x2000000x1 (ReadP.val_main_v63 (F := Ideal) X M) (by rfl) (by rfl)
    1 (by rfl) (ix3 p t 0) (fun b hb => ?_) (by rfl)).trans ?_
  · match b with
    | ⟨0, _⟩ => rfl
    | ⟨1, _⟩ => rfl
    | ⟨2, _⟩ => exact absurd rfl hb
  · have e : ReadP.idx_main_v63 (ix3 p t 0) = ix2 p t :=
      funext fun a => by match a with | ⟨0, _⟩ => rfl | ⟨1, _⟩ => rfl
    rw [ReadP.val_main_v63_apply, e, binIdxA_read]

/-- %65 at `(p, t, 2)`: the second bin. -/
theorem stack2_read (p : Fin 8) (t : Fin 2000000) :
    ReadP.val_main_v65 (F := Ideal) X M (ix3 p t 2) = Cert.MI.binRB (maskF M) X p t := by
  unfold ReadP.val_main_v65
  refine (concatenate_apply_piece _ _ _ (ix3 p t 2) 2 (by show (2 : Nat) < 3; omega) S8x2000000x1 (ReadP.val_main_v64 (F := Ideal) X M) (by rfl) (by rfl)
    2 (by rfl) (ix3 p t 0) (fun b hb => ?_) (by rfl)).trans ?_
  · match b with
    | ⟨0, _⟩ => rfl
    | ⟨1, _⟩ => rfl
    | ⟨2, _⟩ => exact absurd rfl hb
  · have e : ReadP.idx_main_v64 (ix3 p t 0) = ix2 p t :=
      funext fun a => by match a with | ⟨0, _⟩ => rfl | ⟨1, _⟩ => rfl
    rw [ReadP.val_main_v64_apply, e, binIdxB_read]

/-- The zeros the scatter starts from, and the ones it adds. -/
theorem zeros_read (i : S8x10x10.Idx) : ReadP.val_main_v46 (F := Ideal) i = 0 := by
  rw [ReadP.val_main_v46_apply, ReadP.val_main_cst_13_apply, Ideal.ofBits_def]; exact Cert.MI.ofBits_zero
theorem ones_read (j : S8x2000000.Idx) : ReadP.val_main_v66 (F := Ideal) j = 1 := by
  rw [ReadP.val_main_v66_apply, ReadP.val_main_cst_20_apply, Ideal.ofBits_def]; exact Cert.MI.one_eq

/-- The host's accumulating scatter with the program's dimension numbers, at the ideal instance, is the exact
    sum this module's counting lemma is stated for. -/
theorem hostScatter_eq (x0 : FVec Ideal S8x10x10 .f32) (idx : IVec S8x2000000x3 32) (upd : FVec Ideal S8x2000000 .f32)
    (i : S8x10x10.Idx) :
    Host.scatterAdd (F := Ideal) scatter_S8x10x10_S8x2000000x3_S8x2000000_n_012_012_2 x0 idx upd i
      = Ideal.hostScatterAdd (Cert.MI.ScatterCount.dims scatter_S8x10x10_S8x2000000x3_S8x2000000_n_012_012_2_wf) x0 idx upd i :=
  rfl

/-- %67 is the accumulating scatter of the ones into the zeros at the stacked index triples. -/
theorem scatterStage_eq (i : S8x10x10.Idx) :
    scatterStage X M i
      = Ideal.hostScatterAdd (Cert.MI.ScatterCount.dims scatter_S8x10x10_S8x2000000x3_S8x2000000_n_012_012_2_wf)
          (ReadP.val_main_v46 (F := Ideal)) (ReadP.val_main_v65 (F := Ideal) X M) (ReadP.val_main_v66 (F := Ideal)) i :=
  hostScatter_eq (ReadP.val_main_v46 (F := Ideal)) (ReadP.val_main_v65 (F := Ideal) X M) (ReadP.val_main_v66 (F := Ideal)) i

/-- The joint histogram the reference scatters is the specification's joint histogram of its two bin families. -/
theorem scatterStage_apply (p : Fin 8) (x y : Fin 10) :
    scatterStage X M (ValueIdx.ix3 p x y)
      = Cert.MI.joint (Cert.MI.binRA (fun i => FloatOps.uitofp (F := Ideal) .f32 (M i)) X)
          (Cert.MI.binRB (fun i => FloatOps.uitofp (F := Ideal) .f32 (M i)) X) p x y :=
  (scatterStage_eq X M (ix3 p x y)).trans
    (Cert.MI.ScatterCount.scatterAdd_ones scatter_S8x10x10_S8x2000000x3_S8x2000000_n_012_012_2_wf
      (ReadP.val_main_v46 (F := Ideal)) (ReadP.val_main_v65 (F := Ideal) X M) (ReadP.val_main_v66 (F := Ideal))
      (Cert.MI.binRA (maskF M) X) (Cert.MI.binRB (maskF M) X) zeros_read ones_read
      (stack0_read X M) (stack1_read X M) (stack2_read X M) p x y)

end Cert.ReferenceIdeal.RefValue

end
-- ==== Proof.lean ====
/-
  The kernel program and the reference compute the same two results on the extended reals.

  Both programs form, for each of eight mask rows, the sums of the state's entries on the selected and on the
  unselected columns at every time step, normalise each along the time axis, cut the normalised values into ten
  bins, count the joint histogram of the two bins, and send the histogram through one and the same tail (row
  normalisation, marginals, the sum of p · log(p / (px · py)) with guards, a maximum with zero, a minimum over the
  rows).  The kernel program normalises the sums, with the guard scaled by the number of selected columns, and
  counts by a product of one-hot matrices, half of the time axis on each core; the reference normalises the
  means and counts by a scatter-add of ones.  Under the precondition every entry of the state is a real number, so
  for a mask row that selects at least one column the two normalised values are one real number; for a mask row
  that selects none (or all) the two normalised values differ, but both are cut to bin 0.  Hence the two bins agree at
  every row and time step, the two histograms are equal, and so are the results.
-/
import proofs.«150017_j5007931867607_2_alg».proof.Defs
import proofs.«150017_j5007931867607_2_alg».proof.Proof.Gen.Kernel
import proofs.«150017_j5007931867607_2_alg».proof.Proof.Gen.Kernel.Skeleton
import proofs.«150017_j5007931867607_2_alg».proof.Proof.Gen.Kernel.Launch
import proofs.«150017_j5007931867607_2_alg».proof.Proof.Gen.Kernel.Points
import proofs.«150017_j5007931867607_2_alg».proof.Proof.Gen.Kernel.Frame
import proofs.«150017_j5007931867607_2_alg».proof.Proof.Gen.KernelIdeal
import proofs.«150017_j5007931867607_2_alg».proof.Proof.Gen.KernelIdeal.Skeleton
import proofs.«150017_j5007931867607_2_alg».proof.Proof.Gen.KernelIdeal.Launch
import proofs.«150017_j5007931867607_2_alg».proof.Proof.Gen.KernelIdeal.Points
import proofs.«150017_j5007931867607_2_alg».proof.Proof.Gen.KernelIdeal.Frame
import proofs.«150017_j5007931867607_2_alg».proof.Proof.Gen.ReferenceIdeal
import proofs.«150017_j5007931867607_2_alg».proof.Proof.Gen.Pre_finite_inputs
import proofs.«150017_j5007931867607_2_alg».proof.Proof.KernelRun
import proofs.«150017_j5007931867607_2_alg».proof.Proof.KernelJoint
import proofs.«150017_j5007931867607_2_alg».proof.Proof.FiniteState
import proofs.«150017_j5007931867607_2_alg».proof.Proof.RefRun
import proofs.«150017_j5007931867607_2_alg».proof.Proof.RefScatter
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The two programs apply the same tail to the histogram. -/
theorem tail_eq (J : FVec Ideal Cert.KernelIdeal.S8x10x10 .f32) :
    Cert.KernelIdeal.KValue.tailK J = Cert.ReferenceIdeal.RefValue.tailR J := rfl

/-- Under the precondition the kernel program's histogram is the reference's, cell by cell. -/
theorem joint_eq (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.KernelIdeal.KValue.jointK m ρ c
      = Cert.ReferenceIdeal.RefValue.scatterStage (Cert.KernelIdeal.KValue.Xs m c)
          (m ((c.tc : Thread Cert.KernelIdeal.nD Cert.KernelIdeal.τ).loc Cert.KernelIdeal.main_arg1)) := by
  funext i
  obtain ⟨p, x, y, rfl⟩ : ∃ (p : Fin 8) (x y : Fin 10), i = ix3 p x y := ⟨i 0, i 1, i 2, eq_ix3 i⟩
  rw [Cert.KernelIdeal.KValue.jointK_eq, Cert.ReferenceIdeal.RefValue.scatterStage_apply]
  refine Cert.MI.joint_agree _ _ (fun j => Cert.MI.mask01 _) (fun j => ?_) _ _ _
  exact Cert.Pre_finite_inputs.Read.real_of_pre _ _ (hpre c) j

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => ⟨(h c).2.2.1, (h c).2.2.2⟩)
    (Cert.ReferenceIdeal.RefValue.run_value m ρ)

/-- Both programs end with the tail of one histogram. -/
theorem algebraic : Cert.algebraic_KernelIdeal_ReferenceIdeal := by
  intro m ρ m' ρ' hpre hagree
  refine ⟨fun c => (Cert.ReferenceIdeal.RefValue.tailR (Cert.ReferenceIdeal.RefValue.scatterStage
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)))).1,
    fun c => (Cert.ReferenceIdeal.RefValue.tailR (Cert.ReferenceIdeal.RefValue.scatterStage
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)))).2, ?_, ?_⟩
  · refine (θ_run Cert.KernelIdeal.defs _ _).mono (fun r h c => ?_) (Cert.KernelIdeal.RunValue.run_values m ρ)
    obtain ⟨h43, h42, ha0, ha1⟩ := h c
    have hj := joint_eq m ρ hpre c
    dsimp only
    rw [(hagree c).1, (hagree c).2]
    refine ⟨h43.trans ?_, h42.trans ?_, ha0, ha1⟩
    · rw [Cert.KernelIdeal.KValue.W5_v43, hj, tail_eq]
    · rw [Cert.KernelIdeal.KValue.W5_v42, hj, tail_eq]
  · exact Cert.ReferenceIdeal.RefValue.run_value m' ρ'

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
